-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v112)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x200000 : Shape := ⟨2, ![2, 200000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S3x128 .f32) (main_arg10 : FVec F S128x2 .f32) (main_arg11 : FVec F S2 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S3x128 .f32) (main_arg7 : FVec F S3x128x128 .f32) (main_arg8 : FVec F S3x128x128 .f32) (main_arg9 : FVec F S3x128 .f32) (main_arg10 : FVec F S128x2 .f32) (main_arg11 : FVec F S2 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S2x200000 32) (main_arg3 : FVec F S50000x128 .f32) (main_arg4 : FVec F S3x128x128 .f32) (main_arg5 : FVec F S3x128x128 .f32) (main_arg6 : FVec F S3x128 .f32) (main_arg7 : FVec F S3x128x128 .f32) (main_arg8 : FVec F S3x128x128 .f32) (main_arg9 : FVec F S3x128 .f32) (main_arg10 : FVec F S128x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S2x200000 : Shape := ⟨2, ![2, 200000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S2x128x128 : Shape := ⟨3, ![2, 128, 128]⟩
abbrev S2x128 : Shape := ⟨2, ![2, 128]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S1x1 : Shape := ⟨2, ![1, 1]⟩
abbrev S5000x128 : Shape := ⟨2, ![5000, 128]⟩
abbrev S5000x1 : Shape := ⟨2, ![5000, 1]⟩
abbrev S5000 : Shape := ⟨1, ![5000]⟩

abbrev nBuf : Space → Nat
  | .hbm => 152
  | .vmem => 46
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S50000x128, .f32⟩
  | 4 => ⟨S3x128x128, .f32⟩
  | 5 => ⟨S3x128x128, .f32⟩
  | 6 => ⟨S3x128, .f32⟩
  | 7 => ⟨S3x128x128, .f32⟩
  | 8 => ⟨S3x128x128, .f32⟩
  | 9 => ⟨S3x128, .f32⟩
  | 10 => ⟨S128x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S2x128x128, .f32⟩
  | 86 => ⟨S2x128x128, .f32⟩
  | 87 => ⟨S2x128, .f32⟩
  | 88 => ⟨S2x128x128, .f32⟩
  | 89 => ⟨S2x128x128, .f32⟩
  | 90 => ⟨S2x128, .f32⟩
  | 91 => ⟨S50000x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x1, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S1x128x128, .f32⟩
  | 116 => ⟨S128x128, .f32⟩
  | 117 => ⟨S1x128x128, .f32⟩
  | 118 => ⟨S128x128, .f32⟩
  | 119 => ⟨S1x128, .f32⟩
  | 120 => ⟨S128, .f32⟩
  | 121 => ⟨S50000x128, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S50000x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S1x200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x128, .f32⟩
  | 16 => ⟨S_, .f32⟩
  | 17 => ⟨S128, .f32⟩
  | 18 => ⟨S_, .f32⟩
  | 19 => ⟨S_, .f32⟩
  | 20 => ⟨S1x128, .f32⟩
  | 21 => ⟨S1x1, .f32⟩
  | 22 => ⟨S200000x1, .f32⟩
  | 23 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2x128x128, .f32⟩
  | .local _ .vmem, ⟨9, _⟩ => ⟨S2x128x128, .f32⟩
  | .local _ .vmem, ⟨10, _⟩ => ⟨S2x128, .f32⟩
  | .local _ .vmem, ⟨11, _⟩ => ⟨S2x128x128, .f32⟩
  | .local _ .vmem, ⟨12, _⟩ => ⟨S2x128x128, .f32⟩
  | .local _ .vmem, ⟨13, _⟩ => ⟨S2x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128x128, .f32⟩
  | .local _ .vmem, ⟨35, _⟩ => ⟨S128, .f32⟩
  | .local _ .vmem, ⟨36, _⟩ => ⟨S2000x128, .f32⟩
  | .local _ .vmem, ⟨37, _⟩ => ⟨S2000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x1, .f32⟩
  | .local _ .vmem, ⟨44, _⟩ => ⟨S5000x1, .f32⟩
  | .local _ .vmem, ⟨45, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62_0 : Ref sig .tc := ⟨.hbm, 91, rfl⟩
abbrev main_v62_1 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_16 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_c_18 : Ref sig .tc := ⟨.hbm, 135, rfl⟩
abbrev main_v100 : Ref sig .tc := ⟨.hbm, 136, rfl⟩
abbrev main_v101 : Ref sig .tc := ⟨.hbm, 137, rfl⟩
abbrev main_c_19 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg12_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg4_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem12_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem4_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S2x128x128_0_0_0 : S3x128x128.Slices ![0, 0, 0] S2x128x128
  slices_S3x128_S2x128_0_0 : S3x128.Slices ![0, 0] S2x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  bitsLt_bf16_f32 : FTy.bits .bf16 < FTy.bits .f32
  slices_S2x128x128_o0_0_0_S1x128x128 : S2x128x128.Slices ![0, 0, 0] S1x128x128
  shapeCasts_S1x128x128_S128x128 : S1x128x128.ShapeCasts S128x128
  slices_S2x128_o0_0_S1x128 : S2x128.Slices ![0, 0] S1x128
  shapeCasts_S1x128_S128 : S1x128.ShapeCasts S128
  shapeCasts_S128_S1x128 : S128.ShapeCasts S1x128
  broadcasts_S1x128_S2000x128 : S1x128.Broadcasts S2000x128
  slices_S2x128x128_o1_0_0_S1x128x128 : S2x128x128.Slices ![1, 0, 0] S1x128x128
  slices_S2x128_o1_0_S1x128 : S2x128.Slices ![1, 0] S1x128
  slices_S3x128x128_S1x128x128_2_0_0 : S3x128x128.Slices ![2, 0, 0] S1x128x128
  slices_S3x128_S1x128_2_0 : S3x128.Slices ![2, 0] S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S128x2_S128_d1 : S128x2.ReducesTo [1] S128
  h_S_ : 0 < S_.numel
  reducesTo_S2_S_d0 : S2.ReducesTo [0] S_
  shapeCasts_S_S1x1 : S_.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128x128.size a ≤ S2x128x128.size a
  hwx0_4 : ∀ i : grid0.Coords, EltTy.bits .f32 = 32 ∨ (Rect.block (s := S2x128x128) S2x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x128x128.size a ≤ S2x128x128.size a
  hwx0_5 : ∀ i : grid0.Coords, EltTy.bits .f32 = 32 ∨ (Rect.block (s := S2x128x128) S2x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128x128.size a ≤ S2x128x128.size a
  hwx0_7 : ∀ i : grid0.Coords, EltTy.bits .f32 = 32 ∨ (Rect.block (s := S2x128x128) S2x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128x128.size a ≤ S2x128x128.size a
  hwx0_8 : ∀ i : grid0.Coords, EltTy.bits .f32 = 32 ∨ (Rect.block (s := S2x128x128) S2x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x128.size a ≤ S2x128.size a
  hwx0_9 : ∀ i : grid0.Coords, EltTy.bits .f32 = 32 ∨ (Rect.block (s := S2x128) S2x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S200000x1.size a
  hwx2_4 : ∀ i : grid2.Coords, EltTy.bits .f32 = 32 ∨ (Rect.block (s := S200000x1) S5000x1.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v56) S2x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S2x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S2x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S2x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S2x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v61) S2x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v62_0) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v62_1) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v62_0) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v77) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v79) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v83) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v85) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v87) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v88) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v97) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v109) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v110) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v111) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x200000 : Shape := ⟨2, ![2, 200000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x2 : Shape := ⟨2, ![200000, 2]⟩
abbrev S1x2 : Shape := ⟨2, ![1, 2]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S2x800000, .i32⟩
  | 2 => ⟨S2x200000, .i32⟩
  | 3 => ⟨S50000x128, .f32⟩
  | 4 => ⟨S3x128x128, .f32⟩
  | 5 => ⟨S3x128x128, .f32⟩
  | 6 => ⟨S3x128, .f32⟩
  | 7 => ⟨S3x128x128, .f32⟩
  | 8 => ⟨S3x128x128, .f32⟩
  | 9 => ⟨S3x128, .f32⟩
  | 10 => ⟨S128x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x1, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128x128, .f32⟩
  | 86 => ⟨S128x128, .f32⟩
  | 87 => ⟨S50000x128, .f32⟩
  | 88 => ⟨S1x128x128, .f32⟩
  | 89 => ⟨S128x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128x128, .f32⟩
  | 101 => ⟨S128x128, .f32⟩
  | 102 => ⟨S50000x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x128x128, .f32⟩
  | 119 => ⟨S128x128, .f32⟩
  | 120 => ⟨S50000x128, .f32⟩
  | 121 => ⟨S1x128x128, .f32⟩
  | 122 => ⟨S128x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S1x128x128, .f32⟩
  | 6 => ⟨S128x128, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S1x128x128, .f32⟩
  | 28 => ⟨S128x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S800000x1, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x128x128, .f32⟩
  | 53 => ⟨S128x128, .f32⟩
  | 54 => ⟨S50000x128, .f32⟩
  | 55 => ⟨S1x128x128, .f32⟩
  | 56 => ⟨S128x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x200000, .i32⟩
  | 76 => ⟨S200000, .i32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x128, .f32⟩
  | 86 => ⟨S1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000x128, .f32⟩
  | 97 => ⟨S200000x128, .f32⟩
  | 98 => ⟨S200000x2, .f32⟩
  | 99 => ⟨S1x2, .f32⟩
  | 100 => ⟨S200000x2, .f32⟩
  | 101 => ⟨S200000x2, .f32⟩
  | 102 => ⟨S_, .f32⟩
  | 103 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_15 : Ref sig .tc := ⟨.hbm, 145, rfl⟩
abbrev main_v114 : Ref sig .tc := ⟨.hbm, 146, rfl⟩
abbrev main_v115 : Ref sig .tc := ⟨.hbm, 147, rfl⟩
abbrev main_cst_16 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_17 : Ref sig .tc := ⟨.hbm, 164, rfl⟩
abbrev main_v131 : Ref sig .tc := ⟨.hbm, 165, rfl⟩
abbrev main_v132 : Ref sig .tc := ⟨.hbm, 166, rfl⟩
abbrev main_c_18 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_19 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_20 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_call1_cst : Ref sig .tc := ⟨.hbm, 200, rfl⟩
abbrev main_call1_v0 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_c_21 : Ref sig .tc := ⟨.hbm, 205, rfl⟩
abbrev main_v166 : Ref sig .tc := ⟨.hbm, 206, rfl⟩
abbrev main_v167 : Ref sig .tc := ⟨.hbm, 207, rfl⟩
abbrev main_c_22 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_c_23 : Ref sig .tc := ⟨.hbm, 216, rfl⟩
abbrev main_v175 : Ref sig .tc := ⟨.hbm, 217, rfl⟩
abbrev main_v176 : Ref sig .tc := ⟨.hbm, 218, rfl⟩
abbrev main_c_24 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_25 : Ref sig .tc := ⟨.hbm, 230, rfl⟩
abbrev main_v187 : Ref sig .tc := ⟨.hbm, 231, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]
  dot_S200000x128_S128x2_S200000x2_1_0_0_1_n_n_wf : DotDims.WF S200000x128 S128x2 S200000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x128_S128x2_S200000x2_1_0_0_1_n_n : DotDims S200000x128 S128x2 S200000x2 where
  lhsContracting := [1]
  rhsContracting := [0]
  lhsNonContracting := [0]
  rhsNonContracting := [1]
  lhsBatch := []
  rhsBatch := []
  wf := dot_S200000x128_S128x2_S200000x2_1_0_0_1_n_n_wf

class Facts : Prop extends Facts₀ where

variable [Facts]
-- ==== Proof.KernelRun.lean ====
/-
  The idealized kernel's run with its two results named. @main is nine segments: three stretches of host
  operations, the first gate kernel, a stretch, the second gate kernel, a stretch, the score kernel, a last
  reshape. After the last segment every buffer the program owns holds the contents the fold `W9` gives it —
  a stretch's buffers at its operations' values, a kernel's arrays at what its write-backs leave — so the
  two result buffers (the scores `main_v112`, the new state `main_v88`) are `W9` read at them, and every
  argument is as launched.
-/
import proofs.«138199_j35132832481406_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the scores and the new state at the last
    boundary's contents `W9` and every argument array as launched. -/
theorem run : θ_run defs (onTc (τ := τ) (main (F := F))) ⟨m, fun _ => 0, ρ⟩ (fun r => ∀ c : Dev nD,
      r.2.mem ((c.tc : Thread nD τ).loc main_v112) = W9 m ρ c (Proc.devRef .tc main_v112)
      ∧ r.2.mem ((c.tc : Thread nD τ).loc main_v88) = W9 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v112 (by decide)),
       h c _ (mem_uc main_v88 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.RunValue

end
-- ==== Proof.HostReads.lean ====
/-
  What each kernel of the idealized program finds in its input buffers, as terms of the launch memory.

  @main is: host operations, the first gate kernel, host operations, the second gate kernel, host operations, the
  score kernel, a reshape. Between kernels a buffer holds what the last operation that wrote it left: a stretch's
  result is its operations' composed value, a kernel's output array is what its write-backs leave, and everything
  else is carried. Here: the arguments, which no operation writes, and the slices of the stacked weights.
-/
import proofs.«138199_j35132832481406_2_alg».proof.Proof.Gen.KernelIdeal.Frame
import Idealize.ShloMosaic.Lib.StableHlo.Run
import Idealize.ShloMosaic.PureOps.Ideal

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## A kernel's input arrays leave it as they entered -/

/-- An input array of the first gate kernel leaves it as it entered. -/
theorem W4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))

/-- An input array of the second gate kernel leaves it as it entered. -/
theorem W6_in (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

/-! ## Before the first gate kernel -/

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
theorem W3_arg1 : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results_simp <;> rfl
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl
theorem W3_arg6 : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp <;> rfl
theorem W3_arg7 : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp <;> rfl
theorem W3_arg8 : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_simp <;> rfl
theorem W3_arg9 : W3 m ρ c (Proc.devRef .tc main_arg9) = m ((c.tc : Thread nD τ).loc main_arg9) := by
  show StableHlo.after hostOps0_2 (StableHlo.after hostOps0_1 (StableHlo.after hostOps0 (W0 m ρ c))) (Proc.devRef .tc main_arg9) = _
  after_results_simp <;> rfl
theorem W3_arg10 : W3 m ρ c (Proc.devRef .tc main_arg10) = m ((c.tc : Thread nD τ).loc main_arg10) := by
  show StableHlo.after hostOps0_2 (StableHlo.after hostOps0_1 (StableHlo.after hostOps0 (W0 m ρ c))) (Proc.devRef .tc main_arg10) = _
  after_results_simp <;> rfl
theorem W3_arg11 : W3 m ρ c (Proc.devRef .tc main_arg11) = m ((c.tc : Thread nD τ).loc main_arg11) := by
  show StableHlo.after hostOps0_2 (StableHlo.after hostOps0_1 (StableHlo.after hostOps0 (W0 m ρ c))) (Proc.devRef .tc main_arg11) = _
  after_results_simp <;> rfl

/-- The leading two slabs of each stacked weight and bias. -/
theorem W3_v56 : W3 m ρ c (Proc.devRef .tc main_v56)
    = extractStridedSlice S2x128x128 ![0, 0, 0] (m ((c.tc : Thread nD τ).loc main_arg4)) slices_S3x128x128_S2x128x128_0_0_0 := by
  show StableHlo.after hostOps0_2 (StableHlo.after hostOps0_1 (StableHlo.after hostOps0 (W0 m ρ c))) (Proc.devRef .tc main_v56) = _
  after_results_simp <;> rfl
theorem W3_v57 : W3 m ρ c (Proc.devRef .tc main_v57)
    = extractStridedSlice S2x128x128 ![0, 0, 0] (m ((c.tc : Thread nD τ).loc main_arg5)) slices_S3x128x128_S2x128x128_0_0_0 := by
  show StableHlo.after hostOps0_2 (StableHlo.after hostOps0_1 (StableHlo.after hostOps0 (W0 m ρ c))) (Proc.devRef .tc main_v57) = _
  after_results_simp <;> rfl
theorem W3_v58 : W3 m ρ c (Proc.devRef .tc main_v58)
    = extractStridedSlice S2x128 ![0, 0] (m ((c.tc : Thread nD τ).loc main_arg6)) slices_S3x128_S2x128_0_0 := by
  show StableHlo.after hostOps0_2 (StableHlo.after hostOps0_1 (StableHlo.after hostOps0 (W0 m ρ c))) (Proc.devRef .tc main_v58) = _
  after_results_simp <;> rfl
theorem W3_v59 : W3 m ρ c (Proc.devRef .tc main_v59)
    = extractStridedSlice S2x128x128 ![0, 0, 0] (m ((c.tc : Thread nD τ).loc main_arg7)) slices_S3x128x128_S2x128x128_0_0_0 := by
  show StableHlo.after hostOps0_2 (StableHlo.after hostOps0_1 (StableHlo.after hostOps0 (W0 m ρ c))) (Proc.devRef .tc main_v59) = _
  after_results_simp <;> rfl
theorem W3_v60 : W3 m ρ c (Proc.devRef .tc main_v60)
    = extractStridedSlice S2x128x128 ![0, 0, 0] (m ((c.tc : Thread nD τ).loc main_arg8)) slices_S3x128x128_S2x128x128_0_0_0 := by
  show StableHlo.after hostOps0_2 (StableHlo.after hostOps0_1 (StableHlo.after hostOps0 (W0 m ρ c))) (Proc.devRef .tc main_v60) = _
  after_results_simp <;> rfl
theorem W3_v61 : W3 m ρ c (Proc.devRef .tc main_v61)
    = extractStridedSlice S2x128 ![0, 0] (m ((c.tc : Thread nD τ).loc main_arg9)) slices_S3x128_S2x128_0_0 := by
  show StableHlo.after hostOps0_2 (StableHlo.after hostOps0_1 (StableHlo.after hostOps0 (W0 m ρ c))) (Proc.devRef .tc main_v61) = _
  after_results_simp <;> rfl

/-! ## Carried through the first gate kernel -/

theorem W4_arg0 : W4 m ρ c (Proc.devRef .tc main_arg0) = m ((c.tc : Thread nD τ).loc main_arg0) :=
  (W4_in m ρ c 0 rfl).trans (W3_arg0 m ρ c)
theorem W4_arg3 : W4 m ρ c (Proc.devRef .tc main_arg3) = m ((c.tc : Thread nD τ).loc main_arg3) :=
  (W4_in m ρ c 2 rfl).trans (W3_arg3 m ρ c)
theorem W4_arg1 : W4 m ρ c (Proc.devRef .tc main_arg1) = m ((c.tc : Thread nD τ).loc main_arg1) :=
  (W4_of_ne m ρ c main_arg1 (by decide)).trans (W3_arg1 m ρ c)
theorem W4_arg2 : W4 m ρ c (Proc.devRef .tc main_arg2) = m ((c.tc : Thread nD τ).loc main_arg2) :=
  (W4_of_ne m ρ c main_arg2 (by decide)).trans (W3_arg2 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_arg9 : W4 m ρ c (Proc.devRef .tc main_arg9) = m ((c.tc : Thread nD τ).loc main_arg9) :=
  (W4_of_ne m ρ c main_arg9 (by decide)).trans (W3_arg9 m ρ c)
theorem W4_arg10 : W4 m ρ c (Proc.devRef .tc main_arg10) = m ((c.tc : Thread nD τ).loc main_arg10) :=
  (W4_of_ne m ρ c main_arg10 (by decide)).trans (W3_arg10 m ρ c)
theorem W4_arg11 : W4 m ρ c (Proc.devRef .tc main_arg11) = m ((c.tc : Thread nD τ).loc main_arg11) :=
  (W4_of_ne m ρ c main_arg11 (by decide)).trans (W3_arg11 m ρ c)
/-- The propagated input is an input of the first gate kernel: it leaves as it entered. -/
theorem W4_v42 : W4 m ρ c (Proc.devRef .tc main_v42) = W3 m ρ c (Proc.devRef .tc main_v42) := W4_in m ρ c 1 rfl
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v29 : W4 m ρ c (Proc.devRef .tc main_v29) = W3 m ρ c (Proc.devRef .tc main_v29) := W4_of_ne m ρ c main_v29 (by decide)

/-! ## Before the second gate kernel -/

theorem W5_arg0 : W5 m ρ c (Proc.devRef .tc main_arg0) = m ((c.tc : Thread nD τ).loc main_arg0) := by
  show StableHlo.after (hostOps1 (F := Ideal)) (W4 m ρ c) (Proc.devRef .tc main_arg0) = _
  after_results_simp
  exact W4_arg0 m ρ c
theorem W5_arg1 : W5 m ρ c (Proc.devRef .tc main_arg1) = m ((c.tc : Thread nD τ).loc main_arg1) := by
  show StableHlo.after (hostOps1 (F := Ideal)) (W4 m ρ c) (Proc.devRef .tc main_arg1) = _
  after_results_simp
  exact W4_arg1 m ρ c
theorem W5_arg2 : W5 m ρ c (Proc.devRef .tc main_arg2) = m ((c.tc : Thread nD τ).loc main_arg2) := by
  show StableHlo.after (hostOps1 (F := Ideal)) (W4 m ρ c) (Proc.devRef .tc main_arg2) = _
  after_results_simp
  exact W4_arg2 m ρ c
theorem W5_arg3 : W5 m ρ c (Proc.devRef .tc main_arg3) = m ((c.tc : Thread nD τ).loc main_arg3) := by
  show StableHlo.after (hostOps1 (F := Ideal)) (W4 m ρ c) (Proc.devRef .tc main_arg3) = _
  after_results_simp
  exact W4_arg3 m ρ c
theorem W5_arg4 : W5 m ρ c (Proc.devRef .tc main_arg4) = m ((c.tc : Thread nD τ).loc main_arg4) := by
  show StableHlo.after (hostOps1 (F := Ideal)) (W4 m ρ c) (Proc.devRef .tc main_arg4) = _
  after_results_simp
  exact W4_arg4 m ρ c
theorem W5_arg5 : W5 m ρ c (Proc.devRef .tc main_arg5) = m ((c.tc : Thread nD τ).loc main_arg5) := by
  show StableHlo.after (hostOps1 (F := Ideal)) (W4 m ρ c) (Proc.devRef .tc main_arg5) = _
  after_results_simp
  exact W4_arg5 m ρ c
theorem W5_arg6 : W5 m ρ c (Proc.devRef .tc main_arg6) = m ((c.tc : Thread nD τ).loc main_arg6) := by
  show StableHlo.after (hostOps1 (F := Ideal)) (W4 m ρ c) (Proc.devRef .tc main_arg6) = _
  after_results_simp
  exact W4_arg6 m ρ c
theorem W5_arg7 : W5 m ρ c (Proc.devRef .tc main_arg7) = m ((c.tc : Thread nD τ).loc main_arg7) := by
  show StableHlo.after (hostOps1 (F := Ideal)) (W4 m ρ c) (Proc.devRef .tc main_arg7) = _
  after_results_simp
  exact W4_arg7 m ρ c
theorem W5_arg8 : W5 m ρ c (Proc.devRef .tc main_arg8) = m ((c.tc : Thread nD τ).loc main_arg8) := by
  show StableHlo.after (hostOps1 (F := Ideal)) (W4 m ρ c) (Proc.devRef .tc main_arg8) = _
  after_results_simp
  exact W4_arg8 m ρ c
theorem W5_arg9 : W5 m ρ c (Proc.devRef .tc main_arg9) = m ((c.tc : Thread nD τ).loc main_arg9) := by
  show StableHlo.after (hostOps1 (F := Ideal)) (W4 m ρ c) (Proc.devRef .tc main_arg9) = _
  after_results_simp
  exact W4_arg9 m ρ c
theorem W5_arg10 : W5 m ρ c (Proc.devRef .tc main_arg10) = m ((c.tc : Thread nD τ).loc main_arg10) := by
  show StableHlo.after (hostOps1 (F := Ideal)) (W4 m ρ c) (Proc.devRef .tc main_arg10) = _
  after_results_simp
  exact W4_arg10 m ρ c
theorem W5_arg11 : W5 m ρ c (Proc.devRef .tc main_arg11) = m ((c.tc : Thread nD τ).loc main_arg11) := by
  show StableHlo.after (hostOps1 (F := Ideal)) (W4 m ρ c) (Proc.devRef .tc main_arg11) = _
  after_results_simp
  exact W4_arg11 m ρ c
/-- The first gate kernel's two results are read by the second as they were left. -/
theorem W5_v62_0 : W5 m ρ c (Proc.devRef .tc main_v62_0) = W4 m ρ c (Proc.devRef .tc main_v62_0) := by
  show StableHlo.after (hostOps1 (F := Ideal)) (W4 m ρ c) (Proc.devRef .tc main_v62_0) = _
  after_results_simp
theorem W5_v62_1 : W5 m ρ c (Proc.devRef .tc main_v62_1) = W4 m ρ c (Proc.devRef .tc main_v62_1) := by
  show StableHlo.after (hostOps1 (F := Ideal)) (W4 m ρ c) (Proc.devRef .tc main_v62_1) = _
  after_results_simp
/-- The third slab of each stacked weight, as a matrix, and the third row of each stacked bias. -/
theorem W5_v77 : W5 m ρ c (Proc.devRef .tc main_v77)
    = shapeCast S128x128 (extractStridedSlice S1x128x128 ![2, 0, 0] (m ((c.tc : Thread nD τ).loc main_arg4)) slices_S3x128x128_S1x128x128_2_0_0) shapeCasts_S1x128x128_S128x128 := by
  show StableHlo.after (hostOps1 (F := Ideal)) (W4 m ρ c) (Proc.devRef .tc main_v77) = _
  after_results_simp
  rw [W4_arg4]
  rfl
theorem W5_v79 : W5 m ρ c (Proc.devRef .tc main_v79)
    = shapeCast S128x128 (extractStridedSlice S1x128x128 ![2, 0, 0] (m ((c.tc : Thread nD τ).loc main_arg5)) slices_S3x128x128_S1x128x128_2_0_0) shapeCasts_S1x128x128_S128x128 := by
  show StableHlo.after (hostOps1 (F := Ideal)) (W4 m ρ c) (Proc.devRef .tc main_v79) = _
  after_results_simp
  rw [W4_arg5]
  rfl
theorem W5_v81 : W5 m ρ c (Proc.devRef .tc main_v81)
    = shapeCast S128 (extractStridedSlice S1x128 ![2, 0] (m ((c.tc : Thread nD τ).loc main_arg6)) slices_S3x128_S1x128_2_0) shapeCasts_S1x128_S128 := by
  show StableHlo.after (hostOps1 (F := Ideal)) (W4 m ρ c) (Proc.devRef .tc main_v81) = _
  after_results_simp
  rw [W4_arg6]
  rfl
theorem W5_v83 : W5 m ρ c (Proc.devRef .tc main_v83)
    = shapeCast S128x128 (extractStridedSlice S1x128x128 ![2, 0, 0] (m ((c.tc : Thread nD τ).loc main_arg7)) slices_S3x128x128_S1x128x128_2_0_0) shapeCasts_S1x128x128_S128x128 := by
  show StableHlo.after (hostOps1 (F := Ideal)) (W4 m ρ c) (Proc.devRef .tc main_v83) = _
  after_results_simp
  rw [W4_arg7]
  rfl
theorem W5_v85 : W5 m ρ c (Proc.devRef .tc main_v85)
    = shapeCast S128x128 (extractStridedSlice S1x128x128 ![2, 0, 0] (m ((c.tc : Thread nD τ).loc main_arg8)) slices_S3x128x128_S1x128x128_2_0_0) shapeCasts_S1x128x128_S128x128 := by
  show StableHlo.after (hostOps1 (F := Ideal)) (W4 m ρ c) (Proc.devRef .tc main_v85) = _
  after_results_simp
  rw [W4_arg8]
  rfl
theorem W5_v87 : W5 m ρ c (Proc.devRef .tc main_v87)
    = shapeCast S128 (extractStridedSlice S1x128 ![2, 0] (m ((c.tc : Thread nD τ).loc main_arg9)) slices_S3x128_S1x128_2_0) shapeCasts_S1x128_S128 := by
  show StableHlo.after (hostOps1 (F := Ideal)) (W4 m ρ c) (Proc.devRef .tc main_v87) = _
  after_results_simp
  rw [W4_arg9]
  rfl

/-! ## After the second gate kernel -/

/-- The new state is read, by the row gathers and at the end, as the second gate kernel left it. -/
theorem W7_v88 : W7 m ρ c (Proc.devRef .tc main_v88) = W6 m ρ c (Proc.devRef .tc main_v88) := by
  show StableHlo.after (hostOps2 (F := Ideal)) (W6 m ρ c) (Proc.devRef .tc main_v88) = _
  after_results_simp
theorem W9_v88 : W9 m ρ c (Proc.devRef .tc main_v88) = W6 m ρ c (Proc.devRef .tc main_v88) := by
  show StableHlo.after (hostOps3 (F := Ideal)) (W8 m ρ c) (Proc.devRef .tc main_v88) = _
  after_results_simp
  exact (W8_of_ne m ρ c main_v88 (by decide)).trans (W7_v88 m ρ c)
/-- The scores are the score kernel's `[200000, 1]` result reshaped to a vector. -/
theorem W9_v112 : W9 m ρ c (Proc.devRef .tc main_v112)
    = shapeCast S200000 (W8 m ρ c (Proc.devRef .tc main_v111)) shapeCasts_S200000x1_S200000 := by
  show StableHlo.after (hostOps3 (F := Ideal)) (W8 m ρ c) (Proc.devRef .tc main_v112) = _
  after_results_simp
  rfl

end Cert.KernelIdeal.HostRead

end
-- ==== Proof.HostChain.lean ====
/-
  The host chains the two programs share, on the kernel's side: the edges' source and destination rows, their
  normalized weights `−d(src)^(-1/2)·d(dst)^(-1/2)` and the propagated copies of the input and of the state (gather the
  source rows, scale by the weight, scatter-add to the destination rows) are the same operations in both
  programs, so each is the reference's stage function of the same arguments. Neither side is opened.
-/
import proofs.«138199_j35132832481406_2_alg».proof.Proof.HostReads
import proofs.«138199_j35132832481406_2_alg».proof.Proof.RefReadP

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen
open Cert.ReferenceIdeal.ReadP

variable (m : (ℓ : Loc nD τ sig) → Buf (Elt Ideal) ℓ) (ρ : Dev nD → PrngReg) (c : Dev nD)

/-- The source rows of the edges. -/
theorem W3_v1 : W3 m ρ c (Proc.devRef .tc main_v1) = val_main_v1 (F := Ideal) (m ((c.tc : Thread nD τ).loc main_arg1)) := by
  show StableHlo.after (hostOps0_2 (F := Ideal)) (StableHlo.after (hostOps0_1 (F := Ideal)) (StableHlo.after (hostOps0 (F := Ideal)) (W0 m ρ c))) (Proc.devRef .tc main_v1) = _
  after_results_simp <;> rfl
/-- The destination rows of the edges. -/
theorem W3_v3 : W3 m ρ c (Proc.devRef .tc main_v3) = val_main_v3 (F := Ideal) (m ((c.tc : Thread nD τ).loc main_arg1)) := by
  show StableHlo.after (hostOps0_2 (F := Ideal)) (StableHlo.after (hostOps0_1 (F := Ideal)) (StableHlo.after (hostOps0 (F := Ideal)) (W0 m ρ c))) (Proc.devRef .tc main_v3) = _
  after_results_simp <;> rfl
/-! ### The normalized degree factor `d^(-1/2)`, through the outlined `where`

The factor is `where(deg > 0, rsqrt(max(deg, ε)), 0)`; the kernel's program keeps the `where` as an outlined call, whose
operands and result pass between a value's type and its buffer's type (the same type here, so the passage is the
identity). The comparison with the reference's stage is made with the call's operands named, and the identity passages
are dropped before the operands are replaced by the reference's values. -/

/-- Whether a node has an edge leaving it, after the first stretch. -/
theorem W1_v9 : W1 m ρ c (Proc.devRef .tc main_v9) = val_main_v9 (F := Ideal) (m ((c.tc : Thread nD τ).loc main_arg1)) := by
  show StableHlo.after (hostOps0 (F := Ideal)) (W0 m ρ c) (Proc.devRef .tc main_v9) = _
  after_results_simp <;> rfl
/-- `rsqrt(max(deg, ε))`, after the first stretch. -/
theorem W1_v12 : W1 m ρ c (Proc.devRef .tc main_v12) = val_main_v12 (F := Ideal) (m ((c.tc : Thread nD τ).loc main_arg1)) := by
  show StableHlo.after (hostOps0 (F := Ideal)) (W0 m ρ c) (Proc.devRef .tc main_v12) = _
  after_results_simp <;> rfl
/-- The word `0.0` the `where` falls back to. -/
theorem W1_cst_3 : W1 m ρ c (Proc.devRef .tc main_cst_3) = val_main_cst_3 (F := Ideal) := by
  show StableHlo.after (hostOps0 (F := Ideal)) (W0 m ρ c) (Proc.devRef .tc main_cst_3) = _
  after_results_simp <;> rfl

/-- The normalized degree factor after the `where`: the reference's. -/
theorem W2_v13 : W2 m ρ c (Proc.devRef .tc main_v13) = val_main_v13 (F := Ideal) (m ((c.tc : Thread nD τ).loc main_arg1)) := by
  have h9 := W1_v9 m ρ c
  have h12 := W1_v12 m ρ c
  have h0 := W1_cst_3 m ρ c
  show StableHlo.after (hostOps0_1 (F := Ideal)) (W1 m ρ c) (Proc.devRef .tc main_v13) = _
  generalize W1 m ρ c = Wg at h9 h12 h0 ⊢
  after_results_simp
  change select (Wg (Proc.devRef .tc main_v9)) (Wg (Proc.devRef .tc main_v12))
      (broadcastInDim S50000 ![] bcast_S_S50000 (id (Wg (Proc.devRef .tc main_cst_3)))) = _
  rw [h9, h12, h0]
  rfl

/-- Carried across the `where`: the edges' rows and the two arrays that are propagated. -/
theorem W2_v1 : W2 m ρ c (Proc.devRef .tc main_v1) = val_main_v1 (F := Ideal) (m ((c.tc : Thread nD τ).loc main_arg1)) := by
  show StableHlo.after (hostOps0_1 (F := Ideal)) (StableHlo.after (hostOps0 (F := Ideal)) (W0 m ρ c)) (Proc.devRef .tc main_v1) = _
  after_results_simp <;> rfl
theorem W2_v3 : W2 m ρ c (Proc.devRef .tc main_v3) = val_main_v3 (F := Ideal) (m ((c.tc : Thread nD τ).loc main_arg1)) := by
  show StableHlo.after (hostOps0_1 (F := Ideal)) (StableHlo.after (hostOps0 (F := Ideal)) (W0 m ρ c)) (Proc.devRef .tc main_v3) = _
  after_results_simp <;> rfl
theorem W2_arg0 : W2 m ρ c (Proc.devRef .tc main_arg0) = m ((c.tc : Thread nD τ).loc main_arg0) := by
  show StableHlo.after (hostOps0_1 (F := Ideal)) (StableHlo.after (hostOps0 (F := Ideal)) (W0 m ρ c)) (Proc.devRef .tc main_arg0) = _
  after_results_simp <;> rfl
theorem W2_arg3 : W2 m ρ c (Proc.devRef .tc main_arg3) = m ((c.tc : Thread nD τ).loc main_arg3) := by
  show StableHlo.after (hostOps0_1 (F := Ideal)) (StableHlo.after (hostOps0 (F := Ideal)) (W0 m ρ c)) (Proc.devRef .tc main_arg3) = _
  after_results_simp <;> rfl

/-- The edges' normalized weights `−d(src)^(-1/2)·d(dst)^(-1/2)`: the reference's. -/
theorem W3_v29 : W3 m ρ c (Proc.devRef .tc main_v29) = val_main_v29 (F := Ideal) (m ((c.tc : Thread nD τ).loc main_arg1)) := by
  have h13 := W2_v13 m ρ c
  have h1 := W2_v1 m ρ c
  have h3 := W2_v3 m ρ c
  show StableHlo.after (hostOps0_2 (F := Ideal)) (W2 m ρ c) (Proc.devRef .tc main_v29) = _
  generalize W2 m ρ c = Wg at h13 h1 h3 ⊢
  after_results_simp
  rw [h13, h1, h3]
  rfl
/-- The propagated input: the reference's. -/
theorem W3_v42 : W3 m ρ c (Proc.devRef .tc main_v42) = val_main_v42 (F := Ideal) (m ((c.tc : Thread nD τ).loc main_arg0)) (m ((c.tc : Thread nD τ).loc main_arg1)) := by
  have h13 := W2_v13 m ρ c
  have h1 := W2_v1 m ρ c
  have h3 := W2_v3 m ρ c
  have h0 := W2_arg0 m ρ c
  show StableHlo.after (hostOps0_2 (F := Ideal)) (W2 m ρ c) (Proc.devRef .tc main_v42) = _
  generalize W2 m ρ c = Wg at h13 h1 h3 h0 ⊢
  after_results_simp
  rw [h13, h1, h3, h0]
  rfl
/-- The propagated state: the reference's. -/
theorem W3_v55 : W3 m ρ c (Proc.devRef .tc main_v55) = val_main_v55 (F := Ideal) (m ((c.tc : Thread nD τ).loc main_arg1)) (m ((c.tc : Thread nD τ).loc main_arg3)) := by
  have h13 := W2_v13 m ρ c
  have h1 := W2_v1 m ρ c
  have h3 := W2_v3 m ρ c
  have h0 := W2_arg3 m ρ c
  show StableHlo.after (hostOps0_2 (F := Ideal)) (W2 m ρ c) (Proc.devRef .tc main_v55) = _
  generalize W2 m ρ c = Wg at h13 h1 h3 h0 ⊢
  after_results_simp
  rw [h13, h1, h3, h0]
  rfl

/-- The second gate kernel finds the propagated input as the first did. -/
theorem W5_v42 : W5 m ρ c (Proc.devRef .tc main_v42)
    = val_main_v42 (F := Ideal) (m ((c.tc : Thread nD τ).loc main_arg0)) (m ((c.tc : Thread nD τ).loc main_arg1)) := by
  show StableHlo.after (hostOps1 (F := Ideal)) (W4 m ρ c) (Proc.devRef .tc main_v42) = _
  after_results_simp
  exact (W4_v42 m ρ c).trans (W3_v42 m ρ c)

end Cert.KernelIdeal.HostRead

end
-- ==== Proof.Spec.lean ====
/-
  The mathematics both programs compute, index by index over the extended reals, with every index a literal
  `Fin`. A node array is read as a matrix `rows → 128 columns`; a stacked weight array `[g, 128, 128]` at a gate
  `g` as a 128×128 matrix; a stacked bias `[g, 128]` at a gate as a row.

  * `cheb x p W0 W1 b` is one Chebyshev convolution of order two: `x·W0 + p·W1 + b`, where `p` is the propagated
    copy of `x` (the normalized-Laplacian product, which both programs compute by the same gather, scale and
    scatter-add, and which is therefore never opened here).
  * `pre` is a gate's pre-activation: the input's convolution plus the state's.
  * the update gate is `logistic pre₀`, the reset product `H · logistic pre₁`, and the new state
    `Z·H + (1 − Z)·tanh pre₂`, with `pre₂` taken at the reset product and its propagated copy.
  * the link score of a pair is a sum over the 128 columns of the product of the two endpoints' rectified states,
    weighted: the kernel weights by the row sums of the 128×2 projection and adds the sum of the two biases
    (`score`), the reference projects to two columns, adds the bias to each and sums the two (`scoreRef`).
    `score_eq_scoreRef` is distributivity, which on the extended reals needs every factor finite.
-/
import Idealize.ShloMosaic.PureOps.Ideal
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx

/-- A rank-2 array read as a matrix. -/
def rd2 {a b : Nat} (A : (⟨2, ![a, b]⟩ : Shape).Idx → EReal) : Fin a → Fin b → EReal := fun p q => A (ix2 p q)
/-- Slab `g` of a rank-3 array read as a matrix. -/
def rd3 {a b c : Nat} (A : (⟨3, ![a, b, c]⟩ : Shape).Idx → EReal) (g : Fin a) : Fin b → Fin c → EReal :=
  fun p q => A (ix3 g p q)
/-- Row `g` of a rank-2 array. -/
def rdRow {a b : Nat} (A : (⟨2, ![a, b]⟩ : Shape).Idx → EReal) (g : Fin a) : Fin b → EReal := fun q => A (ix2 g q)
/-- A rank-1 array read as a vector. -/
def rd1 {a : Nat} (A : (⟨1, ![a]⟩ : Shape).Idx → EReal) : Fin a → EReal := fun p => A (ix1 p)

/-- The word of `1.0` and of `0.0`, kept as words: both programs spell the same ones. -/
abbrev one : EReal := Ideal.ofBits .f32 0x3F800000#32
abbrev zero : EReal := Ideal.ofBits .f32 0x00000000#32

theorem one_eq : one = 1 := Ideal.ofBits_one_f32
theorem zero_eq : zero = 0 := Ideal.ofBits_zero_f32

/-- `x·W0 + p·W1 + b` at row `n`, column `j`. -/
def cheb {N : Nat} (x p : Fin N → Fin 128 → EReal) (W0 W1 : Fin 128 → Fin 128 → EReal) (b : Fin 128 → EReal)
    (n : Fin N) (j : Fin 128) : EReal :=
  ((∑ k : Fin 128, x n k * W0 k j) + (∑ k : Fin 128, p n k * W1 k j)) + b j

/-- A gate's pre-activation: the input's convolution plus the state's. -/
def pre {N : Nat} (x px h ph : Fin N → Fin 128 → EReal) (Wx0 Wx1 : Fin 128 → Fin 128 → EReal) (bx : Fin 128 → EReal)
    (Wh0 Wh1 : Fin 128 → Fin 128 → EReal) (bh : Fin 128 → EReal) (n : Fin N) (j : Fin 128) : EReal :=
  cheb x px Wx0 Wx1 bx n j + cheb h ph Wh0 Wh1 bh n j

/-- The new state from the update gate `z`, the old state `h` and the candidate's pre-activation `u`. -/
def combine (z h u : EReal) : EReal := z * h + (one - z) * Ideal.tanh u

/-- `max v 0`. -/
def relu (v : EReal) : EReal := max v zero

/-- The kernel's score: the products `P e k` weighted by `w`, summed over the columns, plus `b`. -/
def score {E : Nat} (P : Fin E → Fin 128 → EReal) (w : Fin 128 → EReal) (b : EReal) (e : Fin E) : EReal :=
  (∑ k : Fin 128, P e k * w k) + b

/-- The row sums of the projection and the sum of its bias, as a host sum from `0.0` reads. -/
def wsum (pw : Fin 128 → Fin 2 → EReal) (k : Fin 128) : EReal := zero + ∑ j : Fin 2, pw k j
def bsum (pb : Fin 2 → EReal) : EReal := zero + ∑ j : Fin 2, pb j

/-- The reference's score: project to two columns, add the bias to each, sum the two from `0.0`. -/
def scoreRef {E : Nat} (P : Fin E → Fin 128 → EReal) (pw : Fin 128 → Fin 2 → EReal) (pb : Fin 2 → EReal) (e : Fin E) : EReal :=
  zero + ∑ j : Fin 2, ((∑ k : Fin 128, P e k * pw k j) + pb j)

end Cert.Spec

end
-- ==== Proof.LibGate.lean ====
/-
  Shared reads for the two gate kernels, at the ideal values.

  A block of 2000 rows times a 128×128 matrix, from a zero accumulator, read at a row and a column, is the row's dot
  product with the column; slab `g` of a stacked weight array and row `g` of a stacked bias, cut out and reshaped as the
  kernels do, read at an index, are the stacked array's entries; together they give one Chebyshev convolution of a block,
  `x·W0 + p·W1 + b`, at a row and a column as the specification's `cheb`. A gate's pre-activation reads its node arrays
  only along one row, so it may be read off a block or off the whole array alike.
-/
import proofs.«138199_j35132832481406_2_alg».proof.Proof.Spec
import proofs.«138199_j35132832481406_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.RegionValue

open Idealize.ShloMosaic Idealize.ShloMosaic.TcCoe Idealize.ShloMosaic.ValueIdx Idealize.SL.Sem Cert.KernelIdeal Cert.KernelIdeal.Gen Cert.Spec

/-- The zero offsets of a rank-2 rectangle, as the constant function. -/
theorem hz2 : (![0, 0] : Fin 2 → Nat) = fun _ => 0 := funext fun a => by fin_cases a <;> rfl
/-- The zero offsets of a rank-3 rectangle, as the constant function. -/
theorem hz3 : (![0, 0, 0] : Fin 3 → Nat) = fun _ => 0 := funext fun a => by fin_cases a <;> rfl

/-- The matrix product's left operand is read on its row axis at the result's row … -/
theorem mm_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and on its column axis at the contraction's coordinate; -/
theorem mm_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand on its row axis at the contraction's coordinate … -/
theorem mm_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and on its column axis at the result's column. -/
theorem mm_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

set_option maxHeartbeats 400000 in
/-- A 2000×128 block times a 128×128 matrix from a zero accumulator, at row `r` and column `j`: the row's dot product
    with the column, summed over the 128 inner coordinates. -/
theorem matmul_at (x : FVec Ideal S2000x128 .bf16) (w : FVec Ideal S128x128 .bf16) (r : Fin 2000) (j : Fin 128) :
    matmul dot_S2000x128_S128x128_S2000x128_1_0_0_1_n_n none x w (constant S2000x128 .f32 0x00000000#32) (ix2 r j)
      = ∑ k : Fin 128, x (ix2 r k) * w (ix2 k j) := by
  show FloatOps.matmul dot_S2000x128_S128x128_S2000x128_1_0_0_1_n_n none x w (constant S2000x128 .f32 0x00000000#32) (ix2 r j) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r j) ((ValueIdx.contrEquiv1 dot_S2000x128_S128x128_S2000x128_1_0_0_1_n_n 128 rfl rfl).symm k) = ix2 r k := funext fun a => Fin.ext (by
    match a with
    | ⟨0, _⟩ => exact mm_lhs_0 _ _
    | ⟨1, _⟩ => exact (mm_lhs_1 _ _).trans hk)
  have er : dot_S2000x128_S128x128_S2000x128_1_0_0_1_n_n.rhsIdx (ix2 r j) ((ValueIdx.contrEquiv1 dot_S2000x128_S128x128_S2000x128_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-- Slab `g` of a stacked [2,128,128] array, sliced out and viewed as a 128×128 matrix, at row `k` and column `j`. -/
theorem slab_at (W : FVec Ideal S2x128x128 .f32) (g : Nat) (hg : g < 2) (hs : S2x128x128.Slices ![g, 0, 0] S1x128x128)
    (hc : S1x128x128.ShapeCasts S128x128) (k j : Fin 128) :
    shapeCast S128x128 (extractStridedSlice S1x128x128 ![g, 0, 0] W hs) hc (ix2 k j) = W (ix3 (⟨g, hg⟩ : Fin 2) k j) := by
  refine (shapeCast_apply _ hc (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ W hs _ (ix3 (⟨g, hg⟩ : Fin 2) k j) fun a => ?_
    match a with
    | ⟨0, _⟩ => show g = g + 0; omega
    | ⟨1, _⟩ => show k.val = 0 + k.val; omega
    | ⟨2, _⟩ => show j.val = 0 + j.val; omega

/-- Row `g` of a stacked [2,128] array, sliced out, flattened, given back a unit row axis and broadcast down the 2000
    rows of a block, at row `r` and column `j`. -/
theorem bias_at (b : FVec Ideal S2x128 .f32) (g : Nat) (hg : g < 2) (hs : S2x128.Slices ![g, 0] S1x128)
    (h1 : S1x128.ShapeCasts S128) (h2 : S128.ShapeCasts S1x128) (hb : S1x128.Broadcasts S2000x128) (r : Fin 2000) (j : Fin 128) :
    broadcastTo S2000x128 (shapeCast S1x128 (shapeCast S128 (extractStridedSlice S1x128 ![g, 0] b hs) h1) h2) hb (ix2 r j)
      = b (ix2 (⟨g, hg⟩ : Fin 2) j) := by
  refine (broadcastTo_apply _ hb (ix2 r j) (ix2 (0 : Fin 1) j) fun a => ?_).trans ?_
  · match a with
    | ⟨0, _⟩ => rfl
    | ⟨1, _⟩ => rfl
  refine (shapeCast_apply _ h2 (ix2 (0 : Fin 1) j) (ix1 j) ?_).trans ?_
  · rw [Shape.rowMajor_val_one, Shape.rowMajor_val_two]
    show j.val = (0 : Nat) * 128 + j.val
    omega
  refine (shapeCast_apply _ h1 (ix1 j) (ix2 (0 : Fin 1) j) ?_).trans ?_
  · rw [Shape.rowMajor_val_one, Shape.rowMajor_val_two]
    show (0 : Nat) * 128 + j.val = j.val
    omega
  refine extractStridedSlice_apply _ b hs _ (ix2 (⟨g, hg⟩ : Fin 2) j) fun a => ?_
  match a with
  | ⟨0, _⟩ => show g = g + 0; omega
  | ⟨1, _⟩ => show j.val = 0 + j.val; omega

/-- One Chebyshev convolution of a 2000-row block as the kernel spells it, for gate `g` of the stacked weights: the block
    times slab `g` of the first weight array plus the propagated block times slab `g` of the second, plus row `g` of the
    bias broadcast down the rows (operands narrowed before each product, products from a zero accumulator). -/
def chebV (g : Nat) (hs3 : S2x128x128.Slices ![g, 0, 0] S1x128x128) (hs2 : S2x128.Slices ![g, 0] S1x128)
    (x p : FVec Ideal S2000x128 .f32) (W0 W1 : FVec Ideal S2x128x128 .f32) (b : FVec Ideal S2x128 .f32) : FVec Ideal S2000x128 .f32 :=
  addf
    (addf
      (matmul dot_S2000x128_S128x128_S2000x128_1_0_0_1_n_n none (truncf .bf16 x bitsLt_bf16_f32)
        (truncf .bf16 (shapeCast S128x128 (extractStridedSlice S1x128x128 ![g, 0, 0] W0 hs3) shapeCasts_S1x128x128_S128x128) bitsLt_bf16_f32)
        (constant (F := Ideal) S2000x128 .f32 0x00000000#32))
      (matmul dot_S2000x128_S128x128_S2000x128_1_0_0_1_n_n none (truncf .bf16 p bitsLt_bf16_f32)
        (truncf .bf16 (shapeCast S128x128 (extractStridedSlice S1x128x128 ![g, 0, 0] W1 hs3) shapeCasts_S1x128x128_S128x128) bitsLt_bf16_f32)
        (constant (F := Ideal) S2000x128 .f32 0x00000000#32)))
    (broadcastTo S2000x128 (shapeCast S1x128 (shapeCast S128 (extractStridedSlice S1x128 ![g, 0] b hs2) shapeCasts_S1x128_S128) shapeCasts_S128_S1x128) broadcasts_S1x128_S2000x128)

/-- That convolution at row `r` and column `j` is the specification's, read off the blocks and slab `g`. -/
theorem chebV_at (g : Nat) (hg : g < 2) (hs3 : S2x128x128.Slices ![g, 0, 0] S1x128x128) (hs2 : S2x128.Slices ![g, 0] S1x128)
    (x p : FVec Ideal S2000x128 .f32) (W0 W1 : FVec Ideal S2x128x128 .f32) (b : FVec Ideal S2x128 .f32) (r : Fin 2000) (j : Fin 128) :
    chebV g hs3 hs2 x p W0 W1 b (ix2 r j)
      = cheb (rd2 x) (rd2 p) (rd3 W0 (⟨g, hg⟩ : Fin 2)) (rd3 W1 (⟨g, hg⟩ : Fin 2)) (rdRow b (⟨g, hg⟩ : Fin 2)) r j := by
  unfold chebV cheb
  rw [addf_apply, addf_apply, matmul_at, matmul_at, bias_at b g hg]
  simp only [truncf_apply, slab_at _ g hg]
  rfl

/-- A 128-vector given a unit row axis and broadcast down the 2000 rows of a block, at row `r` and column `j`. -/
theorem bias1_at (b : FVec Ideal S128 .f32) (h2 : S128.ShapeCasts S1x128) (hb : S1x128.Broadcasts S2000x128) (r : Fin 2000) (j : Fin 128) :
    broadcastTo S2000x128 (shapeCast S1x128 b h2) hb (ix2 r j) = b (ix1 j) := by
  refine (broadcastTo_apply _ hb (ix2 r j) (ix2 (0 : Fin 1) j) fun a => ?_).trans ?_
  · match a with
    | ⟨0, _⟩ => rfl
    | ⟨1, _⟩ => rfl
  refine shapeCast_apply _ h2 (ix2 (0 : Fin 1) j) (ix1 j) ?_
  rw [Shape.rowMajor_val_one, Shape.rowMajor_val_two]
  show j.val = (0 : Nat) * 128 + j.val
  omega

/-- One Chebyshev convolution of a 2000-row block with unstacked weights, as the second gate kernel spells it: the block
    times the first weight matrix plus the propagated block times the second, plus the bias broadcast down the rows
    (operands narrowed before each product, products from a zero accumulator). -/
def chebW (x p : FVec Ideal S2000x128 .f32) (W0 W1 : FVec Ideal S128x128 .f32) (b : FVec Ideal S128 .f32) : FVec Ideal S2000x128 .f32 :=
  addf
    (addf
      (matmul dot_S2000x128_S128x128_S2000x128_1_0_0_1_n_n none (truncf .bf16 x bitsLt_bf16_f32) (truncf .bf16 W0 bitsLt_bf16_f32)
        (constant (F := Ideal) S2000x128 .f32 0x00000000#32))
      (matmul dot_S2000x128_S128x128_S2000x128_1_0_0_1_n_n none (truncf .bf16 p bitsLt_bf16_f32) (truncf .bf16 W1 bitsLt_bf16_f32)
        (constant (F := Ideal) S2000x128 .f32 0x00000000#32)))
    (broadcastTo S2000x128 (shapeCast S1x128 b shapeCasts_S128_S1x128) broadcasts_S1x128_S2000x128)

/-- That convolution at row `r` and column `j` is the specification's, read off the blocks and the weights. -/
theorem chebW_at (x p : FVec Ideal S2000x128 .f32) (W0 W1 : FVec Ideal S128x128 .f32) (b : FVec Ideal S128 .f32) (r : Fin 2000) (j : Fin 128) :
    chebW x p W0 W1 b (ix2 r j) = cheb (rd2 x) (rd2 p) (rd2 W0) (rd2 W1) (rd1 b) r j := by
  unfold chebW cheb
  rw [addf_apply, addf_apply, matmul_at, matmul_at, bias1_at b]
  simp only [truncf_apply]
  rfl

/-- Two reads of a rank-2 array at indices with the same coordinates agree. -/
theorem read2_congr {a b : Nat} (A : (⟨2, ![a, b]⟩ : Shape).Idx → EReal) (i : (⟨2, ![a, b]⟩ : Shape).Idx) (n : Fin a) (k : Fin b)
    (h0 : (i 0).val = n.val) (h1 : (i 1).val = k.val) : A i = A (ix2 n k) :=
  congrArg A (funext fun d => Fin.ext (by match d with | ⟨0, _⟩ => exact h0 | ⟨1, _⟩ => exact h1))

/-- A gate's pre-activation depends on its four node arrays only through the row read: equal rows give equal values. -/
theorem pre_congr_row {N M : Nat} (x px h ph : Fin N → Fin 128 → EReal) (x' px' h' ph' : Fin M → Fin 128 → EReal)
    (Wx0 Wx1 : Fin 128 → Fin 128 → EReal) (bx : Fin 128 → EReal) (Wh0 Wh1 : Fin 128 → Fin 128 → EReal) (bh : Fin 128 → EReal)
    (r : Fin N) (n : Fin M) (j : Fin 128) (e0 : ∀ k, x r k = x' n k) (e1 : ∀ k, px r k = px' n k)
    (e2 : ∀ k, h r k = h' n k) (e3 : ∀ k, ph r k = ph' n k) :
    pre x px h ph Wx0 Wx1 bx Wh0 Wh1 bh r j = pre x' px' h' ph' Wx0 Wx1 bx Wh0 Wh1 bh n j := by
  unfold pre cheb
  simp only [e0, e1, e2, e3]

end Cert.KernelIdeal.RegionValue

end
-- ==== Proof.Region0.lean ====
/-
  Region 0, the two gates: what the update-gate array and the reset-product array hold after the region, index by
  index, as the specification's function of the arrays the region finds.

  At a grid point the body stores, through each output window, a block computed from the point's input blocks: the
  logistic of gate 0's pre-activation, and the state times the logistic of gate 1's. A node window's block at point `t`
  is rows `2000 t … 2000 t + 1999` of its array and a weight or bias window's block is the whole array, so the stored
  block is block `t` of one function of the arrays; the 25 blocks cover the 50000 rows.
-/
import proofs.«138199_j35132832481406_2_alg».proof.Proof.LibGate

noncomputable section

namespace Cert.KernelIdeal.RegionValue

open Idealize.ShloMosaic Idealize.ShloMosaic.TcCoe Idealize.ShloMosaic.ValueIdx Idealize.SL.Sem Cert.KernelIdeal Cert.KernelIdeal.Gen Cert.Spec

/-- The stored value of the update gate's window, as a whole block: the logistic of the input's convolution plus the
    state's, both at gate 0 (the identity shape casts removed). -/
theorem out0_10_eq (x0 x1 x2 x3 : Vec Ideal S2000x128 .f32) (x4 x5 : Vec Ideal S2x128x128 .f32) (x6 : Vec Ideal S2x128 .f32)
    (x7 x8 : Vec Ideal S2x128x128 .f32) (x9 : Vec Ideal S2x128 .f32) :
    out0_10 x0 x1 x2 x3 x4 x5 x6 x7 x8 x9
      = logistic (addf (chebV 0 slices_S2x128x128_o0_0_0_S1x128x128 slices_S2x128_o0_0_S1x128 x0 x1 x4 x5 x6)
          (chebV 0 slices_S2x128x128_o0_0_0_S1x128x128 slices_S2x128_o0_0_S1x128 x2 x3 x7 x8 x9)) := by
  unfold out0_10
  rw [View.canon_unit_zero hz2]
  simp only [View.ld_unit_zero (S := S2000x128) hz2, View.ld_unit_zero (S := S2x128x128) hz3, View.ld_unit_zero (S := S2x128) hz2]
  unfold k0_pay13 k0_pay11 k0_pay12 k0_pay1 k0_pay2 k0_pay3 k0_pay4 k0_pay5 k0_pay6 k0_pay9 k0_pay10 k0_pay7 k0_pay8
  simp only [shapeCast_self]
  rfl

/-- The update gate's block at row `r`, column `j`. -/
theorem out0_10_at (x0 x1 x2 x3 : Vec Ideal S2000x128 .f32) (x4 x5 : Vec Ideal S2x128x128 .f32) (x6 : Vec Ideal S2x128 .f32)
    (x7 x8 : Vec Ideal S2x128x128 .f32) (x9 : Vec Ideal S2x128 .f32) (r : Fin 2000) (j : Fin 128) :
    out0_10 x0 x1 x2 x3 x4 x5 x6 x7 x8 x9 (ix2 r j)
      = Ideal.logistic (pre (rd2 x0) (rd2 x1) (rd2 x2) (rd2 x3) (rd3 x4 0) (rd3 x5 0) (rdRow x6 0) (rd3 x7 0) (rd3 x8 0) (rdRow x9 0) r j) := by
  rw [out0_10_eq]
  show Ideal.logistic (chebV 0 _ _ x0 x1 x4 x5 x6 (ix2 r j) + chebV 0 _ _ x2 x3 x7 x8 x9 (ix2 r j)) = _
  rw [chebV_at 0 (by omega), chebV_at 0 (by omega)]
  rfl

variable (V : (c : Dev nD) → (b : Ref sig .tc) → Buf (Elt Ideal) ((c : Thread nD τ).loc b))

/-- The block index maps of region 0, decided over its 25 points: a node window's block at point `t` is row block `t`,
    column block 0; a weight or bias window's is the whole array at every point. -/
theorem idx0_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_10.index t 0 = t.val ∧ win0_10.index t 1 = 0) ∧ (win0_11.index t 0 = t.val ∧ win0_11.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0) :=
  (by decide +kernel : ∀ t : Fin grid0.N, _)

/-- Window 0's block at point `t` is rows `2000 t … 2000 t + 1999` of the input array. -/
theorem iblk0_0_at (c : Dev nD) (t : Fin cfg0.N) (r : Fin 2000) (k : Fin 128) (n : Fin 50000) (hn : n.val = 2000 * t.val + r.val) :
    (iblk0 (F := Ideal) V c 0 t : S2000x128.Idx → EReal) (ix2 r k) = (V c main_arg0 : S50000x128.Idx → EReal) (ix2 n k) := by
  obtain ⟨h0, h1⟩ := (idx0_facts t).1
  unfold iblk0
  rw [View.read_apply]
  refine read2_congr (V c main_arg0) _ n k ?_ ?_
  · show win0_0.index t 0 * 2000 + 1 * r.val = n.val
    omega
  · show win0_0.index t 1 * 128 + 1 * k.val = k.val
    omega

/-- Window 4's block at every point is the whole stacked weight array. -/
theorem iblk0_4_eq (c : Dev nD) (t : Fin cfg0.N) :
    (iblk0 (F := Ideal) V c 4 t : S2x128x128.Idx → EReal) = (V c main_v56 : S2x128x128.Idx → EReal) := by
  obtain ⟨h0, h1, h2⟩ := (idx0_facts t).2.2.2.2.2.2.1
  funext y
  unfold iblk0
  rw [View.read_apply]
  refine congrArg (V c main_v56) (funext fun a => Fin.ext ?_)
  match a with
  | ⟨0, _⟩ => show win0_4.index t 0 * 2 + 1 * (y 0).val = (y 0).val; omega
  | ⟨1, _⟩ => show win0_4.index t 1 * 128 + 1 * (y 1).val = (y 1).val; omega
  | ⟨2, _⟩ => show win0_4.index t 2 * 128 + 1 * (y 2).val = (y 2).val; omega

/-- Window 6's block at every point is the whole stacked bias array. -/
theorem iblk0_6_eq (c : Dev nD) (t : Fin cfg0.N) :
    (iblk0 (F := Ideal) V c 6 t : S2x128.Idx → EReal) = (V c main_v58 : S2x128.Idx → EReal) := by
  obtain ⟨h0, h1⟩ := (idx0_facts t).2.2.2.2.2.2.2.2.1
  funext y
  unfold iblk0
  rw [View.read_apply]
  refine congrArg (V c main_v58) (funext fun a => Fin.ext ?_)
  match a with
  | ⟨0, _⟩ => show win0_6.index t 0 * 2 + 1 * (y 0).val = (y 0).val; omega
  | ⟨1, _⟩ => show win0_6.index t 1 * 128 + 1 * (y 1).val = (y 1).val; omega

/-- Window 1's block at point `t` is rows `2000 t … 2000 t + 1999` of the propagated input. -/
theorem iblk0_1_at (c : Dev nD) (t : Fin cfg0.N) (r : Fin 2000) (k : Fin 128) (n : Fin 50000) (hn : n.val = 2000 * t.val + r.val) :
    (iblk0 (F := Ideal) V c 1 t : S2000x128.Idx → EReal) (ix2 r k) = (V c main_v42 : S50000x128.Idx → EReal) (ix2 n k) := by
  obtain ⟨h0, h1⟩ := (idx0_facts t).2.1
  unfold iblk0
  rw [View.read_apply]
  refine read2_congr (V c main_v42) _ n k ?_ ?_
  · show win0_1.index t 0 * 2000 + 1 * r.val = n.val
    omega
  · show win0_1.index t 1 * 128 + 1 * k.val = k.val
    omega

/-- Window 2's block at point `t` is rows `2000 t … 2000 t + 1999` of the state. -/
theorem iblk0_2_at (c : Dev nD) (t : Fin cfg0.N) (r : Fin 2000) (k : Fin 128) (n : Fin 50000) (hn : n.val = 2000 * t.val + r.val) :
    (iblk0 (F := Ideal) V c 2 t : S2000x128.Idx → EReal) (ix2 r k) = (V c main_arg3 : S50000x128.Idx → EReal) (ix2 n k) := by
  obtain ⟨h0, h1⟩ := (idx0_facts t).2.2.1
  unfold iblk0
  rw [View.read_apply]
  refine read2_congr (V c main_arg3) _ n k ?_ ?_
  · show win0_2.index t 0 * 2000 + 1 * r.val = n.val
    omega
  · show win0_2.index t 1 * 128 + 1 * k.val = k.val
    omega

/-- Window 3's block at point `t` is rows `2000 t … 2000 t + 1999` of the propagated state. -/
theorem iblk0_3_at (c : Dev nD) (t : Fin cfg0.N) (r : Fin 2000) (k : Fin 128) (n : Fin 50000) (hn : n.val = 2000 * t.val + r.val) :
    (iblk0 (F := Ideal) V c 3 t : S2000x128.Idx → EReal) (ix2 r k) = (V c main_v55 : S50000x128.Idx → EReal) (ix2 n k) := by
  obtain ⟨h0, h1⟩ := (idx0_facts t).2.2.2.1
  unfold iblk0
  rw [View.read_apply]
  refine read2_congr (V c main_v55) _ n k ?_ ?_
  · show win0_3.index t 0 * 2000 + 1 * r.val = n.val
    omega
  · show win0_3.index t 1 * 128 + 1 * k.val = k.val
    omega

/-- Window 5's block at every point is the whole stacked weight array. -/
theorem iblk0_5_eq (c : Dev nD) (t : Fin cfg0.N) :
    (iblk0 (F := Ideal) V c 5 t : S2x128x128.Idx → EReal) = (V c main_v57 : S2x128x128.Idx → EReal) := by
  obtain ⟨h0, h1, h2⟩ := (idx0_facts t).2.2.2.2.2.2.2.1
  funext y
  unfold iblk0
  rw [View.read_apply]
  refine congrArg (V c main_v57) (funext fun a => Fin.ext ?_)
  match a with
  | ⟨0, _⟩ => show win0_5.index t 0 * 2 + 1 * (y 0).val = (y 0).val; omega
  | ⟨1, _⟩ => show win0_5.index t 1 * 128 + 1 * (y 1).val = (y 1).val; omega
  | ⟨2, _⟩ => show win0_5.index t 2 * 128 + 1 * (y 2).val = (y 2).val; omega

/-- Window 7's block at every point is the whole stacked weight array. -/
theorem iblk0_7_eq (c : Dev nD) (t : Fin cfg0.N) :
    (iblk0 (F := Ideal) V c 7 t : S2x128x128.Idx → EReal) = (V c main_v59 : S2x128x128.Idx → EReal) := by
  obtain ⟨h0, h1, h2⟩ := (idx0_facts t).2.2.2.2.2.2.2.2.2.1
  funext y
  unfold iblk0
  rw [View.read_apply]
  refine congrArg (V c main_v59) (funext fun a => Fin.ext ?_)
  match a with
  | ⟨0, _⟩ => show win0_7.index t 0 * 2 + 1 * (y 0).val = (y 0).val; omega
  | ⟨1, _⟩ => show win0_7.index t 1 * 128 + 1 * (y 1).val = (y 1).val; omega
  | ⟨2, _⟩ => show win0_7.index t 2 * 128 + 1 * (y 2).val = (y 2).val; omega

/-- Window 8's block at every point is the whole stacked weight array. -/
theorem iblk0_8_eq (c : Dev nD) (t : Fin cfg0.N) :
    (iblk0 (F := Ideal) V c 8 t : S2x128x128.Idx → EReal) = (V c main_v60 : S2x128x128.Idx → EReal) := by
  obtain ⟨h0, h1, h2⟩ := (idx0_facts t).2.2.2.2.2.2.2.2.2.2.1
  funext y
  unfold iblk0
  rw [View.read_apply]
  refine congrArg (V c main_v60) (funext fun a => Fin.ext ?_)
  match a with
  | ⟨0, _⟩ => show win0_8.index t 0 * 2 + 1 * (y 0).val = (y 0).val; omega
  | ⟨1, _⟩ => show win0_8.index t 1 * 128 + 1 * (y 1).val = (y 1).val; omega
  | ⟨2, _⟩ => show win0_8.index t 2 * 128 + 1 * (y 2).val = (y 2).val; omega

/-- Window 9's block at every point is the whole stacked bias array. -/
theorem iblk0_9_eq (c : Dev nD) (t : Fin cfg0.N) :
    (iblk0 (F := Ideal) V c 9 t : S2x128.Idx → EReal) = (V c main_v61 : S2x128.Idx → EReal) := by
  obtain ⟨h0, h1⟩ := (idx0_facts t).2.2.2.2.2.2.2.2.2.2.2
  funext y
  unfold iblk0
  rw [View.read_apply]
  refine congrArg (V c main_v61) (funext fun a => Fin.ext ?_)
  match a with
  | ⟨0, _⟩ => show win0_9.index t 0 * 2 + 1 * (y 0).val = (y 0).val; omega
  | ⟨1, _⟩ => show win0_9.index t 1 * 128 + 1 * (y 1).val = (y 1).val; omega

/-- The update gate as one function of the arrays region 0 finds: the logistic of gate 0's pre-activation. -/
def Zarr (c : Dev nD) : S50000x128.Idx → EReal := fun i =>
  Ideal.logistic (pre (rd2 (V c main_arg0 : S50000x128.Idx → EReal)) (rd2 (V c main_v42 : S50000x128.Idx → EReal))
    (rd2 (V c main_arg3 : S50000x128.Idx → EReal)) (rd2 (V c main_v55 : S50000x128.Idx → EReal))
    (rd3 (V c main_v56 : S2x128x128.Idx → EReal) 0) (rd3 (V c main_v57 : S2x128x128.Idx → EReal) 0) (rdRow (V c main_v58 : S2x128.Idx → EReal) 0)
    (rd3 (V c main_v59 : S2x128x128.Idx → EReal) 0) (rd3 (V c main_v60 : S2x128x128.Idx → EReal) 0) (rdRow (V c main_v61 : S2x128.Idx → EReal) 0)
    (i 0) (i 1))

set_option maxHeartbeats 400000 in
/-- Rows `2000 t … 2000 t + 1999` of the update gate, all 128 columns, are what the body leaves at point `t`: the copy
    back to the gate array at that point puts `Zarr`'s values on exactly those rows. -/
theorem flushed0_10 (c : Dev nD) (t : Fin cfg0.N) :
    (dat0 V c).flushed 10 t = ((cfg0.win 10).blk t).view.read (Elt Ideal) (Zarr V c) := by
  show (cfg0.win 10).cut (grid0.coords t) ((dat0 V c).after 10 t) = _
  rw [after0_10]
  funext y
  obtain ⟨r, j, rfl⟩ : ∃ (r : Fin 2000) (j : Fin 128), y = ix2 r j := ⟨y 0, y 1, eq_ix2 y⟩
  have hN : cfg0.N = 25 := N_0
  have hn : 2000 * t.val + r.val < 50000 := by have := t.isLt; have := r.isLt; omega
  obtain ⟨-, -, -, -, ⟨i0, i1⟩, -⟩ := idx0_facts t
  show out0_10 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (ix2 r j) = Zarr V c (((cfg0.win 10).blk t).view.emb (ix2 r j))
  have hemb : ((cfg0.win 10).blk t).view.emb (ix2 r j) = ix2 (⟨2000 * t.val + r.val, hn⟩ : Fin 50000) j :=
    funext fun a => Fin.ext (by
      match a with
      | ⟨0, _⟩ => show win0_10.index t 0 * 2000 + 1 * r.val = 2000 * t.val + r.val; omega
      | ⟨1, _⟩ => show win0_10.index t 1 * 128 + 1 * j.val = j.val; omega)
  rw [hemb, out0_10_at (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) r j,
    iblk0_4_eq V c t, iblk0_5_eq V c t, iblk0_6_eq V c t, iblk0_7_eq V c t, iblk0_8_eq V c t, iblk0_9_eq V c t]
  refine congrArg Ideal.logistic ?_
  exact pre_congr_row _ _ _ _ _ _ _ _ _ _ _ _ _ _ r (⟨2000 * t.val + r.val, hn⟩ : Fin 50000) j
    (fun k => iblk0_0_at V c t r k _ rfl) (fun k => iblk0_1_at V c t r k _ rfl)
    (fun k => iblk0_2_at V c t r k _ rfl) (fun k => iblk0_3_at V c t r k _ rfl)

/-- Which entries of the gate array point `t` owns: row `n`, column `q` with `2000 t ≤ n < 2000 t + 2000` and `q < 128`,
    written as one pair of bounds per axis. -/
theorem mem_blk0_10 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v62_0).slice (win0_10.rect t)).set ↔ _
  rw [View.set_slice_whole, Rect.mem_set_unit]
  exact Iff.rfl

/-- Row `n` of the gate array is in the block of point `n / 2000`: the 25 blocks cover the array. -/
theorem cover0_10_arr (i : S50000x128.Idx) :
    ∃ t : Fin cfg0.N, (cfg0.win 10).flush t = true ∧ i ∈ ((cfg0.win 10).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, ⟨e0, e1⟩, -⟩ := idx0_facts t
  refine ⟨t, flush0_10 t, ?_⟩
  rw [mem_blk0_10]
  intro a
  match a with
  | ⟨0, _⟩ => show win0_10.index t 0 * 2000 ≤ (i 0).val ∧ (i 0).val < win0_10.index t 0 * 2000 + 2000; omega
  | ⟨1, _⟩ => show win0_10.index t 1 * 128 ≤ (i 1).val ∧ (i 1).val < win0_10.index t 1 * 128 + 128; omega

/-- The update gate after region 0: at row `n`, column `j` the gate array holds the logistic of gate 0's pre-activation,
    taken of the arrays the region found. -/
theorem region0_Z (c : Dev nD) (n : Fin 50000) (j : Fin 128) :
    ((dat0 (F := Ideal) V c).arrAt 10 cfg0.N : S50000x128.Idx → EReal) (ix2 n j)
      = Ideal.logistic (pre (rd2 (V c main_arg0 : S50000x128.Idx → EReal)) (rd2 (V c main_v42 : S50000x128.Idx → EReal))
          (rd2 (V c main_arg3 : S50000x128.Idx → EReal)) (rd2 (V c main_v55 : S50000x128.Idx → EReal))
          (rd3 (V c main_v56 : S2x128x128.Idx → EReal) 0) (rd3 (V c main_v57 : S2x128x128.Idx → EReal) 0) (rdRow (V c main_v58 : S2x128.Idx → EReal) 0)
          (rd3 (V c main_v59 : S2x128x128.Idx → EReal) 0) (rd3 (V c main_v60 : S2x128x128.Idx → EReal) 0) (rdRow (V c main_v61 : S2x128.Idx → EReal) 0) n j) := by
  rw [(dat0 V c).arrAt_eq_of_cover 10 (Zarr V c) (fun t _ => flushed0_10 V c t) cover0_10_arr]
  rfl

/-- The stored value of the reset product's window, as a whole block: the state block times the logistic of the input's
    convolution plus the state's, both at gate 1 (the identity shape casts removed). -/
theorem out0_11_eq (x0 x1 x2 x3 : Vec Ideal S2000x128 .f32) (x4 x5 : Vec Ideal S2x128x128 .f32) (x6 : Vec Ideal S2x128 .f32)
    (x7 x8 : Vec Ideal S2x128x128 .f32) (x9 : Vec Ideal S2x128 .f32) :
    out0_11 x0 x1 x2 x3 x4 x5 x6 x7 x8 x9
      = mulf x2 (logistic (addf (chebV 1 slices_S2x128x128_o1_0_0_S1x128x128 slices_S2x128_o1_0_S1x128 x0 x1 x4 x5 x6)
          (chebV 1 slices_S2x128x128_o1_0_0_S1x128x128 slices_S2x128_o1_0_S1x128 x2 x3 x7 x8 x9))) := by
  unfold out0_11
  rw [View.canon_unit_zero hz2]
  simp only [View.ld_unit_zero (S := S2000x128) hz2, View.ld_unit_zero (S := S2x128x128) hz3, View.ld_unit_zero (S := S2x128) hz2]
  unfold k0_pay14 k0_pay1 k0_pay2 k0_pay3 k0_pay4 k0_pay5 k0_pay6 k0_pay9 k0_pay10 k0_pay7 k0_pay8
  simp only [shapeCast_self]
  rfl

/-- The reset product's block at row `r`, column `j`. -/
theorem out0_11_at (x0 x1 x2 x3 : Vec Ideal S2000x128 .f32) (x4 x5 : Vec Ideal S2x128x128 .f32) (x6 : Vec Ideal S2x128 .f32)
    (x7 x8 : Vec Ideal S2x128x128 .f32) (x9 : Vec Ideal S2x128 .f32) (r : Fin 2000) (j : Fin 128) :
    out0_11 x0 x1 x2 x3 x4 x5 x6 x7 x8 x9 (ix2 r j)
      = rd2 x2 r j * Ideal.logistic (pre (rd2 x0) (rd2 x1) (rd2 x2) (rd2 x3) (rd3 x4 1) (rd3 x5 1) (rdRow x6 1) (rd3 x7 1) (rd3 x8 1) (rdRow x9 1) r j) := by
  rw [out0_11_eq]
  show x2 (ix2 r j) * Ideal.logistic (chebV 1 _ _ x0 x1 x4 x5 x6 (ix2 r j) + chebV 1 _ _ x2 x3 x7 x8 x9 (ix2 r j)) = _
  rw [chebV_at 1 (by omega), chebV_at 1 (by omega)]
  rfl

/-- The reset product as one function of the arrays region 0 finds: the state times the logistic of gate 1's
    pre-activation. -/
def HRarr (c : Dev nD) : S50000x128.Idx → EReal := fun i =>
  rd2 (V c main_arg3 : S50000x128.Idx → EReal) (i 0) (i 1) *
  Ideal.logistic (pre (rd2 (V c main_arg0 : S50000x128.Idx → EReal)) (rd2 (V c main_v42 : S50000x128.Idx → EReal))
    (rd2 (V c main_arg3 : S50000x128.Idx → EReal)) (rd2 (V c main_v55 : S50000x128.Idx → EReal))
    (rd3 (V c main_v56 : S2x128x128.Idx → EReal) 1) (rd3 (V c main_v57 : S2x128x128.Idx → EReal) 1) (rdRow (V c main_v58 : S2x128.Idx → EReal) 1)
    (rd3 (V c main_v59 : S2x128x128.Idx → EReal) 1) (rd3 (V c main_v60 : S2x128x128.Idx → EReal) 1) (rdRow (V c main_v61 : S2x128.Idx → EReal) 1)
    (i 0) (i 1))

set_option maxHeartbeats 400000 in
/-- Rows `2000 t … 2000 t + 1999` of the reset product, all 128 columns, are what the body leaves at point `t`: the copy
    back to the reset-product array at that point puts `HRarr`'s values on exactly those rows. -/
theorem flushed0_11 (c : Dev nD) (t : Fin cfg0.N) :
    (dat0 V c).flushed 11 t = ((cfg0.win 11).blk t).view.read (Elt Ideal) (HRarr V c) := by
  show (cfg0.win 11).cut (grid0.coords t) ((dat0 V c).after 11 t) = _
  rw [after0_11]
  funext y
  obtain ⟨r, j, rfl⟩ : ∃ (r : Fin 2000) (j : Fin 128), y = ix2 r j := ⟨y 0, y 1, eq_ix2 y⟩
  have hN : cfg0.N = 25 := N_0
  have hn : 2000 * t.val + r.val < 50000 := by have := t.isLt; have := r.isLt; omega
  obtain ⟨-, -, -, -, -, ⟨i0, i1⟩, -⟩ := idx0_facts t
  show out0_11 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (ix2 r j) = HRarr V c (((cfg0.win 11).blk t).view.emb (ix2 r j))
  have hemb : ((cfg0.win 11).blk t).view.emb (ix2 r j) = ix2 (⟨2000 * t.val + r.val, hn⟩ : Fin 50000) j :=
    funext fun a => Fin.ext (by
      match a with
      | ⟨0, _⟩ => show win0_11.index t 0 * 2000 + 1 * r.val = 2000 * t.val + r.val; omega
      | ⟨1, _⟩ => show win0_11.index t 1 * 128 + 1 * j.val = j.val; omega)
  rw [hemb, out0_11_at (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) r j,
    iblk0_4_eq V c t, iblk0_5_eq V c t, iblk0_6_eq V c t, iblk0_7_eq V c t, iblk0_8_eq V c t, iblk0_9_eq V c t]
  refine congrArg₂ (· * ·) (iblk0_2_at V c t r j _ rfl) (congrArg Ideal.logistic ?_)
  exact pre_congr_row _ _ _ _ _ _ _ _ _ _ _ _ _ _ r (⟨2000 * t.val + r.val, hn⟩ : Fin 50000) j
    (fun k => iblk0_0_at V c t r k _ rfl) (fun k => iblk0_1_at V c t r k _ rfl)
    (fun k => iblk0_2_at V c t r k _ rfl) (fun k => iblk0_3_at V c t r k _ rfl)

/-- Which entries of the reset-product array point `t` owns: row `n`, column `q` with `2000 t ≤ n < 2000 t + 2000` and
    `q < 128`, written as one pair of bounds per axis. -/
theorem mem_blk0_11 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v62_1).slice (win0_11.rect t)).set ↔ _
  rw [View.set_slice_whole, Rect.mem_set_unit]
  exact Iff.rfl

/-- Row `n` of the reset-product array is in the block of point `n / 2000`: the 25 blocks cover the array. -/
theorem cover0_11_arr (i : S50000x128.Idx) :
    ∃ t : Fin cfg0.N, (cfg0.win 11).flush t = true ∧ i ∈ ((cfg0.win 11).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, ⟨e0, e1⟩, -⟩ := idx0_facts t
  refine ⟨t, flush0_11 t, ?_⟩
  rw [mem_blk0_11]
  intro a
  match a with
  | ⟨0, _⟩ => show win0_11.index t 0 * 2000 ≤ (i 0).val ∧ (i 0).val < win0_11.index t 0 * 2000 + 2000; omega
  | ⟨1, _⟩ => show win0_11.index t 1 * 128 ≤ (i 1).val ∧ (i 1).val < win0_11.index t 1 * 128 + 128; omega

/-- The reset product after region 0: at row `n`, column `j` its array holds the state's entry times the logistic of
    gate 1's pre-activation, taken of the arrays the region found. -/
theorem region0_HR (c : Dev nD) (n : Fin 50000) (j : Fin 128) :
    ((dat0 (F := Ideal) V c).arrAt 11 cfg0.N : S50000x128.Idx → EReal) (ix2 n j)
      = rd2 (V c main_arg3 : S50000x128.Idx → EReal) n j *
        Ideal.logistic (pre (rd2 (V c main_arg0 : S50000x128.Idx → EReal)) (rd2 (V c main_v42 : S50000x128.Idx → EReal))
          (rd2 (V c main_arg3 : S50000x128.Idx → EReal)) (rd2 (V c main_v55 : S50000x128.Idx → EReal))
          (rd3 (V c main_v56 : S2x128x128.Idx → EReal) 1) (rd3 (V c main_v57 : S2x128x128.Idx → EReal) 1) (rdRow (V c main_v58 : S2x128.Idx → EReal) 1)
          (rd3 (V c main_v59 : S2x128x128.Idx → EReal) 1) (rd3 (V c main_v60 : S2x128x128.Idx → EReal) 1) (rdRow (V c main_v61 : S2x128.Idx → EReal) 1) n j) := by
  rw [(dat0 V c).arrAt_eq_of_cover 11 (HRarr V c) (fun t _ => flushed0_11 V c t) cover0_11_arr]
  rfl

end Cert.KernelIdeal.RegionValue

end
-- ==== Proof.RefRead.lean ====
/-
  The reference program's stages read at an index as the specification's functions. Each stage is a composition of
  host operations that the imported generated module reads one element at a time; composing those readings, the
  slice-and-reshape of a stacked weight array is a slab, the sliced, reshaped and twice-broadcast bias is a row, a
  `dot_general` is a row-by-column sum over the 128 columns, and so gate `g`'s convolutions are `Spec.cheb` and their
  sum `Spec.pre`. The update and reset gates spell the logistic function `1 / (1 + exp (-u))`; the new state is
  `Spec.combine`; the link score is `Spec.scoreRef`. The propagated copies (gather, scale, scatter-add) and the two
  gathered row arrays are never opened: they stay the generated module's terms on both sides.
-/
import proofs.«138199_j35132832481406_2_alg».proof.Proof.RefReadP
import proofs.«138199_j35132832481406_2_alg».proof.Proof.Spec

noncomputable section

namespace Cert.ReferenceIdeal.RefValue

open Idealize.ShloMosaic Idealize.ShloMosaic.ValueIdx Cert.ReferenceIdeal Cert.ReferenceIdeal.ReadP Cert.Spec

variable (x0 : (⟨S50000x128, .f32⟩ : BufTy).Contents (Elt Ideal)) (x1 : (⟨S2x800000, .i32⟩ : BufTy).Contents (Elt Ideal)) (x2 : (⟨S2x200000, .i32⟩ : BufTy).Contents (Elt Ideal))
  (x3 : (⟨S50000x128, .f32⟩ : BufTy).Contents (Elt Ideal)) (x4 x5 : (⟨S3x128x128, .f32⟩ : BufTy).Contents (Elt Ideal)) (x6 : (⟨S3x128, .f32⟩ : BufTy).Contents (Elt Ideal))
  (x7 x8 : (⟨S3x128x128, .f32⟩ : BufTy).Contents (Elt Ideal)) (x9 : (⟨S3x128, .f32⟩ : BufTy).Contents (Elt Ideal)) (x10 : (⟨S128x2, .f32⟩ : BufTy).Contents (Elt Ideal))
  (x11 : (⟨S2, .f32⟩ : BufTy).Contents (Elt Ideal))

/-! ## Weight slabs: a slice `[g:g+1]` of a stacked `[3,128,128]` array reshaped to `[128,128]` is slab `g` -/

theorem slab_v57 (k j : Fin 128) : val_main_v57 (F := Ideal) x4 (ix2 k j) = rd3 x4 0 k j := by
  rw [val_main_v57_apply, val_main_v56_apply]
  have e : idx_main_v56 (idx_main_v57 (ix2 k j)) = ix3 (0 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v60 (k j : Fin 128) : val_main_v60 (F := Ideal) x5 (ix2 k j) = rd3 x5 0 k j := by
  rw [val_main_v60_apply, val_main_v59_apply]
  have e : idx_main_v59 (idx_main_v60 (ix2 k j)) = ix3 (0 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v69 (k j : Fin 128) : val_main_v69 (F := Ideal) x7 (ix2 k j) = rd3 x7 0 k j := by
  rw [val_main_v69_apply, val_main_v68_apply]
  have e : idx_main_v68 (idx_main_v69 (ix2 k j)) = ix3 (0 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v72 (k j : Fin 128) : val_main_v72 (F := Ideal) x8 (ix2 k j) = rd3 x8 0 k j := by
  rw [val_main_v72_apply, val_main_v71_apply]
  have e : idx_main_v71 (idx_main_v72 (ix2 k j)) = ix3 (0 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v88 (k j : Fin 128) : val_main_v88 (F := Ideal) x4 (ix2 k j) = rd3 x4 1 k j := by
  rw [val_main_v88_apply, val_main_v87_apply]
  have e : idx_main_v87 (idx_main_v88 (ix2 k j)) = ix3 (1 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v91 (k j : Fin 128) : val_main_v91 (F := Ideal) x5 (ix2 k j) = rd3 x5 1 k j := by
  rw [val_main_v91_apply, val_main_v90_apply]
  have e : idx_main_v90 (idx_main_v91 (ix2 k j)) = ix3 (1 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v100 (k j : Fin 128) : val_main_v100 (F := Ideal) x7 (ix2 k j) = rd3 x7 1 k j := by
  rw [val_main_v100_apply, val_main_v99_apply]
  have e : idx_main_v99 (idx_main_v100 (ix2 k j)) = ix3 (1 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v103 (k j : Fin 128) : val_main_v103 (F := Ideal) x8 (ix2 k j) = rd3 x8 1 k j := by
  rw [val_main_v103_apply, val_main_v102_apply]
  have e : idx_main_v102 (idx_main_v103 (ix2 k j)) = ix3 (1 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v120 (k j : Fin 128) : val_main_v120 (F := Ideal) x4 (ix2 k j) = rd3 x4 2 k j := by
  rw [val_main_v120_apply, val_main_v119_apply]
  have e : idx_main_v119 (idx_main_v120 (ix2 k j)) = ix3 (2 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v123 (k j : Fin 128) : val_main_v123 (F := Ideal) x5 (ix2 k j) = rd3 x5 2 k j := by
  rw [val_main_v123_apply, val_main_v122_apply]
  have e : idx_main_v122 (idx_main_v123 (ix2 k j)) = ix3 (2 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v145 (k j : Fin 128) : val_main_v145 (F := Ideal) x7 (ix2 k j) = rd3 x7 2 k j := by
  rw [val_main_v145_apply, val_main_v144_apply]
  have e : idx_main_v144 (idx_main_v145 (ix2 k j)) = ix3 (2 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

theorem slab_v148 (k j : Fin 128) : val_main_v148 (F := Ideal) x8 (ix2 k j) = rd3 x8 2 k j := by
  rw [val_main_v148_apply, val_main_v147_apply]
  have e : idx_main_v147 (idx_main_v148 (ix2 k j)) = ix3 (2 : Fin 3) k j := funext fun a => Fin.ext (by
    have hk := k.isLt
    have hj := j.isLt
    match a with
    | ⟨0, _⟩ => rfl
    | ⟨1, _⟩ => show (k.val * 128 + j.val) / 128 % 128 = k.val; omega
    | ⟨2, _⟩ => show (k.val * 128 + j.val) % 128 = j.val; omega)
  rw [e]; rfl

/-! ## Biases: row `g` of a stacked `[3,128]` array, broadcast down the rows -/

theorem bias_v66 (n : Fin 50000) (j : Fin 128) : val_main_v66 (F := Ideal) x6 (ix2 n j) = rdRow x6 0 j := by
  rw [val_main_v66_apply, val_main_v65_apply, val_main_v64_apply, val_main_v63_apply]
  have e : idx_main_v63 (idx_main_v64 (idx_main_v65 (idx_main_v66 (ix2 n j)))) = ix2 (0 : Fin 3) j := funext fun a => Fin.ext (by
    have hj := j.isLt
    match a with
    | ⟨0, _⟩ => rfl
    | ⟨1, _⟩ => show j.val % 128 = j.val; omega)
  rw [e]; rfl

theorem bias_v78 (n : Fin 50000) (j : Fin 128) : val_main_v78 (F := Ideal) x9 (ix2 n j) = rdRow x9 0 j := by
  rw [val_main_v78_apply, val_main_v77_apply, val_main_v76_apply, val_main_v75_apply]
  have e : idx_main_v75 (idx_main_v76 (idx_main_v77 (idx_main_v78 (ix2 n j)))) = ix2 (0 : Fin 3) j := funext fun a => Fin.ext (by
    have hj := j.isLt
    match a with
    | ⟨0, _⟩ => rfl
    | ⟨1, _⟩ => show j.val % 128 = j.val; omega)
  rw [e]; rfl

theorem bias_v97 (n : Fin 50000) (j : Fin 128) : val_main_v97 (F := Ideal) x6 (ix2 n j) = rdRow x6 1 j := by
  rw [val_main_v97_apply, val_main_v96_apply, val_main_v95_apply, val_main_v94_apply]
  have e : idx_main_v94 (idx_main_v95 (idx_main_v96 (idx_main_v97 (ix2 n j)))) = ix2 (1 : Fin 3) j := funext fun a => Fin.ext (by
    have hj := j.isLt
    match a with
    | ⟨0, _⟩ => rfl
    | ⟨1, _⟩ => show j.val % 128 = j.val; omega)
  rw [e]; rfl

theorem bias_v109 (n : Fin 50000) (j : Fin 128) : val_main_v109 (F := Ideal) x9 (ix2 n j) = rdRow x9 1 j := by
  rw [val_main_v109_apply, val_main_v108_apply, val_main_v107_apply, val_main_v106_apply]
  have e : idx_main_v106 (idx_main_v107 (idx_main_v108 (idx_main_v109 (ix2 n j)))) = ix2 (1 : Fin 3) j := funext fun a => Fin.ext (by
    have hj := j.isLt
    match a with
    | ⟨0, _⟩ => rfl
    | ⟨1, _⟩ => show j.val % 128 = j.val; omega)
  rw [e]; rfl

theorem bias_v129 (n : Fin 50000) (j : Fin 128) : val_main_v129 (F := Ideal) x6 (ix2 n j) = rdRow x6 2 j := by
  rw [val_main_v129_apply, val_main_v128_apply, val_main_v127_apply, val_main_v126_apply]
  have e : idx_main_v126 (idx_main_v127 (idx_main_v128 (idx_main_v129 (ix2 n j)))) = ix2 (2 : Fin 3) j := funext fun a => Fin.ext (by
    have hj := j.isLt
    match a with
    | ⟨0, _⟩ => rfl
    | ⟨1, _⟩ => show j.val % 128 = j.val; omega)
  rw [e]; rfl

theorem bias_v154 (n : Fin 50000) (j : Fin 128) : val_main_v154 (F := Ideal) x9 (ix2 n j) = rdRow x9 2 j := by
  rw [val_main_v154_apply, val_main_v153_apply, val_main_v152_apply, val_main_v151_apply]
  have e : idx_main_v151 (idx_main_v152 (idx_main_v153 (idx_main_v154 (ix2 n j)))) = ix2 (2 : Fin 3) j := funext fun a => Fin.ext (by
    have hj := j.isLt
    match a with
    | ⟨0, _⟩ => rfl
    | ⟨1, _⟩ => show j.val % 128 = j.val; omega)
  rw [e]; rfl

/-! ## The matrix products: a row of the left operand against a column of the slab -/

theorem dot_v58 (n : Fin 50000) (j : Fin 128) :
    val_main_v58 (F := Ideal) x0 x4 (ix2 n j) = ∑ k : Fin 128, rd2 x0 n k * rd3 x4 0 k j := by
  rw [val_main_v58_apply]
  refine Finset.sum_congr rfl fun k _ => ?_
  have el : lidx_main_v58 (ix2 n j) k = ix2 n k := funext fun a => Fin.ext (by
    match a with
    | ⟨0, _⟩ => rfl
    | ⟨1, _⟩ => rfl)
  have er : ridx_main_v58 (ix2 n j) k = ix2 k j := funext fun a => Fin.ext (by
    match a with
    | ⟨0, _⟩ => rfl
    | ⟨1, _⟩ => rfl)
  rw [el, er, slab_v57]; rfl

theorem dot_v61 (n : Fin 50000) (j : Fin 128) :
    val_main_v61 (F := Ideal) x0 x1 x5 (ix2 n j) = ∑ k : Fin 128, rd2 (val_main_v42 (F := Ideal) x0 x1) n k * rd3 x5 0 k j := by
  rw [val_main_v61_apply]
  refine Finset.sum_congr rfl fun k _ => ?_
  have el : lidx_main_v61 (ix2 n j) k = ix2 n k := funext fun a => Fin.ext (by
    match a with
    | ⟨0, _⟩ => rfl
    | ⟨1, _⟩ => rfl)
  have er : ridx_main_v61 (ix2 n j) k = ix2 k j := funext fun a => Fin.ext (by
    match a with
    | ⟨0, _⟩ => rfl
    | ⟨1, _⟩ => rfl)
  rw [el, er, slab_v60]; rfl

theorem dot_v70 (n : Fin 50000) (j : Fin 128) :
    val_main_v70 (F := Ideal) x3 x7 (ix2 n j) = ∑ k : Fin 128, rd2 x3 n k * rd3 x7 0 k j := by
  rw [val_main_v70_apply]
  refine Finset.sum_congr rfl fun k _ => ?_
  have el : lidx_main_v70 (ix2 n j) k = ix2 n k := funext fun a => Fin.ext (by
    match a with
    | ⟨0, _⟩ => rfl
    | ⟨1, _⟩ => rfl)
  have er : ridx_main_v70 (ix2 n j) k = ix2 k j := funext fun a => Fin.ext (by
    match a with
    | ⟨0, _⟩ => rfl
    | ⟨1, _⟩ => rfl)
  rw [el, er, slab_v69]; rfl

theorem dot_v73 (n : Fin 50000) (j : Fin 128) :
    val_main_v73 (F := Ideal) x1 x3 x8 (ix2 n j) = ∑ k : Fin 128, rd2 (val_main_v55 (F := Ideal) x1 x3) n k * rd3 x8 0 k j := by
  rw [val_main_v73_apply]
  refine Finset.sum_congr rfl fun k _ => ?_
  have el : lidx_main_v73 (ix2 n j) k = ix2 n k := funext fun a => Fin.ext (by
    match a with
    | ⟨0, _⟩ => rfl
    | ⟨1, _⟩ => rfl)
  have er : ridx_main_v73 (ix2 n j) k = ix2 k j := funext fun a => Fin.ext (by
    match a with
    | ⟨0, _⟩ => rfl
    | ⟨1, _⟩ => rfl)
  rw [el, er, slab_v72]; rfl

theorem dot_v89 (n : Fin 50000) (j : Fin 128) :
    val_main_v89 (F := Ideal) x0 x4 (ix2 n j) = ∑ k : Fin 128, rd2 x0 n k * rd3 x4 1 k j := by
  rw [val_main_v89_apply]
  refine Finset.sum_congr rfl fun k _ => ?_
  have el : lidx_main_v89 (ix2 n j) k = ix2 n k := funext fun a => Fin.ext (by
    match a with
    | ⟨0, _⟩ => rfl
    | ⟨1, _⟩ => rfl)
  have er : ridx_main_v89 (ix2 n j) k = ix2 k j := funext fun a => Fin.ext (by
    match a with
    | ⟨0, _⟩ => rfl
    | ⟨1, _⟩ => rfl)
  rw [el, er, slab_v88]; rfl

theorem dot_v92 (n : Fin 50000) (j : Fin 128) :
    val_main_v92 (F := Ideal) x0 x1 x5 (ix2 n j) = ∑ k : Fin 128, rd2 (val_main_v42 (F := Ideal) x0 x1) n k * rd3 x5 1 k j := by
  rw [val_main_v92_apply]
  refine Finset.sum_congr rfl fun k _ => ?_
  have el : lidx_main_v92 (ix2 n j) k = ix2 n k := funext fun a => Fin.ext (by
    match a with
    | ⟨0, _⟩ => rfl
    | ⟨1, _⟩ => rfl)
  have er : ridx_main_v92 (ix2 n j) k = ix2 k j := funext fun a => Fin.ext (by
    match a with
    | ⟨0, _⟩ => rfl
    | ⟨1, _⟩ => rfl)
  rw [el, er, slab_v91]; rfl

theorem dot_v101 (n : Fin 50000) (j : Fin 128) :
    val_main_v101 (F := Ideal) x3 x7 (ix2 n j) = ∑ k : Fin 128, rd2 x3 n k * rd3 x7 1 k j := by
  rw [val_main_v101_apply]
  refine Finset.sum_congr rfl fun k _ => ?_
  have el : lidx_main_v101 (ix2 n j) k = ix2 n k := funext fun a => Fin.ext (by
    match a with
    | ⟨0, _⟩ => rfl
    | ⟨1, _⟩ => rfl)
  have er : ridx_main_v101 (ix2 n j) k = ix2 k j := funext fun a => Fin.ext (by
    match a with
    | ⟨0, _⟩ => rfl
    | ⟨1, _⟩ => rfl)
  rw [el, er, slab_v100]; rfl

theorem dot_v104 (n : Fin 50000) (j : Fin 128) :
    val_main_v104 (F := Ideal) x1 x3 x8 (ix2 n j) = ∑ k : Fin 128, rd2 (val_main_v55 (F := Ideal) x1 x3) n k * rd3 x8 1 k j := by
  rw [val_main_v104_apply]
  refine Finset.sum_congr rfl fun k _ => ?_
  have el : lidx_main_v104 (ix2 n j) k = ix2 n k := funext fun a => Fin.ext (by
    match a with
    | ⟨0, _⟩ => rfl
    | ⟨1, _⟩ => rfl)
  have er : ridx_main_v104 (ix2 n j) k = ix2 k j := funext fun a => Fin.ext (by
    match a with
    | ⟨0, _⟩ => rfl
    | ⟨1, _⟩ => rfl)
  rw [el, er, slab_v103]; rfl

theorem dot_v121 (n : Fin 50000) (j : Fin 128) :
    val_main_v121 (F := Ideal) x0 x4 (ix2 n j) = ∑ k : Fin 128, rd2 x0 n k * rd3 x4 2 k j := by
  rw [val_main_v121_apply]
  refine Finset.sum_congr rfl fun k _ => ?_
  have el : lidx_main_v121 (ix2 n j) k = ix2 n k := funext fun a => Fin.ext (by
    match a with
    | ⟨0, _⟩ => rfl
    | ⟨1, _⟩ => rfl)
  have er : ridx_main_v121 (ix2 n j) k = ix2 k j := funext fun a => Fin.ext (by
    match a with
    | ⟨0, _⟩ => rfl
    | ⟨1, _⟩ => rfl)
  rw [el, er, slab_v120]; rfl

theorem dot_v124 (n : Fin 50000) (j : Fin 128) :
    val_main_v124 (F := Ideal) x0 x1 x5 (ix2 n j) = ∑ k : Fin 128, rd2 (val_main_v42 (F := Ideal) x0 x1) n k * rd3 x5 2 k j := by
  rw [val_main_v124_apply]
  refine Finset.sum_congr rfl fun k _ => ?_
  have el : lidx_main_v124 (ix2 n j) k = ix2 n k := funext fun a => Fin.ext (by
    match a with
    | ⟨0, _⟩ => rfl
    | ⟨1, _⟩ => rfl)
  have er : ridx_main_v124 (ix2 n j) k = ix2 k j := funext fun a => Fin.ext (by
    match a with
    | ⟨0, _⟩ => rfl
    | ⟨1, _⟩ => rfl)
  rw [el, er, slab_v123]; rfl

theorem dot_v146 (n : Fin 50000) (j : Fin 128) :
    val_main_v146 (F := Ideal) x0 x1 x3 x4 x5 x6 x7 x8 x9 (ix2 n j) = ∑ k : Fin 128, rd2 (val_main_v118 (F := Ideal) x0 x1 x3 x4 x5 x6 x7 x8 x9) n k * rd3 x7 2 k j := by
  rw [val_main_v146_apply]
  refine Finset.sum_congr rfl fun k _ => ?_
  have el : lidx_main_v146 (ix2 n j) k = ix2 n k := funext fun a => Fin.ext (by
    match a with
    | ⟨0, _⟩ => rfl
    | ⟨1, _⟩ => rfl)
  have er : ridx_main_v146 (ix2 n j) k = ix2 k j := funext fun a => Fin.ext (by
    match a with
    | ⟨0, _⟩ => rfl
    | ⟨1, _⟩ => rfl)
  rw [el, er, slab_v145]; rfl

theorem dot_v149 (n : Fin 50000) (j : Fin 128) :
    val_main_v149 (F := Ideal) x0 x1 x3 x4 x5 x6 x7 x8 x9 (ix2 n j) = ∑ k : Fin 128, rd2 (val_main_v143 (F := Ideal) x0 x1 x3 x4 x5 x6 x7 x8 x9) n k * rd3 x8 2 k j := by
  rw [val_main_v149_apply]
  refine Finset.sum_congr rfl fun k _ => ?_
  have el : lidx_main_v149 (ix2 n j) k = ix2 n k := funext fun a => Fin.ext (by
    match a with
    | ⟨0, _⟩ => rfl
    | ⟨1, _⟩ => rfl)
  have er : ridx_main_v149 (ix2 n j) k = ix2 k j := funext fun a => Fin.ext (by
    match a with
    | ⟨0, _⟩ => rfl
    | ⟨1, _⟩ => rfl)
  rw [el, er, slab_v148]; rfl

/-! ## The convolutions `a·W0 + p·W1 + b` and the gates' pre-activations -/

theorem cheb_v67 (n : Fin 50000) (j : Fin 128) :
    val_main_v67 (F := Ideal) x0 x1 x4 x5 x6 (ix2 n j)
      = cheb (rd2 x0) (rd2 (val_main_v42 (F := Ideal) x0 x1)) (rd3 x4 0) (rd3 x5 0) (rdRow x6 0) n j := by
  rw [val_main_v67_apply, val_main_v62_apply, dot_v58, dot_v61, bias_v66]; rfl

theorem cheb_v79 (n : Fin 50000) (j : Fin 128) :
    val_main_v79 (F := Ideal) x1 x3 x7 x8 x9 (ix2 n j)
      = cheb (rd2 x3) (rd2 (val_main_v55 (F := Ideal) x1 x3)) (rd3 x7 0) (rd3 x8 0) (rdRow x9 0) n j := by
  rw [val_main_v79_apply, val_main_v74_apply, dot_v70, dot_v73, bias_v78]; rfl

theorem cheb_v98 (n : Fin 50000) (j : Fin 128) :
    val_main_v98 (F := Ideal) x0 x1 x4 x5 x6 (ix2 n j)
      = cheb (rd2 x0) (rd2 (val_main_v42 (F := Ideal) x0 x1)) (rd3 x4 1) (rd3 x5 1) (rdRow x6 1) n j := by
  rw [val_main_v98_apply, val_main_v93_apply, dot_v89, dot_v92, bias_v97]; rfl

theorem cheb_v110 (n : Fin 50000) (j : Fin 128) :
    val_main_v110 (F := Ideal) x1 x3 x7 x8 x9 (ix2 n j)
      = cheb (rd2 x3) (rd2 (val_main_v55 (F := Ideal) x1 x3)) (rd3 x7 1) (rd3 x8 1) (rdRow x9 1) n j := by
  rw [val_main_v110_apply, val_main_v105_apply, dot_v101, dot_v104, bias_v109]; rfl

theorem cheb_v130 (n : Fin 50000) (j : Fin 128) :
    val_main_v130 (F := Ideal) x0 x1 x4 x5 x6 (ix2 n j)
      = cheb (rd2 x0) (rd2 (val_main_v42 (F := Ideal) x0 x1)) (rd3 x4 2) (rd3 x5 2) (rdRow x6 2) n j := by
  rw [val_main_v130_apply, val_main_v125_apply, dot_v121, dot_v124, bias_v129]; rfl

theorem cheb_v155 (n : Fin 50000) (j : Fin 128) :
    val_main_v155 (F := Ideal) x0 x1 x3 x4 x5 x6 x7 x8 x9 (ix2 n j)
      = cheb (rd2 (val_main_v118 (F := Ideal) x0 x1 x3 x4 x5 x6 x7 x8 x9)) (rd2 (val_main_v143 (F := Ideal) x0 x1 x3 x4 x5 x6 x7 x8 x9)) (rd3 x7 2) (rd3 x8 2) (rdRow x9 2) n j := by
  rw [val_main_v155_apply, val_main_v150_apply, dot_v146, dot_v149, bias_v154]; rfl

theorem pre_v80 (n : Fin 50000) (j : Fin 128) :
    val_main_v80 (F := Ideal) x0 x1 x3 x4 x5 x6 x7 x8 x9 (ix2 n j)
      = pre (rd2 x0) (rd2 (val_main_v42 (F := Ideal) x0 x1)) (rd2 x3) (rd2 (val_main_v55 (F := Ideal) x1 x3))
          (rd3 x4 0) (rd3 x5 0) (rdRow x6 0) (rd3 x7 0) (rd3 x8 0) (rdRow x9 0) n j := by
  rw [val_main_v80_apply, cheb_v67, cheb_v79]; rfl

theorem pre_v111 (n : Fin 50000) (j : Fin 128) :
    val_main_v111 (F := Ideal) x0 x1 x3 x4 x5 x6 x7 x8 x9 (ix2 n j)
      = pre (rd2 x0) (rd2 (val_main_v42 (F := Ideal) x0 x1)) (rd2 x3) (rd2 (val_main_v55 (F := Ideal) x1 x3))
          (rd3 x4 1) (rd3 x5 1) (rdRow x6 1) (rd3 x7 1) (rd3 x8 1) (rdRow x9 1) n j := by
  rw [val_main_v111_apply, cheb_v98, cheb_v110]; rfl

theorem pre_v156 (n : Fin 50000) (j : Fin 128) :
    val_main_v156 (F := Ideal) x0 x1 x3 x4 x5 x6 x7 x8 x9 (ix2 n j)
      = pre (rd2 x0) (rd2 (val_main_v42 (F := Ideal) x0 x1)) (rd2 (val_main_v118 (F := Ideal) x0 x1 x3 x4 x5 x6 x7 x8 x9)) (rd2 (val_main_v143 (F := Ideal) x0 x1 x3 x4 x5 x6 x7 x8 x9))
          (rd3 x4 2) (rd3 x5 2) (rdRow x6 2) (rd3 x7 2) (rd3 x8 2) (rdRow x9 2) n j := by
  rw [val_main_v156_apply, cheb_v130, cheb_v155]; rfl

/-! ## The logistic function as the reference spells it -/

/-- `1 / (1 + exp (-u))` with the word of `1.0` for both ones is the logistic function. -/
theorem logistic_spelt (u : EReal) :
    FloatOps.hostDivf (F := Ideal) (φ := .f32) (FloatOps.ofBits .f32 0x3F800000#32)
      (FloatOps.addf (FloatOps.ofBits .f32 0x3F800000#32) (FloatOps.hostUnary .exp (FloatOps.hostNegf u)))
    = Ideal.logistic u := by
  simp only [Ideal.hostDivf_def, Ideal.addf_def, Ideal.hostUnary_exp_def, Ideal.hostNegf_def, Ideal.negf_def, Ideal.ofBits_def,
    Ideal.ofBits_one_f32]
  rfl

/-- The update gate: the logistic function of gate 0's pre-activation. -/
theorem ref_Z (n : Fin 50000) (j : Fin 128) :
    val_main_v86 (F := Ideal) x0 x1 x3 x4 x5 x6 x7 x8 x9 (ix2 n j)
      = Ideal.logistic (pre (rd2 x0) (rd2 (val_main_v42 (F := Ideal) x0 x1)) (rd2 x3) (rd2 (val_main_v55 (F := Ideal) x1 x3))
          (rd3 x4 0) (rd3 x5 0) (rdRow x6 0) (rd3 x7 0) (rd3 x8 0) (rdRow x9 0) n j) := by
  rw [val_main_v86_apply, val_main_v85_apply, val_main_cst_14_apply, val_main_v84_apply, val_main_v83_apply, val_main_cst_13_apply,
    val_main_v82_apply, val_main_v81_apply, pre_v80]
  exact logistic_spelt _

/-- The reset gate: the logistic function of gate 1's pre-activation. -/
theorem ref_R (n : Fin 50000) (j : Fin 128) :
    val_main_v117 (F := Ideal) x0 x1 x3 x4 x5 x6 x7 x8 x9 (ix2 n j)
      = Ideal.logistic (pre (rd2 x0) (rd2 (val_main_v42 (F := Ideal) x0 x1)) (rd2 x3) (rd2 (val_main_v55 (F := Ideal) x1 x3))
          (rd3 x4 1) (rd3 x5 1) (rdRow x6 1) (rd3 x7 1) (rd3 x8 1) (rdRow x9 1) n j) := by
  rw [val_main_v117_apply, val_main_v116_apply, val_main_cst_16_apply, val_main_v115_apply, val_main_v114_apply, val_main_cst_15_apply,
    val_main_v113_apply, val_main_v112_apply, pre_v111]
  exact logistic_spelt _

/-- The reset product: the old state times the reset gate. -/
theorem ref_HR (n : Fin 50000) (j : Fin 128) :
    val_main_v118 (F := Ideal) x0 x1 x3 x4 x5 x6 x7 x8 x9 (ix2 n j)
      = rd2 x3 n j * Ideal.logistic (pre (rd2 x0) (rd2 (val_main_v42 (F := Ideal) x0 x1)) (rd2 x3) (rd2 (val_main_v55 (F := Ideal) x1 x3))
          (rd3 x4 1) (rd3 x5 1) (rdRow x6 1) (rd3 x7 1) (rd3 x8 1) (rdRow x9 1) n j) := by
  rw [val_main_v118_apply, ref_R]; rfl

/-- The new state: the update gate's mix of the old state and the candidate, whose pre-activation is gate 2's,
    taken at the reset product and its propagated copy. -/
theorem ref_h (n : Fin 50000) (j : Fin 128) :
    val_main_v162 (F := Ideal) x0 x1 x3 x4 x5 x6 x7 x8 x9 (ix2 n j)
      = combine (val_main_v86 (F := Ideal) x0 x1 x3 x4 x5 x6 x7 x8 x9 (ix2 n j)) (rd2 x3 n j)
          (pre (rd2 x0) (rd2 (val_main_v42 (F := Ideal) x0 x1)) (rd2 (val_main_v118 (F := Ideal) x0 x1 x3 x4 x5 x6 x7 x8 x9)) (rd2 (val_main_v143 (F := Ideal) x0 x1 x3 x4 x5 x6 x7 x8 x9))
          (rd3 x4 2) (rd3 x5 2) (rdRow x6 2) (rd3 x7 2) (rd3 x8 2) (rdRow x9 2) n j) := by
  rw [val_main_v162_apply, val_main_v158_apply, val_main_v161_apply, val_main_v160_apply, val_main_v159_apply, val_main_cst_20_apply,
    val_main_v157_apply, pre_v156]
  rfl

/-- The link score: the product of the two gathered rows, projected to two columns, the bias added to each, the two
    summed from the word of `0.0`. -/
theorem ref_score (e : Fin 200000) :
    val_main_v187 (F := Ideal) x0 x1 x2 x3 x4 x5 x6 x7 x8 x9 x10 x11 (ix1 e)
      = scoreRef (fun e k => rd2 (val_main_v172 (F := Ideal) x0 x1 x2 x3 x4 x5 x6 x7 x8 x9) e k * rd2 (val_main_v181 (F := Ideal) x0 x1 x2 x3 x4 x5 x6 x7 x8 x9) e k) (rd2 x10) (rd1 x11) e := by
  rw [val_main_v187_apply, val_main_cst_25_apply]
  unfold scoreRef
  refine congrArg₂ (· + ·) rfl (Finset.sum_congr rfl fun c _ => ?_)
  have ei : idx_main_v187 (ix1 e) c = ix2 e c := funext fun a => Fin.ext (by
    match a with
    | ⟨0, _⟩ => rfl
    | ⟨1, _⟩ => rfl)
  rw [ei, val_main_v186_apply, val_main_v183_apply, val_main_v185_apply, val_main_v184_apply]
  have eb : idx_main_v184 (idx_main_v185 (ix2 e c)) = ix1 c := funext fun a => Fin.ext (by
    match a with
    | ⟨0, _⟩ => rfl)
  rw [eb]
  refine congrArg₂ (· + ·) (Finset.sum_congr rfl fun k _ => ?_) rfl
  have el : lidx_main_v183 (ix2 e c) k = ix2 e k := funext fun a => Fin.ext (by
    match a with
    | ⟨0, _⟩ => rfl
    | ⟨1, _⟩ => rfl)
  have er : ridx_main_v183 (ix2 e c) k = ix2 k c := funext fun a => Fin.ext (by
    match a with
    | ⟨0, _⟩ => rfl
    | ⟨1, _⟩ => rfl)
  rw [el, er, val_main_v182_apply]; rfl

end Cert.ReferenceIdeal.RefValue

end
-- ==== Proof.LibLayout.lean ====
/-
  Layout operations of the idealized kernel's host side, read at an index over literal coordinates.

  The stacked weights `[3, 128, 128]` and biases `[3, 128]` reach the first gate kernel as their leading two slabs
  (a slice), and the second gate kernel as the third slab reshaped to a matrix (a slice and a reshape): slab `g` of the
  slice is slab `g` of the array. The projection `[128, 2]` reaches the score kernel as its row sums reshaped to one
  row, its bias `[2]` as its sum reshaped to `[1, 1]`: a host sum from the word `0.0` is that word plus the sum over
  the reduced axis. The score kernel's `[200000, 1]` result is reshaped to a vector: entry `e` is entry `(e, 0)`.
-/
import proofs.«138199_j35132832481406_2_alg».proof.KernelIdeal
import proofs.«138199_j35132832481406_2_alg».proof.Proof.Spec
import Idealize.ShloMosaic.Lib.Pipeline.Value
import Idealize.ShloMosaic.Lib.ValueIdx
import Idealize.ShloMosaic.PureOps.Ideal.Laws

noncomputable section

namespace Cert.KernelIdeal.Layout

open Idealize.ShloMosaic Idealize.ShloMosaic.ValueIdx Cert.KernelIdeal Cert.Spec

variable [Cert.KernelIdeal.Facts]
open Cert.KernelIdeal.Facts₀ Cert.KernelIdeal.Facts

/-- Slab `g < 2` of the leading-two slice of a stacked weight array is slab `g` of the array. -/
theorem slab_slice2 (A : S3x128x128.Idx → EReal) (g : Fin 2) :
    rd3 (extractStridedSlice S2x128x128 ![0, 0, 0] A slices_S3x128x128_S2x128x128_0_0_0) g
      = rd3 A ⟨g.val, by omega⟩ := by
  funext k j
  unfold rd3
  exact extractStridedSlice_apply ![0, 0, 0] A slices_S3x128x128_S2x128x128_0_0_0 (ix3 g k j) (ix3 ⟨g.val, by omega⟩ k j)
    (fun a => match a with
      | ⟨0, _⟩ => by show g.val = 0 + g.val; omega
      | ⟨1, _⟩ => by show k.val = 0 + k.val; omega
      | ⟨2, _⟩ => by show j.val = 0 + j.val; omega)

/-- Row `g < 2` of the leading-two slice of a stacked bias is row `g` of the array. -/
theorem row_slice2 (B : S3x128.Idx → EReal) (g : Fin 2) :
    rdRow (extractStridedSlice S2x128 ![0, 0] B slices_S3x128_S2x128_0_0) g = rdRow B ⟨g.val, by omega⟩ := by
  funext j
  unfold rdRow
  exact extractStridedSlice_apply ![0, 0] B slices_S3x128_S2x128_0_0 (ix2 g j) (ix2 ⟨g.val, by omega⟩ j)
    (fun a => match a with
      | ⟨0, _⟩ => by show g.val = 0 + g.val; omega
      | ⟨1, _⟩ => by show j.val = 0 + j.val; omega)

/-- The third slab, sliced out and reshaped to a matrix, is the third slab. -/
theorem slab_third (A : S3x128x128.Idx → EReal) :
    rd2 (shapeCast S128x128 (extractStridedSlice S1x128x128 ![2, 0, 0] A slices_S3x128x128_S1x128x128_2_0_0)
      shapeCasts_S1x128x128_S128x128) = rd3 A 2 := by
  funext k j
  unfold rd2 rd3
  refine (shapeCast_apply _ shapeCasts_S1x128x128_S128x128 (ix2 k j) (ix3 (0 : Fin 1) k j) ?_).trans ?_
  · rewrite [Shape.rowMajor_val_three, Shape.rowMajor_val_two]
    have h0 : k.val < 128 := k.isLt
    have h1 : j.val < 128 := j.isLt
    show (0 * 128 + k.val) * 128 + j.val = k.val * 128 + j.val
    omega
  · exact extractStridedSlice_apply ![2, 0, 0] A slices_S3x128x128_S1x128x128_2_0_0 (ix3 (0 : Fin 1) k j) (ix3 (2 : Fin 3) k j)
      (fun a => match a with
        | ⟨0, _⟩ => by show 2 = 2 + 0; omega
        | ⟨1, _⟩ => by show k.val = 0 + k.val; omega
        | ⟨2, _⟩ => by show j.val = 0 + j.val; omega)

/-- The third row of a stacked bias, sliced out and reshaped to a vector, is the third row. -/
theorem row_third (B : S3x128.Idx → EReal) :
    rd1 (shapeCast S128 (extractStridedSlice S1x128 ![2, 0] B slices_S3x128_S1x128_2_0) shapeCasts_S1x128_S128)
      = rdRow B 2 := by
  funext j
  unfold rd1 rdRow
  refine (shapeCast_apply _ shapeCasts_S1x128_S128 (ix1 j) (ix2 (0 : Fin 1) j) ?_).trans ?_
  · rewrite [Shape.rowMajor_val_two, Shape.rowMajor_val_one]
    have h1 : j.val < 128 := j.isLt
    show 0 * 128 + j.val = j.val
    omega
  · exact extractStridedSlice_apply ![2, 0] B slices_S3x128_S1x128_2_0 (ix2 (0 : Fin 1) j) (ix2 (2 : Fin 3) j)
      (fun a => match a with
        | ⟨0, _⟩ => by show 2 = 2 + 0; omega
        | ⟨1, _⟩ => by show j.val = 0 + j.val; omega)

/-- Entry `e` of the `[200000, 1]` scores reshaped to a vector is entry `(e, 0)`. -/
theorem scores_flat (X : S200000x1.Idx → EReal) (e : Fin 200000) :
    (shapeCast S200000 X shapeCasts_S200000x1_S200000) (ix1 e) = X (ix2 e (0 : Fin 1)) := by
  refine shapeCast_apply X shapeCasts_S200000x1_S200000 (ix1 e) (ix2 e (0 : Fin 1)) ?_
  rewrite [Shape.rowMajor_val_one, Shape.rowMajor_val_two]
  have h0 : e.val < 200000 := e.isLt
  show e.val * 1 + 0 = e.val
  omega

end Cert.KernelIdeal.Layout

end
-- ==== Proof.Bridge0.lean ====
/-
  The first gate kernel against the reference. The kernel finds the input, the state and their propagated copies
  as the reference computes them, and the leading two slabs of each stacked weight; so a gate's pre-activation is the
  same number on both sides, the update gate the kernel leaves is the reference's `Z` and the reset product it leaves
  is the reference's `H·R`, entry by entry and hence as arrays.
-/
import proofs.«138199_j35132832481406_2_alg».proof.Proof.HostChain
import proofs.«138199_j35132832481406_2_alg».proof.Proof.Region0
import proofs.«138199_j35132832481406_2_alg».proof.Proof.RefRead
import proofs.«138199_j35132832481406_2_alg».proof.Proof.LibLayout

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.Spec
open Cert.KernelIdeal.RegionValue Cert.KernelIdeal.HostRead Cert.KernelIdeal.Layout
open Cert.ReferenceIdeal.ReadP Cert.ReferenceIdeal.RefValue

variable (m : (ℓ : Loc nD τ sig) → Buf (Elt Ideal) ℓ) (ρ : Dev nD → PrngReg) (c : Dev nD)

/-- Gate 0's pre-activation over what the first gate kernel finds is the reference's. -/
theorem pre_gate0 (n : Fin 50000) (j : Fin 128) :
    pre (rd2 (V3 m ρ c main_arg0 : S50000x128.Idx → EReal)) (rd2 (V3 m ρ c main_v42 : S50000x128.Idx → EReal))
            (rd2 (V3 m ρ c main_arg3 : S50000x128.Idx → EReal)) (rd2 (V3 m ρ c main_v55 : S50000x128.Idx → EReal))
            (rd3 (V3 m ρ c main_v56 : S2x128x128.Idx → EReal) 0) (rd3 (V3 m ρ c main_v57 : S2x128x128.Idx → EReal) 0) (rdRow (V3 m ρ c main_v58 : S2x128.Idx → EReal) 0)
            (rd3 (V3 m ρ c main_v59 : S2x128x128.Idx → EReal) 0) (rd3 (V3 m ρ c main_v60 : S2x128x128.Idx → EReal) 0) (rdRow (V3 m ρ c main_v61 : S2x128.Idx → EReal) 0) n j
      = pre (rd2 (m ((c.tc : Thread nD τ).loc main_arg0))) (rd2 (val_main_v42 (F := Ideal) (m ((c.tc : Thread nD τ).loc main_arg0)) (m ((c.tc : Thread nD τ).loc main_arg1)))) (rd2 (m ((c.tc : Thread nD τ).loc main_arg3))) (rd2 (val_main_v55 (F := Ideal) (m ((c.tc : Thread nD τ).loc main_arg1)) (m ((c.tc : Thread nD τ).loc main_arg3))))
            (rd3 (m ((c.tc : Thread nD τ).loc main_arg4)) 0) (rd3 (m ((c.tc : Thread nD τ).loc main_arg5)) 0) (rdRow (m ((c.tc : Thread nD τ).loc main_arg6)) 0) (rd3 (m ((c.tc : Thread nD τ).loc main_arg7)) 0) (rd3 (m ((c.tc : Thread nD τ).loc main_arg8)) 0) (rdRow (m ((c.tc : Thread nD τ).loc main_arg9)) 0) n j := by
  show pre (rd2 (W3 m ρ c (Proc.devRef .tc main_arg0))) (rd2 (W3 m ρ c (Proc.devRef .tc main_v42)))
      (rd2 (W3 m ρ c (Proc.devRef .tc main_arg3))) (rd2 (W3 m ρ c (Proc.devRef .tc main_v55)))
      (rd3 (W3 m ρ c (Proc.devRef .tc main_v56)) 0) (rd3 (W3 m ρ c (Proc.devRef .tc main_v57)) 0) (rdRow (W3 m ρ c (Proc.devRef .tc main_v58)) 0)
      (rd3 (W3 m ρ c (Proc.devRef .tc main_v59)) 0) (rd3 (W3 m ρ c (Proc.devRef .tc main_v60)) 0) (rdRow (W3 m ρ c (Proc.devRef .tc main_v61)) 0) n j = _
  rw [W3_arg0, W3_v42, W3_arg3, W3_v55, W3_v56, W3_v57, W3_v58, W3_v59, W3_v60, W3_v61,
    slab_slice2, slab_slice2, slab_slice2, slab_slice2, row_slice2, row_slice2]
  rfl

/-- Gate 1's pre-activation over what the first gate kernel finds is the reference's. -/
theorem pre_gate1 (n : Fin 50000) (j : Fin 128) :
    pre (rd2 (V3 m ρ c main_arg0 : S50000x128.Idx → EReal)) (rd2 (V3 m ρ c main_v42 : S50000x128.Idx → EReal))
            (rd2 (V3 m ρ c main_arg3 : S50000x128.Idx → EReal)) (rd2 (V3 m ρ c main_v55 : S50000x128.Idx → EReal))
            (rd3 (V3 m ρ c main_v56 : S2x128x128.Idx → EReal) 1) (rd3 (V3 m ρ c main_v57 : S2x128x128.Idx → EReal) 1) (rdRow (V3 m ρ c main_v58 : S2x128.Idx → EReal) 1)
            (rd3 (V3 m ρ c main_v59 : S2x128x128.Idx → EReal) 1) (rd3 (V3 m ρ c main_v60 : S2x128x128.Idx → EReal) 1) (rdRow (V3 m ρ c main_v61 : S2x128.Idx → EReal) 1) n j
      = pre (rd2 (m ((c.tc : Thread nD τ).loc main_arg0))) (rd2 (val_main_v42 (F := Ideal) (m ((c.tc : Thread nD τ).loc main_arg0)) (m ((c.tc : Thread nD τ).loc main_arg1)))) (rd2 (m ((c.tc : Thread nD τ).loc main_arg3))) (rd2 (val_main_v55 (F := Ideal) (m ((c.tc : Thread nD τ).loc main_arg1)) (m ((c.tc : Thread nD τ).loc main_arg3))))
            (rd3 (m ((c.tc : Thread nD τ).loc main_arg4)) 1) (rd3 (m ((c.tc : Thread nD τ).loc main_arg5)) 1) (rdRow (m ((c.tc : Thread nD τ).loc main_arg6)) 1) (rd3 (m ((c.tc : Thread nD τ).loc main_arg7)) 1) (rd3 (m ((c.tc : Thread nD τ).loc main_arg8)) 1) (rdRow (m ((c.tc : Thread nD τ).loc main_arg9)) 1) n j := by
  show pre (rd2 (W3 m ρ c (Proc.devRef .tc main_arg0))) (rd2 (W3 m ρ c (Proc.devRef .tc main_v42)))
      (rd2 (W3 m ρ c (Proc.devRef .tc main_arg3))) (rd2 (W3 m ρ c (Proc.devRef .tc main_v55)))
      (rd3 (W3 m ρ c (Proc.devRef .tc main_v56)) 1) (rd3 (W3 m ρ c (Proc.devRef .tc main_v57)) 1) (rdRow (W3 m ρ c (Proc.devRef .tc main_v58)) 1)
      (rd3 (W3 m ρ c (Proc.devRef .tc main_v59)) 1) (rd3 (W3 m ρ c (Proc.devRef .tc main_v60)) 1) (rdRow (W3 m ρ c (Proc.devRef .tc main_v61)) 1) n j = _
  rw [W3_arg0, W3_v42, W3_arg3, W3_v55, W3_v56, W3_v57, W3_v58, W3_v59, W3_v60, W3_v61,
    slab_slice2, slab_slice2, slab_slice2, slab_slice2, row_slice2, row_slice2]
  rfl

/-- The update gate the first kernel leaves is the reference's. -/
theorem Z_eq : (W4 m ρ c (Proc.devRef .tc main_v62_0) : S50000x128.Idx → EReal)
    = val_main_v86 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨n, j, rfl⟩ : ∃ (n : Fin 50000) (j : Fin 128), i = ix2 n j := ⟨i 0, i 1, eq_ix2 i⟩
  refine (congrFun (W4_arr m ρ c 10) (ix2 n j)).trans ?_
  refine (region0_Z (V3 m ρ) c n j).trans ?_
  rw [ref_Z]
  exact congrArg Ideal.logistic (pre_gate0 m ρ c n j)

/-- The reset product the first kernel leaves is the reference's. -/
theorem HR_eq : (W4 m ρ c (Proc.devRef .tc main_v62_1) : S50000x128.Idx → EReal)
    = val_main_v118 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨n, j, rfl⟩ : ∃ (n : Fin 50000) (j : Fin 128), i = ix2 n j := ⟨i 0, i 1, eq_ix2 i⟩
  refine (congrFun (W4_arr m ρ c 11) (ix2 n j)).trans ?_
  refine (region0_HR (V3 m ρ) c n j).trans ?_
  rw [ref_HR]
  refine congrArg₂ (· * ·) ?_ (congrArg Ideal.logistic (pre_gate1 m ρ c n j))
  show rd2 (W3 m ρ c (Proc.devRef .tc main_arg3)) n j = _
  rw [W3_arg3]

end Cert.KernelIdeal.Bridge

end
-- ==== Proof.Region1.lean ====
/-
  Region 1, the candidate and the new state: what the state array holds after the region, index by index, as the
  specification's function of the arrays the region finds.

  At a grid point the body stores, through the output window, `Z·H + (1 − Z)·tanh u` of the point's input blocks, `u` the
  candidate's pre-activation taken at the reset product and its propagated copy. A node window's block at point `t` is
  rows `2000 t … 2000 t + 1999` of its array and a weight or bias window's block is the whole array, so the stored block
  is block `t` of one function of the arrays; the 25 blocks cover the 50000 rows.
-/
import proofs.«138199_j35132832481406_2_alg».proof.Proof.LibGate

noncomputable section

namespace Cert.KernelIdeal.RegionValue

open Idealize.ShloMosaic Idealize.ShloMosaic.TcCoe Idealize.ShloMosaic.ValueIdx Idealize.SL.Sem Cert.KernelIdeal Cert.KernelIdeal.Gen Cert.Spec

variable (V : (c : Dev nD) → (b : Ref sig .tc) → Buf (Elt Ideal) ((c : Thread nD τ).loc b))

/-- The zero offset of a rank-1 rectangle, as the constant function. -/
theorem hz1 : (![0] : Fin 1 → Nat) = fun _ => 0 := funext fun a => by fin_cases a; rfl

/-- The stored value of the state's window, as a whole block: `Z·H + (1 − Z)·tanh u`, `u` the input's convolution plus
    the reset product's (the identity shape casts removed). -/
theorem out1_12_eq (x0 x1 x2 x3 x4 x5 : Vec Ideal S2000x128 .f32) (x6 x7 : Vec Ideal S128x128 .f32) (x8 : Vec Ideal S128 .f32)
    (x9 x10 : Vec Ideal S128x128 .f32) (x11 : Vec Ideal S128 .f32) :
    out1_12 x0 x1 x2 x3 x4 x5 x6 x7 x8 x9 x10 x11
      = addf (mulf x5 x4)
          (mulf (subf (broadcast S2000x128 (Scalar.ofBits (F := Ideal) .f32 0x3F800000#32)) x5)
            (tanh (addf (chebW x0 x1 x6 x7 x8) (chebW x2 x3 x9 x10 x11)))) := by
  unfold out1_12
  rw [View.canon_unit_zero hz2]
  simp only [View.ld_unit_zero (S := S2000x128) hz2, View.ld_unit_zero (S := S128x128) hz2, View.ld_unit_zero (S := S128) hz1]
  unfold k1_pay1 k1_pay2 k1_pay3 k1_pay4 k1_pay5 k1_pay6 k1_pay7 k1_pay8 k1_pay9
  simp only [shapeCast_self]
  rfl

/-- The state's block at row `r`, column `j`. -/
theorem out1_12_at (x0 x1 x2 x3 x4 x5 : Vec Ideal S2000x128 .f32) (x6 x7 : Vec Ideal S128x128 .f32) (x8 : Vec Ideal S128 .f32)
    (x9 x10 : Vec Ideal S128x128 .f32) (x11 : Vec Ideal S128 .f32) (r : Fin 2000) (j : Fin 128) :
    out1_12 x0 x1 x2 x3 x4 x5 x6 x7 x8 x9 x10 x11 (ix2 r j)
      = combine (rd2 x5 r j) (rd2 x4 r j)
          (pre (rd2 x0) (rd2 x1) (rd2 x2) (rd2 x3) (rd2 x6) (rd2 x7) (rd1 x8) (rd2 x9) (rd2 x10) (rd1 x11) r j) := by
  rw [out1_12_eq]
  show x5 (ix2 r j) * x4 (ix2 r j) + (Ideal.ofBits .f32 0x3F800000#32 - x5 (ix2 r j)) *
      Ideal.tanh (chebW x0 x1 x6 x7 x8 (ix2 r j) + chebW x2 x3 x9 x10 x11 (ix2 r j)) = _
  rw [chebW_at, chebW_at]
  rfl

/-- The block index maps of region 1, decided over its 25 points: a node window's block at point `t` is row block `t`,
    column block 0; a weight or bias window's is the whole array at every point. -/
theorem idx1_facts : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = t.val ∧ win1_4.index t 1 = 0) ∧ (win1_5.index t 0 = t.val ∧ win1_5.index t 1 = 0)
    ∧ (win1_12.index t 0 = t.val ∧ win1_12.index t 1 = 0)
    ∧ (win1_6.index t 0 = 0 ∧ win1_6.index t 1 = 0) ∧ (win1_7.index t 0 = 0 ∧ win1_7.index t 1 = 0)
    ∧ (win1_9.index t 0 = 0 ∧ win1_9.index t 1 = 0) ∧ (win1_10.index t 0 = 0 ∧ win1_10.index t 1 = 0)
    ∧ win1_8.index t 0 = 0 ∧ win1_11.index t 0 = 0 :=
  (by decide +kernel : ∀ t : Fin grid1.N, _)

/-- Window 0's block at point `t` is rows `2000 t … 2000 t + 1999` of the input array. -/
theorem iblk1_0_at (c : Dev nD) (t : Fin cfg1.N) (r : Fin 2000) (k : Fin 128) (n : Fin 50000) (hn : n.val = 2000 * t.val + r.val) :
    (iblk1 (F := Ideal) V c 0 t : S2000x128.Idx → EReal) (ix2 r k) = (V c main_arg0 : S50000x128.Idx → EReal) (ix2 n k) := by
  obtain ⟨h0, h1⟩ := (idx1_facts t).1
  unfold iblk1
  rw [View.read_apply]
  refine read2_congr (V c main_arg0) _ n k ?_ ?_
  · show win1_0.index t 0 * 2000 + 1 * r.val = n.val
    omega
  · show win1_0.index t 1 * 128 + 1 * k.val = k.val
    omega

/-- Window 1's block at point `t` is rows `2000 t … 2000 t + 1999` of the propagated input. -/
theorem iblk1_1_at (c : Dev nD) (t : Fin cfg1.N) (r : Fin 2000) (k : Fin 128) (n : Fin 50000) (hn : n.val = 2000 * t.val + r.val) :
    (iblk1 (F := Ideal) V c 1 t : S2000x128.Idx → EReal) (ix2 r k) = (V c main_v42 : S50000x128.Idx → EReal) (ix2 n k) := by
  obtain ⟨h0, h1⟩ := (idx1_facts t).2.1
  unfold iblk1
  rw [View.read_apply]
  refine read2_congr (V c main_v42) _ n k ?_ ?_
  · show win1_1.index t 0 * 2000 + 1 * r.val = n.val
    omega
  · show win1_1.index t 1 * 128 + 1 * k.val = k.val
    omega

/-- Window 2's block at point `t` is rows `2000 t … 2000 t + 1999` of the reset product. -/
theorem iblk1_2_at (c : Dev nD) (t : Fin cfg1.N) (r : Fin 2000) (k : Fin 128) (n : Fin 50000) (hn : n.val = 2000 * t.val + r.val) :
    (iblk1 (F := Ideal) V c 2 t : S2000x128.Idx → EReal) (ix2 r k) = (V c main_v62_1 : S50000x128.Idx → EReal) (ix2 n k) := by
  obtain ⟨h0, h1⟩ := (idx1_facts t).2.2.1
  unfold iblk1
  rw [View.read_apply]
  refine read2_congr (V c main_v62_1) _ n k ?_ ?_
  · show win1_2.index t 0 * 2000 + 1 * r.val = n.val
    omega
  · show win1_2.index t 1 * 128 + 1 * k.val = k.val
    omega

/-- Window 3's block at point `t` is rows `2000 t … 2000 t + 1999` of the propagated reset product. -/
theorem iblk1_3_at (c : Dev nD) (t : Fin cfg1.N) (r : Fin 2000) (k : Fin 128) (n : Fin 50000) (hn : n.val = 2000 * t.val + r.val) :
    (iblk1 (F := Ideal) V c 3 t : S2000x128.Idx → EReal) (ix2 r k) = (V c main_v75 : S50000x128.Idx → EReal) (ix2 n k) := by
  obtain ⟨h0, h1⟩ := (idx1_facts t).2.2.2.1
  unfold iblk1
  rw [View.read_apply]
  refine read2_congr (V c main_v75) _ n k ?_ ?_
  · show win1_3.index t 0 * 2000 + 1 * r.val = n.val
    omega
  · show win1_3.index t 1 * 128 + 1 * k.val = k.val
    omega

/-- Window 4's block at point `t` is rows `2000 t … 2000 t + 1999` of the state. -/
theorem iblk1_4_at (c : Dev nD) (t : Fin cfg1.N) (r : Fin 2000) (k : Fin 128) (n : Fin 50000) (hn : n.val = 2000 * t.val + r.val) :
    (iblk1 (F := Ideal) V c 4 t : S2000x128.Idx → EReal) (ix2 r k) = (V c main_arg3 : S50000x128.Idx → EReal) (ix2 n k) := by
  obtain ⟨h0, h1⟩ := (idx1_facts t).2.2.2.2.1
  unfold iblk1
  rw [View.read_apply]
  refine read2_congr (V c main_arg3) _ n k ?_ ?_
  · show win1_4.index t 0 * 2000 + 1 * r.val = n.val
    omega
  · show win1_4.index t 1 * 128 + 1 * k.val = k.val
    omega

/-- Window 5's block at point `t` is rows `2000 t … 2000 t + 1999` of the update gate. -/
theorem iblk1_5_at (c : Dev nD) (t : Fin cfg1.N) (r : Fin 2000) (k : Fin 128) (n : Fin 50000) (hn : n.val = 2000 * t.val + r.val) :
    (iblk1 (F := Ideal) V c 5 t : S2000x128.Idx → EReal) (ix2 r k) = (V c main_v62_0 : S50000x128.Idx → EReal) (ix2 n k) := by
  obtain ⟨h0, h1⟩ := (idx1_facts t).2.2.2.2.2.1
  unfold iblk1
  rw [View.read_apply]
  refine read2_congr (V c main_v62_0) _ n k ?_ ?_
  · show win1_5.index t 0 * 2000 + 1 * r.val = n.val
    omega
  · show win1_5.index t 1 * 128 + 1 * k.val = k.val
    omega

/-- Window 6's block at every point is the whole of the input's first weight matrix. -/
theorem iblk1_6_eq (c : Dev nD) (t : Fin cfg1.N) :
    (iblk1 (F := Ideal) V c 6 t : S128x128.Idx → EReal) = (V c main_v77 : S128x128.Idx → EReal) := by
  obtain ⟨h0, h1⟩ := (idx1_facts t).2.2.2.2.2.2.2.1
  funext y
  unfold iblk1
  rw [View.read_apply]
  refine congrArg (V c main_v77) (funext fun a => Fin.ext ?_)
  match a with
  | ⟨0, _⟩ => show win1_6.index t 0 * 128 + 1 * (y 0).val = (y 0).val; omega
  | ⟨1, _⟩ => show win1_6.index t 1 * 128 + 1 * (y 1).val = (y 1).val; omega

/-- Window 7's block at every point is the whole of the input's second weight matrix. -/
theorem iblk1_7_eq (c : Dev nD) (t : Fin cfg1.N) :
    (iblk1 (F := Ideal) V c 7 t : S128x128.Idx → EReal) = (V c main_v79 : S128x128.Idx → EReal) := by
  obtain ⟨h0, h1⟩ := (idx1_facts t).2.2.2.2.2.2.2.2.1
  funext y
  unfold iblk1
  rw [View.read_apply]
  refine congrArg (V c main_v79) (funext fun a => Fin.ext ?_)
  match a with
  | ⟨0, _⟩ => show win1_7.index t 0 * 128 + 1 * (y 0).val = (y 0).val; omega
  | ⟨1, _⟩ => show win1_7.index t 1 * 128 + 1 * (y 1).val = (y 1).val; omega

/-- Window 9's block at every point is the whole of the state's first weight matrix. -/
theorem iblk1_9_eq (c : Dev nD) (t : Fin cfg1.N) :
    (iblk1 (F := Ideal) V c 9 t : S128x128.Idx → EReal) = (V c main_v83 : S128x128.Idx → EReal) := by
  obtain ⟨h0, h1⟩ := (idx1_facts t).2.2.2.2.2.2.2.2.2.1
  funext y
  unfold iblk1
  rw [View.read_apply]
  refine congrArg (V c main_v83) (funext fun a => Fin.ext ?_)
  match a with
  | ⟨0, _⟩ => show win1_9.index t 0 * 128 + 1 * (y 0).val = (y 0).val; omega
  | ⟨1, _⟩ => show win1_9.index t 1 * 128 + 1 * (y 1).val = (y 1).val; omega

/-- Window 10's block at every point is the whole of the state's second weight matrix. -/
theorem iblk1_10_eq (c : Dev nD) (t : Fin cfg1.N) :
    (iblk1 (F := Ideal) V c 10 t : S128x128.Idx → EReal) = (V c main_v85 : S128x128.Idx → EReal) := by
  obtain ⟨h0, h1⟩ := (idx1_facts t).2.2.2.2.2.2.2.2.2.2.1
  funext y
  unfold iblk1
  rw [View.read_apply]
  refine congrArg (V c main_v85) (funext fun a => Fin.ext ?_)
  match a with
  | ⟨0, _⟩ => show win1_10.index t 0 * 128 + 1 * (y 0).val = (y 0).val; omega
  | ⟨1, _⟩ => show win1_10.index t 1 * 128 + 1 * (y 1).val = (y 1).val; omega

/-- Window 8's block at every point is the whole of the input's bias. -/
theorem iblk1_8_eq (c : Dev nD) (t : Fin cfg1.N) :
    (iblk1 (F := Ideal) V c 8 t : S128.Idx → EReal) = (V c main_v81 : S128.Idx → EReal) := by
  have h0 := (idx1_facts t).2.2.2.2.2.2.2.2.2.2.2.1
  funext y
  unfold iblk1
  rw [View.read_apply]
  refine congrArg (V c main_v81) (funext fun a => Fin.ext ?_)
  match a with
  | ⟨0, _⟩ => show win1_8.index t 0 * 128 + 1 * (y 0).val = (y 0).val; omega

/-- Window 11's block at every point is the whole of the state's bias. -/
theorem iblk1_11_eq (c : Dev nD) (t : Fin cfg1.N) :
    (iblk1 (F := Ideal) V c 11 t : S128.Idx → EReal) = (V c main_v87 : S128.Idx → EReal) := by
  have h0 := (idx1_facts t).2.2.2.2.2.2.2.2.2.2.2.2
  funext y
  unfold iblk1
  rw [View.read_apply]
  refine congrArg (V c main_v87) (funext fun a => Fin.ext ?_)
  match a with
  | ⟨0, _⟩ => show win1_11.index t 0 * 128 + 1 * (y 0).val = (y 0).val; omega

/-- The new state as one function of the arrays region 1 finds. -/
def Harr (c : Dev nD) : S50000x128.Idx → EReal := fun i =>
  combine (rd2 (V c main_v62_0 : S50000x128.Idx → EReal) (i 0) (i 1)) (rd2 (V c main_arg3 : S50000x128.Idx → EReal) (i 0) (i 1))
    (pre (rd2 (V c main_arg0 : S50000x128.Idx → EReal)) (rd2 (V c main_v42 : S50000x128.Idx → EReal))
      (rd2 (V c main_v62_1 : S50000x128.Idx → EReal)) (rd2 (V c main_v75 : S50000x128.Idx → EReal))
      (rd2 (V c main_v77 : S128x128.Idx → EReal)) (rd2 (V c main_v79 : S128x128.Idx → EReal)) (rd1 (V c main_v81 : S128.Idx → EReal))
      (rd2 (V c main_v83 : S128x128.Idx → EReal)) (rd2 (V c main_v85 : S128x128.Idx → EReal)) (rd1 (V c main_v87 : S128.Idx → EReal))
      (i 0) (i 1))

set_option maxHeartbeats 400000 in
/-- Rows `2000 t … 2000 t + 1999` of the new state, all 128 columns, are what the body leaves at point `t`: the copy back
    to the state array at that point puts `Harr`'s values on exactly those rows. -/
theorem flushed1_12 (c : Dev nD) (t : Fin cfg1.N) :
    (dat1 V c).flushed 12 t = ((cfg1.win 12).blk t).view.read (Elt Ideal) (Harr V c) := by
  show (cfg1.win 12).cut (grid1.coords t) ((dat1 V c).after 12 t) = _
  rw [after1_12]
  funext y
  obtain ⟨r, j, rfl⟩ : ∃ (r : Fin 2000) (j : Fin 128), y = ix2 r j := ⟨y 0, y 1, eq_ix2 y⟩
  have hN : cfg1.N = 25 := N_1
  have hn : 2000 * t.val + r.val < 50000 := by have := t.isLt; have := r.isLt; omega
  obtain ⟨-, -, -, -, -, -, ⟨i0, i1⟩, -⟩ := idx1_facts t
  show out1_12 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) (ix2 r j)
    = Harr V c (((cfg1.win 12).blk t).view.emb (ix2 r j))
  have hemb : ((cfg1.win 12).blk t).view.emb (ix2 r j) = ix2 (⟨2000 * t.val + r.val, hn⟩ : Fin 50000) j :=
    funext fun a => Fin.ext (by
      match a with
      | ⟨0, _⟩ => show win1_12.index t 0 * 2000 + 1 * r.val = 2000 * t.val + r.val; omega
      | ⟨1, _⟩ => show win1_12.index t 1 * 128 + 1 * j.val = j.val; omega)
  rw [hemb, out1_12_at (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (iblk1 V c 11 t) r j,
    iblk1_6_eq V c t, iblk1_7_eq V c t, iblk1_8_eq V c t, iblk1_9_eq V c t, iblk1_10_eq V c t, iblk1_11_eq V c t]
  show combine _ _ _ = combine _ _ _
  rw [show rd2 (iblk1 V c 5 t : S2000x128.Idx → EReal) r j = rd2 (V c main_v62_0 : S50000x128.Idx → EReal) (⟨2000 * t.val + r.val, hn⟩ : Fin 50000) j
        from iblk1_5_at V c t r j _ rfl,
      show rd2 (iblk1 V c 4 t : S2000x128.Idx → EReal) r j = rd2 (V c main_arg3 : S50000x128.Idx → EReal) (⟨2000 * t.val + r.val, hn⟩ : Fin 50000) j
        from iblk1_4_at V c t r j _ rfl]
  refine congrArg (combine _ _) ?_
  exact pre_congr_row _ _ _ _ _ _ _ _ _ _ _ _ _ _ r (⟨2000 * t.val + r.val, hn⟩ : Fin 50000) j
    (fun k => iblk1_0_at V c t r k _ rfl) (fun k => iblk1_1_at V c t r k _ rfl)
    (fun k => iblk1_2_at V c t r k _ rfl) (fun k => iblk1_3_at V c t r k _ rfl)

/-- Which entries of the state array point `t` owns: row `n`, column `q` with `2000 t ≤ n < 2000 t + 2000` and `q < 128`,
    written as one pair of bounds per axis. -/
theorem mem_blk1_12 (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v88).slice (win1_12.rect t)).set ↔ _
  rw [View.set_slice_whole, Rect.mem_set_unit]
  exact Iff.rfl

/-- Row `n` of the state array is in the block of point `n / 2000`: the 25 blocks cover the array. -/
theorem cover1_12_arr (i : S50000x128.Idx) :
    ∃ t : Fin cfg1.N, (cfg1.win 12).flush t = true ∧ i ∈ ((cfg1.win 12).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by omega⟩, rfl⟩
  obtain ⟨-, -, -, -, -, -, ⟨e0, e1⟩, -⟩ := idx1_facts t
  refine ⟨t, flush1_12 t, ?_⟩
  rw [mem_blk1_12]
  intro a
  match a with
  | ⟨0, _⟩ => show win1_12.index t 0 * 2000 ≤ (i 0).val ∧ (i 0).val < win1_12.index t 0 * 2000 + 2000; omega
  | ⟨1, _⟩ => show win1_12.index t 1 * 128 ≤ (i 1).val ∧ (i 1).val < win1_12.index t 1 * 128 + 128; omega

/-- The new state after region 1: at row `n`, column `j` its array holds `z·h + (1 − z)·tanh u`, with `z` the update gate's
    entry, `h` the old state's and `u` the candidate's pre-activation, all taken of the arrays the region found. -/
theorem region1_h (c : Dev nD) (n : Fin 50000) (j : Fin 128) :
    ((dat1 (F := Ideal) V c).arrAt 12 cfg1.N : S50000x128.Idx → EReal) (ix2 n j)
      = combine (rd2 (V c main_v62_0 : S50000x128.Idx → EReal) n j) (rd2 (V c main_arg3 : S50000x128.Idx → EReal) n j)
          (pre (rd2 (V c main_arg0 : S50000x128.Idx → EReal)) (rd2 (V c main_v42 : S50000x128.Idx → EReal))
            (rd2 (V c main_v62_1 : S50000x128.Idx → EReal)) (rd2 (V c main_v75 : S50000x128.Idx → EReal))
            (rd2 (V c main_v77 : S128x128.Idx → EReal)) (rd2 (V c main_v79 : S128x128.Idx → EReal)) (rd1 (V c main_v81 : S128.Idx → EReal))
            (rd2 (V c main_v83 : S128x128.Idx → EReal)) (rd2 (V c main_v85 : S128x128.Idx → EReal)) (rd1 (V c main_v87 : S128.Idx → EReal)) n j) := by
  rw [(dat1 V c).arrAt_eq_of_cover 12 (Harr V c) (fun t _ => flushed1_12 V c t) cover1_12_arr]
  rfl

end Cert.KernelIdeal.RegionValue

end
-- ==== Proof.Bridge1.lean ====
/-
  The second gate kernel against the reference. It finds the input and its propagated copy as before, the reset
  product as the first kernel left it (the reference's `H·R`), that product's propagated copy (the same gather, scale
  and scatter-add applied to the same array, so the reference's), the old state, the update gate (the reference's `Z`)
  and the third slab of each stacked weight. So gate 2's pre-activation is the same number on both sides and the new
  state `Z·H + (1 − Z)·tanh(pre₂)` the kernel leaves is the reference's, entry by entry and hence as arrays.
-/
import proofs.«138199_j35132832481406_2_alg».proof.Proof.Bridge0
import proofs.«138199_j35132832481406_2_alg».proof.Proof.Region1

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.Spec
open Cert.KernelIdeal.RegionValue Cert.KernelIdeal.HostRead Cert.KernelIdeal.Layout
open Cert.ReferenceIdeal.ReadP Cert.ReferenceIdeal.RefValue

variable (m : (ℓ : Loc nD τ sig) → Buf (Elt Ideal) ℓ) (ρ : Dev nD → PrngReg) (c : Dev nD)

/-- The propagated reset product the second kernel finds is the reference's: the same chain on the same array. -/
theorem pHR_eq : W5 m ρ c (Proc.devRef .tc main_v75) = val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after (hostOps1 (F := Ideal)) (W4 m ρ c) (Proc.devRef .tc main_v75) = _
  after_results_simp
  rw [HR_eq m ρ c, W4_v1, W3_v1, W4_v3, W3_v3, W4_v29, W3_v29]
  rfl

/-- Gate 2's pre-activation over what the second gate kernel finds is the reference's. -/
theorem pre_gate2 (n : Fin 50000) (j : Fin 128) :
    pre (rd2 (V5 m ρ c main_arg0 : S50000x128.Idx → EReal)) (rd2 (V5 m ρ c main_v42 : S50000x128.Idx → EReal))
        (rd2 (V5 m ρ c main_v62_1 : S50000x128.Idx → EReal)) (rd2 (V5 m ρ c main_v75 : S50000x128.Idx → EReal))
        (rd2 (V5 m ρ c main_v77 : S128x128.Idx → EReal)) (rd2 (V5 m ρ c main_v79 : S128x128.Idx → EReal)) (rd1 (V5 m ρ c main_v81 : S128.Idx → EReal))
        (rd2 (V5 m ρ c main_v83 : S128x128.Idx → EReal)) (rd2 (V5 m ρ c main_v85 : S128x128.Idx → EReal)) (rd1 (V5 m ρ c main_v87 : S128.Idx → EReal)) n j
      = pre (rd2 (m ((c.tc : Thread nD τ).loc main_arg0))) (rd2 (val_main_v42 (F := Ideal) (m ((c.tc : Thread nD τ).loc main_arg0)) (m ((c.tc : Thread nD τ).loc main_arg1))))
          (rd2 (val_main_v118 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) (rd2 (val_main_v143 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))
          (rd3 (m ((c.tc : Thread nD τ).loc main_arg4)) 2) (rd3 (m ((c.tc : Thread nD τ).loc main_arg5)) 2) (rdRow (m ((c.tc : Thread nD τ).loc main_arg6)) 2) (rd3 (m ((c.tc : Thread nD τ).loc main_arg7)) 2) (rd3 (m ((c.tc : Thread nD τ).loc main_arg8)) 2) (rdRow (m ((c.tc : Thread nD τ).loc main_arg9)) 2) n j := by
  show pre (rd2 (W5 m ρ c (Proc.devRef .tc main_arg0))) (rd2 (W5 m ρ c (Proc.devRef .tc main_v42)))
      (rd2 (W5 m ρ c (Proc.devRef .tc main_v62_1))) (rd2 (W5 m ρ c (Proc.devRef .tc main_v75)))
      (rd2 (W5 m ρ c (Proc.devRef .tc main_v77))) (rd2 (W5 m ρ c (Proc.devRef .tc main_v79))) (rd1 (W5 m ρ c (Proc.devRef .tc main_v81)))
      (rd2 (W5 m ρ c (Proc.devRef .tc main_v83))) (rd2 (W5 m ρ c (Proc.devRef .tc main_v85))) (rd1 (W5 m ρ c (Proc.devRef .tc main_v87))) n j = _
  rw [W5_arg0, W5_v42, W5_v62_1, HR_eq m ρ c, pHR_eq, W5_v77, W5_v79, W5_v81, W5_v83, W5_v85, W5_v87,
    slab_third, slab_third, slab_third, slab_third, row_third, row_third]

/-- The new state the second kernel leaves is the reference's. -/
theorem h_eq : (W6 m ρ c (Proc.devRef .tc main_v88) : S50000x128.Idx → EReal)
    = val_main_v162 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  obtain ⟨n, j, rfl⟩ : ∃ (n : Fin 50000) (j : Fin 128), i = ix2 n j := ⟨i 0, i 1, eq_ix2 i⟩
  refine (congrFun (W6_arr m ρ c 12) (ix2 n j)).trans ?_
  refine (region1_h (V5 m ρ) c n j).trans ?_
  rw [ref_h]
  refine congr (congr (congrArg combine ?_) ?_) (pre_gate2 m ρ c n j)
  · show rd2 (W5 m ρ c (Proc.devRef .tc main_v62_0)) n j = _
    rw [W5_v62_0, Z_eq m ρ c]
    rfl
  · show rd2 (W5 m ρ c (Proc.devRef .tc main_arg3)) n j = _
    rw [W5_arg3]

end Cert.KernelIdeal.Bridge

end
-- ==== Proof.Region2.lean ====
/-
  The link-score region, read as mathematics. For any contents of the four arrays the region reads — the two
  endpoints' state rows `[200000, 128]`, the weight row `[1, 128]` and the bias `[1, 1]` — the score array
  `[200000, 1]` holds, after the region, at pair `e`

      (∑ k, max (hs e k) 0 * max (hd e k) 0 * w k) + b.

  First the body's arithmetic at one entry of its `[5000, 1]` output block (`r2_pay_apply`): the pointwise
  operations read through, the row broadcast and the one-entry broadcast read at their source entry, the sum over
  the lane axis as a `Fin 128`-indexed sum, the cast of the summed vector to a column. Then from blocks to the
  array: each window's block at point `t` as entries of its array (`r2_iblk0_apply` … `r2_iblk3_apply`: rows
  `5000 t …` of the pair arrays, the whole weight row and bias), what point `t` writes back as block `t` of one
  function `r2_G` of the arrays (`r2_flushed_eq`), the 40 blocks covering the array (`r2_cover`), hence the
  array itself (`r2_final`, `region2_score`).
-/
import proofs.«138199_j35132832481406_2_alg».proof.Proof.Spec
import proofs.«138199_j35132832481406_2_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## Layout operations at an entry, and the lane sum -/

/-- A vector cast to a one-column matrix reads, at `(i, u)`, the vector at `i`. -/
theorem r2_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry matrix broadcast down a column reads its one entry everywhere. -/
theorem r2_broadcastTo_11_a1_apply {α : Type} {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The reduced row index with column `k` put back is `(r, k)`. -/
theorem r2_lift_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A lane sum from the zero accumulator, at the ideal values, at row `r`: the sum over the columns. -/
theorem r2_laneSum_apply (src : FVec Ideal S5000x128 .f32) (h : S5000x128.Reduces [1] S5000) (hφ : FKind.Formats .f32)
    (hacc : (0x00000000#32 : BitVec 32) = 0x00000000#32) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  exact Finset.sum_congr rfl fun k _ => congrArg src (r2_lift_ix2 h r k)

/-! ## The body's arithmetic at an entry -/

theorem r2_hz : (![0, 0] : Fin 2 → Nat) = fun _ => 0 := funext fun a => by fin_cases a <;> rfl

set_option maxHeartbeats 400000 in
/-- The body's value at row `r` of its one output column: the two rectified blocks' product, weighted by the
    row of weights, summed over the 128 columns, plus the one bias. -/
theorem r2_pay_apply (x0 x1 : Vec Ideal S5000x128 .f32) (x2 : Vec Ideal S1x128 .f32) (x3 : Vec Ideal S1x1 .f32)
    (r : Fin 5000) (u : Fin 1) :
    (k2_pay1 (F := Ideal) x0 x1 x2 x3 : S5000x1.Idx → EReal) (ix2 r u)
      = (∑ k : Fin 128, (max (x0 (ix2 r k)) (Ideal.ofBits .f32 0x00000000#32) * max (x1 (ix2 r k)) (Ideal.ofBits .f32 0x00000000#32))
            * x2 (ix2 (0 : Fin 1) k))
          + x3 (ix2 (0 : Fin 1) (0 : Fin 1)) := by
  unfold k2_pay1
  simp only [shapeCast_self]
  rw [addf_apply, r2_shapeCast_a_a1_apply, r2_broadcastTo_11_a1_apply, r2_laneSum_apply]
  refine congrArg (· + x3 (ix2 (0 : Fin 1) (0 : Fin 1))) (Finset.sum_congr rfl fun k _ => ?_)
  rw [mulf_apply, mulf_apply, maximumf_apply, maximumf_apply, broadcastTo_1b_ab_apply]
  rfl

/-! ## The windows' blocks as entries of their arrays -/

variable (V : (c : Dev nD) → (b : Ref sig .tc) → Buf (Elt Ideal) ((c : Thread nD τ).loc b))

/-- Which block each window takes at each of the 40 points: the two pair windows and the output window take row
    block `t` at point `t`; the weight row and the bias take their whole array at every point. -/
theorem r2_idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0) :=
  (by decide +kernel : ∀ t : Fin grid2.N, _)

/-- The first endpoints' block at point `t` is rows `5000 t … 5000 t + 4999` of their array. -/
theorem r2_iblk0_apply (c : Dev nD) (t : Fin cfg2.N) (x : S5000x128.Idx) (k : S200000x128.Idx)
    (hk0 : (k 0).val = 5000 * t.val + (x 0).val) (hk1 : (k 1).val = (x 1).val) :
    (iblk2 (F := Ideal) V c 0 t : Vec Ideal S5000x128 .f32) x = (V c main_v97 : S200000x128.Idx → EReal) k := by
  obtain ⟨⟨e0, e1⟩, -⟩ := r2_idx_facts t
  unfold iblk2
  rw [View.read_apply]
  show V c main_v97 _ = V c main_v97 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The second endpoints' block at point `t` is rows `5000 t … 5000 t + 4999` of their array. -/
theorem r2_iblk1_apply (c : Dev nD) (t : Fin cfg2.N) (x : S5000x128.Idx) (k : S200000x128.Idx)
    (hk0 : (k 0).val = 5000 * t.val + (x 0).val) (hk1 : (k 1).val = (x 1).val) :
    (iblk2 (F := Ideal) V c 1 t : Vec Ideal S5000x128 .f32) x = (V c main_v106 : S200000x128.Idx → EReal) k := by
  obtain ⟨-, ⟨e0, e1⟩, -⟩ := r2_idx_facts t
  unfold iblk2
  rw [View.read_apply]
  show V c main_v106 _ = V c main_v106 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The weight row's block is the whole row at every point. -/
theorem r2_iblk2_apply (c : Dev nD) (t : Fin cfg2.N) (x : S1x128.Idx) :
    (iblk2 (F := Ideal) V c 2 t : Vec Ideal S1x128 .f32) x = (V c main_v109 : S1x128.Idx → EReal) x := by
  obtain ⟨-, -, ⟨e0, e1⟩, -⟩ := r2_idx_facts t
  unfold iblk2
  rw [View.read_apply]
  show V c main_v109 _ = V c main_v109 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- The bias's block is its one entry at every point. -/
theorem r2_iblk3_apply (c : Dev nD) (t : Fin cfg2.N) (x : S1x1.Idx) :
    (iblk2 (F := Ideal) V c 3 t : Vec Ideal S1x1 .f32) x = (V c main_v110 : S1x1.Idx → EReal) x := by
  obtain ⟨-, -, -, ⟨e0, e1⟩, -⟩ := r2_idx_facts t
  unfold iblk2
  rw [View.read_apply]
  show V c main_v110 _ = V c main_v110 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 1 + 1 * (x 1).val = (x 1).val; rw [e1]; omega

/-! ## From one entry to the score, and from blocks to the array -/

/-- One entry of the body's output from the entries of the arrays its blocks are cut from: when row `y 0` of the
    two pair blocks is row `e` of the pair arrays, and the weight row and bias blocks are the arrays themselves,
    the body's value there is the score of pair `e`. -/
theorem r2_point (x0 x1 : Vec Ideal S5000x128 .f32) (x2 : Vec Ideal S1x128 .f32) (x3 : Vec Ideal S1x1 .f32)
    (A0 A1 : S200000x128.Idx → EReal) (W : S1x128.Idx → EReal) (B : S1x1.Idx → EReal)
    (y : S5000x1.Idx) (e : Fin 200000)
    (h0 : ∀ k : Fin 128, x0 (ix2 (⟨(y 0).val, idx2_lt0 y⟩ : Fin 5000) k) = A0 (ix2 e k))
    (h1 : ∀ k : Fin 128, x1 (ix2 (⟨(y 0).val, idx2_lt0 y⟩ : Fin 5000) k) = A1 (ix2 e k))
    (h2 : ∀ k : Fin 128, x2 (ix2 (0 : Fin 1) k) = W (ix2 (0 : Fin 1) k))
    (h3 : x3 (ix2 (0 : Fin 1) (0 : Fin 1)) = B (ix2 (0 : Fin 1) (0 : Fin 1))) :
    (k2_pay1 (F := Ideal) x0 x1 x2 x3 : S5000x1.Idx → EReal) y
      = score (fun e k => relu (rd2 A0 e k) * relu (rd2 A1 e k)) (rdRow W 0) (B (ix2 (0 : Fin 1) (0 : Fin 1))) e := by
  have hy : y = ix2 (⟨(y 0).val, idx2_lt0 y⟩ : Fin 5000) (⟨(y 1).val, idx2_lt1 y⟩ : Fin 1) := by
    funext a; match a with | ⟨0, _⟩ => rfl | ⟨1, _⟩ => rfl
  refine (congrArg (k2_pay1 (F := Ideal) x0 x1 x2 x3) hy).trans ((r2_pay_apply x0 x1 x2 x3 _ _).trans ?_)
  unfold score relu rd2 rdRow
  rw [h3]
  refine congrArg (· + B (ix2 (0 : Fin 1) (0 : Fin 1))) (Finset.sum_congr rfl fun k _ => ?_)
  rw [h0 k, h1 k, h2 k]

/-- The link scores as one function of the region's four input arrays, pair by pair. -/
def r2_G (c : Dev nD) : S200000x1.Idx → EReal := fun i =>
  score (fun e k => relu (rd2 (V c main_v97 : S200000x128.Idx → EReal) e k) * relu (rd2 (V c main_v106 : S200000x128.Idx → EReal) e k))
    (rdRow (V c main_v109 : S1x128.Idx → EReal) 0) ((V c main_v110 : S1x1.Idx → EReal) (ix2 (0 : Fin 1) (0 : Fin 1)))
    (⟨(i 0).val, idx2_lt0 i⟩ : Fin 200000)

set_option maxHeartbeats 400000 in
/-- The 5000 values point `t` returns to the score array are `r2_G` at pairs `5000 t … 5000 t + 4999`: entry `y` of
    the body's output is computed from row `y` of the two pair blocks, which is row `5000 t + y` of the pair arrays,
    and from the weight row and the bias, which are the same at every point (`r2_point`). -/
theorem r2_flushed_eq (c : Dev nD) (t : Fin cfg2.N) :
    (dat2 (F := Ideal) V c).flushed 4 t = ((cfg2.win 4).blk t).view.read (Elt Ideal) (r2_G V c) := by
  show (cfg2.win 4).cut (grid2.coords t) ((dat2 (F := Ideal) V c).after 4 t) = _
  rw [after2_4]
  unfold out2_4
  rw [View.canon_unit_zero r2_hz]
  simp only [View.ld_unit_zero (S := S5000x128) r2_hz, View.ld_unit_zero (S := S1x128) r2_hz, View.ld_unit_zero (S := S1x1) r2_hz]
  obtain ⟨-, -, -, -, ⟨e0, e1⟩⟩ := r2_idx_facts t
  funext j
  rw [View.read_apply]
  unfold r2_G
  refine r2_point _ _ _ _ (V c main_v97) (V c main_v106) (V c main_v109) (V c main_v110) _ _ (fun k => ?_) (fun k => ?_) (fun k => ?_) ?_
  · refine r2_iblk0_apply V c t _ _ ?_ rfl
    show win2_4.index t (0 : Fin 2) * 5000 + 1 * (j 0).val = 5000 * t.val + (j 0).val
    rw [e0]; omega
  · refine r2_iblk1_apply V c t _ _ ?_ rfl
    show win2_4.index t (0 : Fin 2) * 5000 + 1 * (j 0).val = 5000 * t.val + (j 0).val
    rw [e0]; omega
  · exact r2_iblk2_apply V c t _
  · exact r2_iblk3_apply V c t _

/-- Point `t`'s block of the score array, by coordinates: a pair's index lies in it exactly when its row is one of
    the block's 5000 rows and its column the one column. -/
theorem r2_mem_blk (t : Fin cfg2.N) (i : S200000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v111).slice (win2_4.rect t)).set ↔ _
  rw [View.set_slice_whole, Rect.mem_set_unit]
  exact Iff.rfl

/-- Every pair is in some point's block: pair `e` in block `e / 5000`. -/
theorem r2_cover (i : S200000x1.Idx) :
    ∃ t : Fin cfg2.N, (cfg2.win 4).flush t = true ∧ i ∈ ((cfg2.win 4).blk t).view.set := by
  have hi0 : (i 0).val < 200000 := idx2_lt0 i
  have hi1 : (i 1).val < 1 := idx2_lt1 i
  have hN : cfg2.N = 40 := N_2
  let t : Fin cfg2.N := ⟨(i 0).val / 5000, by rw [hN]; omega⟩
  obtain ⟨-, -, -, -, ⟨e0, e1⟩⟩ := r2_idx_facts t
  have ht : t.val = (i 0).val / 5000 := rfl
  refine ⟨t, flush2_4 t, ?_⟩
  rw [r2_mem_blk]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 1 ≤ (i 1).val ∧ (i 1).val < win2_4.index t (1 : Fin 2) * 1 + 1; rw [e1]; omega

/-- After the region the score array holds the scores. -/
theorem r2_final (c : Dev nD) : (dat2 (F := Ideal) V c).arrAt 4 cfg2.N = r2_G V c :=
  (dat2 (F := Ideal) V c).arrAt_eq_of_cover 4 (r2_G V c) (fun t _ => r2_flushed_eq V c t) r2_cover

/-- The region's value: after the region, entry `e` of the score array is the score of pair `e` — the sum over the
    128 columns of the product of the two endpoints' rectified states, weighted by the row of weights, plus the bias —
    as a function of the four arrays the region reads, whatever they hold. -/
theorem region2_score (c : Dev nD) (e : Fin 200000) :
    ((dat2 (F := Ideal) V c).arrAt 4 cfg2.N : S200000x1.Idx → EReal) (ix2 e (0 : Fin 1))
      = score (fun e k => relu (rd2 (V c main_v97 : S200000x128.Idx → EReal) e k) * relu (rd2 (V c main_v106 : S200000x128.Idx → EReal) e k))
          (rdRow (V c main_v109 : S1x128.Idx → EReal) 0) ((V c main_v110 : S1x1.Idx → EReal) (ix2 (0 : Fin 1) (0 : Fin 1))) e := by
  rw [r2_final V c]
  rfl

end Cert.KernelIdeal.RegionValue

end
-- ==== Proof.ScoreOperands.lean ====
/-
  The score region's two small operands, read back to the launch arrays. The stretch of host operations before the
  region computes them from two of the program's arguments: the weight row `[1, 128]` is the host sum of the projection `[128, 2]`
  over its two columns, from the word `0.0`, reshaped to a row; the bias `[1, 1]` is the host sum of the
  projection's bias `[2]`, from `0.0`, reshaped. Neither argument is an array of a gate region or is written by a
  host operation, so at the second gate region's exit each is as launched (`W6_arg10`, `W6_arg11`; `W6_arg2` for
  the pairs' endpoint indices). At the ideal values a host sum is the initial value plus the `Fin`-indexed sum, so
  the weight row at column `k` is `0.0 + ∑ j, pw k j` (`score_weights`) and the bias `0.0 + ∑ j, pb j`
  (`score_bias`): the specification's `wsum` and `bsum`.
-/
import proofs.«138199_j35132832481406_2_alg».proof.Proof.Spec
import proofs.«138199_j35132832481406_2_alg».proof.Proof.Gen.KernelIdeal.Frame
import Idealize.ShloMosaic.Lib.StableHlo.Run
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.ScoreOperands

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg) (c : Dev nD)

/-! ## The three arguments at the second gate region's exit -/

/-- Closes "no operation of the stretch writes this buffer": the stretch's list opened, each operation's written
    buffer compared with the buffer by deciding the two references apart. -/
local macro "so_unwritten" ops:ident : tactic =>
  `(tactic| (simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The projection `[128, 2]` is an array of neither gate region and no host operation before the score region's
    stretch writes it: at the second gate region's exit it is as launched. -/
theorem W6_arg10 : W6 m ρ c (Proc.devRef .tc main_arg10) = m ((c.tc : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by so_unwritten hostOps1))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by so_unwritten hostOps0_2))
    _ = W1 m ρ c (Proc.devRef .tc main_arg10) := StableHlo.after_of_forall_not_mem (b := Proc.devRef .tc main_arg10) _ _ (List.forall_iff_forall_mem.mp (by so_unwritten hostOps0_1))
    _ = W0 m ρ c (Proc.devRef .tc main_arg10) := StableHlo.after_of_forall_not_mem (b := Proc.devRef .tc main_arg10) _ _ (List.forall_iff_forall_mem.mp (by so_unwritten hostOps0))
    _ = m ((c.tc : Thread nD τ).loc main_arg10) := rfl

/-- The projection's bias `[2]`, likewise. -/
theorem W6_arg11 : W6 m ρ c (Proc.devRef .tc main_arg11) = m ((c.tc : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by so_unwritten hostOps1))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by so_unwritten hostOps0_2))
    _ = W1 m ρ c (Proc.devRef .tc main_arg11) := StableHlo.after_of_forall_not_mem (b := Proc.devRef .tc main_arg11) _ _ (List.forall_iff_forall_mem.mp (by so_unwritten hostOps0_1))
    _ = W0 m ρ c (Proc.devRef .tc main_arg11) := StableHlo.after_of_forall_not_mem (b := Proc.devRef .tc main_arg11) _ _ (List.forall_iff_forall_mem.mp (by so_unwritten hostOps0))
    _ = m ((c.tc : Thread nD τ).loc main_arg11) := rfl

/-- The pairs' endpoint indices `[2, 200000]`, likewise. -/
theorem W6_arg2 : W6 m ρ c (Proc.devRef .tc main_arg2) = m ((c.tc : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by so_unwritten hostOps1))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by so_unwritten hostOps0_2))
    _ = W1 m ρ c (Proc.devRef .tc main_arg2) := StableHlo.after_of_forall_not_mem (b := Proc.devRef .tc main_arg2) _ _ (List.forall_iff_forall_mem.mp (by so_unwritten hostOps0_1))
    _ = W0 m ρ c (Proc.devRef .tc main_arg2) := StableHlo.after_of_forall_not_mem (b := Proc.devRef .tc main_arg2) _ _ (List.forall_iff_forall_mem.mp (by so_unwritten hostOps0))
    _ = m ((c.tc : Thread nD τ).loc main_arg2) := rfl

/-! ## Host sums and reshapes at an entry -/

/-- The scalar shape has one index. -/
instance so_scalarIdx_subsingleton : Subsingleton (⟨0, ![]⟩ : Shape).Idx := ⟨fun a b => funext fun d => d.elim0⟩

/-- A reduced row index of a matrix with column `j` put back is `(k, j)`. -/
theorem so_lift_row {a b : Nat} (h : (⟨2, ![a, b]⟩ : Shape).Reduces [1] (⟨1, ![a]⟩ : Shape)) (k : Fin a)
    (j : Fin ((⟨2, ![a, b]⟩ : Shape).size 1)) : h.lift (ix1 k) j = ix2 k (⟨j.val, j.isLt⟩ : Fin b) := by
  funext d; apply Fin.ext
  fin_cases d <;> rfl

/-- A sum over a vector's indices is the sum over its one coordinate. -/
theorem so_sum_idx1 {a : Nat} (f : (⟨1, ![a]⟩ : Shape).Idx → EReal) : ∑ i, f i = ∑ j : Fin a, f (ix1 j) :=
  Fintype.sum_equiv ⟨fun i => (i 0 : Fin a), fun j => ix1 j, fun i => (eq_ix1 i).symm, fun _ => rfl⟩ _ _
    fun i => congrArg f (eq_ix1 i)

/-- A host sum of a matrix over its columns from the word `0.0`, at the ideal values, at row `k`. -/
theorem so_rowSum_apply {a b : Nat} (A : FVec Ideal (⟨2, ![a, b]⟩ : Shape) .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (k : Fin a) :
    Host.reduceAdd (F := Ideal) A (constant (F := Ideal) (⟨0, ![]⟩ : Shape) .f32 0x00000000#32) h' hu (ix1 k)
      = zero + ∑ j : Fin b, A (ix2 k j) := by
  show Ideal.hostReduceAdd h' A (Ideal.ofBits .f32 0x00000000#32) (ix1 k) = _
  rw [Ideal.hostReduceAdd_single h' h]
  exact congrArg (zero + ·) (Finset.sum_congr rfl fun j _ => congrArg A (so_lift_row h k j))

/-- A host sum of a vector over its one axis from the word `0.0`, at the ideal values. -/
theorem so_vecSum_apply {a : Nat} (B : FVec Ideal (⟨1, ![a]⟩ : Shape) .f32)
    (h' : (⟨1, ![a]⟩ : Shape).ReducesTo [0] (⟨0, ![]⟩ : Shape))
    (hu : 0 < (⟨0, ![]⟩ : Shape).numel) (i0 : (⟨0, ![]⟩ : Shape).Idx) :
    Host.reduceAdd (F := Ideal) B (constant (F := Ideal) (⟨0, ![]⟩ : Shape) .f32 0x00000000#32) h' hu i0
      = zero + ∑ j : Fin a, B (ix1 j) := by
  show Ideal.hostReduceAdd h' B (Ideal.ofBits .f32 0x00000000#32) i0 = _
  rw [Ideal.hostReduceAdd_total h' (fun b => b.elim0), so_sum_idx1]

/-- A scalar cast to a one-entry matrix reads the scalar. -/
theorem so_shapeCast_scalar_11 {α : Type} (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 := by
  unfold shapeCast
  exact congrArg x (Subsingleton.elim _ _)

/-! ## The two operands -/

set_option maxHeartbeats 400000 in
/-- The score region's weight row is the projection's row sums: the host sum over the two columns from `0.0`,
    reshaped to a row. -/
theorem score_weights :
    rdRow (V7 m ρ c main_v109 : S1x128.Idx → EReal) 0
      = wsum (rd2 (m ((c.tc : Thread nD τ).loc main_arg10) : S128x2.Idx → EReal)) := by
  funext k
  unfold rdRow wsum rd2
  show StableHlo.after hostOps2 (W6 m ρ c) (Proc.devRef .tc main_v109) (ix2 (0 : Fin 1) k) = _
  after_results_simp
  rw [W6_arg10]
  show shapeCast S1x128 (Host.reduceAdd (F := Ideal) (m ((c.tc : Thread nD τ).loc main_arg10) : FVec Ideal S128x2 .f32)
      (constant (F := Ideal) S_ .f32 0x00000000#32) reducesTo_S128x2_S128_d1 h_S_) shapeCasts_S128_S1x128 (ix2 (0 : Fin 1) k) = _
  rw [shapeCast_a_1a_apply, so_rowSum_apply _ _ (by decide)]

set_option maxHeartbeats 400000 in
/-- The score region's bias is the sum of the projection's two biases: the host sum from `0.0`, reshaped to `[1, 1]`. -/
theorem score_bias :
    (V7 m ρ c main_v110 : S1x1.Idx → EReal) (ix2 (0 : Fin 1) (0 : Fin 1))
      = bsum (rd1 (m ((c.tc : Thread nD τ).loc main_arg11) : S2.Idx → EReal)) := by
  unfold bsum rd1
  show StableHlo.after hostOps2 (W6 m ρ c) (Proc.devRef .tc main_v110) (ix2 (0 : Fin 1) (0 : Fin 1)) = _
  after_results_simp
  rw [W6_arg11]
  show shapeCast S1x1 (Host.reduceAdd (F := Ideal) (m ((c.tc : Thread nD τ).loc main_arg11) : FVec Ideal S2 .f32)
      (constant (F := Ideal) S_ .f32 0x00000000#32) reducesTo_S2_S_d0 h_S_) shapeCasts_S_S1x1 (ix2 (0 : Fin 1) (0 : Fin 1)) = _
  rw [so_shapeCast_scalar_11, so_vecSum_apply]

end Cert.KernelIdeal.ScoreOperands

end
-- ==== Proof.ScoreLaw.lean ====
/-
  The one algebraic law that joins the two programs, and the finiteness it needs.

  The kernel scores a pair by `∑ₖ Pₖ·(wₖ₀ + wₖ₁) + (b₀ + b₁)`, the reference by
  `(∑ₖ Pₖ·wₖ₀ + b₀) + (∑ₖ Pₖ·wₖ₁ + b₁)`. These agree by distributivity, which on the extended reals holds
  when every factor is a real number (at `P = +∞`, `w₀ = 1`, `w₁ = −1` the first is `0` and the second `⊥`).
  The factors ARE real: the projection and its bias by the precondition, and `Pₖ` because it is a product of two
  rectified entries of the new state `z·h + (1 − z)·tanh u`, where `z` is a logistic value, hence real for every
  extended-real argument (`0` at `⊥`, `1` at `⊤`), `tanh u` likewise (`∓1` at the infinities) and the old state
  `h` is an input.
-/
import proofs.«138199_j35132832481406_2_alg».proof.Proof.Spec

noncomputable section

namespace Cert.Spec

open Idealize.ShloMosaic

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distributivity over real factors: the kernel's score is the reference's. -/
theorem score_eq_scoreRef {E : Nat} (P : Fin E → Fin 128 → EReal) (pw : Fin 128 → Fin 2 → EReal) (pb : Fin 2 → EReal)
    (e : Fin E) (hP : ∀ k, ∃ r : ℝ, P e k = (r : EReal)) (hw : ∀ k j, ∃ r : ℝ, pw k j = (r : EReal))
    (hb : ∀ j, ∃ r : ℝ, pb j = (r : EReal)) :
    score P (wsum pw) (bsum pb) e = scoreRef P pw pb e := by
  choose p hp using hP
  choose w hw using hw
  choose b hb using hb
  unfold score scoreRef wsum bsum
  rw [zero_eq]
  simp only [hp, hw, hb, zero_add, Fin.sum_univ_two]
  simp only [← EReal.coe_mul, ← EReal.coe_add, ← coe_finset_sum]
  refine congrArg _ ?_
  simp only [mul_add, Finset.sum_add_distrib]
  ring

/-- A logistic value is a real number, whatever the argument. -/
theorem logistic_real (u : EReal) : ∃ r : ℝ, Ideal.logistic u = (r : EReal) := by
  induction u using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- A hyperbolic tangent is a real number, whatever the argument. -/
theorem tanh_real (u : EReal) : ∃ r : ℝ, Ideal.tanh u = (r : EReal) := by
  induction u using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The new state is real when the update gate and the old state are. -/
theorem combine_real (z h u : EReal) (hz : ∃ r : ℝ, z = (r : EReal)) (hh : ∃ r : ℝ, h = (r : EReal)) :
    ∃ r : ℝ, combine z h u = (r : EReal) := by
  obtain ⟨a, rfl⟩ := hz
  obtain ⟨b, rfl⟩ := hh
  obtain ⟨t, ht⟩ := tanh_real u
  refine ⟨a * b + (1 - a) * t, ?_⟩
  unfold combine
  rw [ht, one_eq]
  norm_cast

/-- Rectifying a real gives a real. -/
theorem relu_real (v : EReal) (hv : ∃ r : ℝ, v = (r : EReal)) : ∃ r : ℝ, relu v = (r : EReal) := by
  obtain ⟨a, rfl⟩ := hv
  refine ⟨max a 0, ?_⟩
  unfold relu
  rw [zero_eq, ← EReal.coe_zero]
  rcases le_total a 0 with h | h
  · rw [max_eq_right h, max_eq_right (EReal.coe_le_coe_iff.mpr h)]
  · rw [max_eq_left h, max_eq_left (EReal.coe_le_coe_iff.mpr h)]

/-- A product of two reals is a real. -/
theorem mul_real (a b : EReal) (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

end Cert.Spec

end
-- ==== Proof.RefReal.lean ====
/-
  The reference's score factors are real numbers. The new state `z·h + (1 − z)·tanh u` is real wherever the old
  state `h` is: the update gate `z` is a logistic value and `tanh u` a hyperbolic tangent, both real for every
  extended-real argument. Rectifying keeps it real. The two gathered row arrays read rows of the rectified new state,
  so each of their entries is one of its entries — which one depends on the pair's index and is never computed —
  and the product of two such entries is real. This is what distributivity on the extended reals asks of the
  score's factors.
-/
import proofs.«138199_j35132832481406_2_alg».proof.Proof.RefRead
import proofs.«138199_j35132832481406_2_alg».proof.Proof.ScoreLaw

noncomputable section

namespace Cert.ReferenceIdeal.RefValue

open Idealize.ShloMosaic Idealize.ShloMosaic.ValueIdx Cert.ReferenceIdeal Cert.ReferenceIdeal.ReadP Cert.Spec

variable (x0 : (⟨S50000x128, .f32⟩ : BufTy).Contents (Elt Ideal)) (x1 : (⟨S2x800000, .i32⟩ : BufTy).Contents (Elt Ideal)) (x2 : (⟨S2x200000, .i32⟩ : BufTy).Contents (Elt Ideal))
  (x3 : (⟨S50000x128, .f32⟩ : BufTy).Contents (Elt Ideal)) (x4 x5 : (⟨S3x128x128, .f32⟩ : BufTy).Contents (Elt Ideal)) (x6 : (⟨S3x128, .f32⟩ : BufTy).Contents (Elt Ideal))
  (x7 x8 : (⟨S3x128x128, .f32⟩ : BufTy).Contents (Elt Ideal)) (x9 : (⟨S3x128, .f32⟩ : BufTy).Contents (Elt Ideal))

/-- The new state is real at every entry when the old state is: it is `z·h + (1 − z)·tanh u` with `z` a logistic
    value, `h` an entry of the old state and `tanh u` real for every `u`. -/
theorem real_h (hH : ∀ i : S50000x128.Idx, ∃ r : ℝ, x3 i = (r : EReal)) (i : S50000x128.Idx) :
    ∃ r : ℝ, val_main_v162 (F := Ideal) x0 x1 x3 x4 x5 x6 x7 x8 x9 i = (r : EReal) := by
  obtain ⟨n, j, rfl⟩ : ∃ (n : Fin 50000) (j : Fin 128), i = ix2 n j := ⟨i 0, i 1, eq_ix2 i⟩
  rw [ref_h, ref_Z]
  exact combine_real _ _ _ (logistic_real _) (hH (ix2 n j))

/-- So is the rectified new state: the maximum with the splat of the word `0.0` is `relu`. -/
theorem real_relu_h (hH : ∀ i : S50000x128.Idx, ∃ r : ℝ, x3 i = (r : EReal)) (i : S50000x128.Idx) :
    ∃ r : ℝ, val_main_v163 (F := Ideal) x0 x1 x3 x4 x5 x6 x7 x8 x9 i = (r : EReal) := by
  rw [val_main_v163_apply]
  exact relu_real _ (real_h x0 x1 x3 x4 x5 x6 x7 x8 x9 hH i)

/-- Every factor of a pair's score is real: an entry of a gathered row array is an entry of the rectified new
    state, whichever row the pair's index selects, and a product of two reals is real. -/
theorem real_prod (hH : ∀ i : S50000x128.Idx, ∃ r : ℝ, x3 i = (r : EReal)) (e : Fin 200000) (k : Fin 128) :
    ∃ r : ℝ, rd2 (val_main_v172 (F := Ideal) x0 x1 x2 x3 x4 x5 x6 x7 x8 x9) e k
        * rd2 (val_main_v181 (F := Ideal) x0 x1 x2 x3 x4 x5 x6 x7 x8 x9) e k = (r : EReal) := by
  refine mul_real _ _ ?_ ?_
  · unfold rd2 val_main_v172 Host.gather
    exact real_relu_h x0 x1 x3 x4 x5 x6 x7 x8 x9 hH _
  · unfold rd2 val_main_v181 Host.gather
    exact real_relu_h x0 x1 x3 x4 x5 x6 x7 x8 x9 hH _

end Cert.ReferenceIdeal.RefValue

end
-- ==== Proof.FiniteInputs.lean ====
/-
  The precondition read back. It says, array by array, that the conjunction over all entries of
  "`|x|` compares below the word `0x7F800000`" is true: a reduce with `and` from `1` into the scalar shape, the
  twelve arrays' results conjoined. At the ideal values that word is `+∞` and `|x| = max x (−x)`, so an entry that
  passes is neither `+∞` nor `−∞` (the latter also stands for a NaN): it is a real. `real_inputs` splits the
  conjunction and reads this off for the three arrays the score law needs: the state, the projection and its bias.
-/
import proofs.«138199_j35132832481406_2_alg».proof.Defs
import proofs.«138199_j35132832481406_2_alg».proof.Proof.Gen.Pre_finite_inputs
import Idealize.ShloMosaic.Lib.ReduceAll
import Idealize.ShloMosaic.Lib.ValueIdx

noncomputable section

namespace Cert.KernelIdeal.Finite

open Idealize.ShloMosaic Idealize.ShloMosaic.TcCoe Idealize.ShloMosaic.ValueIdx Idealize.SL.Sem
open Cert.KernelIdeal

/-- The scalar shape has one index. -/
instance scalarIdx_subsingleton : Subsingleton (⟨0, ![]⟩ : Shape).Idx := ⟨fun a b => funext fun d => d.elim0⟩

/-- The word `0x7F800000` is `+∞`. -/
theorem top_word : Ideal.ofBits .f32 0x7F800000#32 = (⊤ : EReal) := by simp [Ideal.ofBits, Ideal.ieee]

/-- An extended real whose absolute value compares below `+∞` is a real. -/
theorem real_of_abs_lt_top (x : EReal)
    (h : Ideal.cmp .olt (max x (-x)) (Ideal.ofBits .f32 0x7F800000#32) = 1#1) : ∃ r : ℝ, x = (r : EReal) := by
  rw [top_word] at h
  unfold Ideal.cmp at h
  induction x using EReal.rec with
  | bot => simp at h
  | coe r => exact ⟨r, rfl⟩
  | top => simp at h

/-- An array all of whose entries pass "absolute value below `+∞`" — the conjunction taken by a reduce with `and`
    from `1` into the scalar shape — has only real entries. -/
theorem all_real {s : Shape} {axes : List (Fin s.rank)} (A : FVec Ideal s .f32)
    (dims : Fin (⟨0, ![]⟩ : Shape).rank → Fin s.rank) (hb : (⟨0, ![]⟩ : Shape).BroadcastsInDim s dims)
    (hr : s.ReducesTo axes ⟨0, ![]⟩) (hu : 0 < (⟨0, ![]⟩ : Shape).numel)
    (e : Host.reduce IntOp.andi
          (cmpf .olt (Host.absf A) (broadcastInDim s dims hb (constant (F := Ideal) ⟨0, ![]⟩ .f32 0x7F800000#32)))
          (constantI ⟨0, ![]⟩ 1 1#1) hr hu ix0 = 1#1)
    (i : s.Idx) : ∃ r : ℝ, A i = (r : EReal) :=
  real_of_abs_lt_top (A i) (Host.reduce_andi_all _ _ hr hu ix0 e i)

set_option maxHeartbeats 400000 in
/-- The precondition read back for the three arrays the score law needs: every entry of the state, of the projection
    and of its bias is a real number. -/
theorem real_inputs [Cert.Pre_finite_inputs.Facts] (m : (ℓ : Loc nD τ sig) → Buf (Elt Ideal) ℓ) (h : Cert.Pre_KernelIdeal m) (c : Dev nD) :
    (∀ i : S50000x128.Idx, ∃ r : ℝ, (m ((c.tc : Thread nD τ).loc main_arg3) : S50000x128.Idx → EReal) i = (r : EReal))
    ∧ (∀ i : S128x2.Idx, ∃ r : ℝ, (m ((c.tc : Thread nD τ).loc main_arg10) : S128x2.Idx → EReal) i = (r : EReal))
    ∧ (∀ i : S2.Idx, ∃ r : ℝ, (m ((c.tc : Thread nD τ).loc main_arg11) : S2.Idx → EReal) i = (r : EReal)) := by
  have e := congrFun (h c) ix0
  dsimp only [Cert.Pre_finite_inputs.fn, Cert.Pre_finite_inputs.fn_part1, Cert.Pre_finite_inputs.fn_part2] at e
  obtain ⟨e, h11⟩ := IntOp.andi_eq_one.1 e
  obtain ⟨e, h10⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨-, h3⟩ := IntOp.andi_eq_one.1 e
  exact ⟨fun i => all_real _ _ _ _ _ h3 i, fun i => all_real _ _ _ _ _ h10 i, fun i => all_real _ _ _ _ _ h11 i⟩

end Cert.KernelIdeal.Finite

end
-- ==== Proof.Bridge2.lean ====
/-
  The score kernel against the reference, and the two results.

  The score kernel's two row operands are rows of the new state gathered at the pairs' endpoints; the reference
  gathers the same rows of the RECTIFIED state. A gather only chooses which entry to read, so rectifying before or
  after it is the same entry by entry: the products of rectified endpoint entries agree. The kernel's weight row and
  bias are the projection's row sums and the bias's sum. So the kernel's score is `score P (wsum pw) (bsum pb)` and the
  reference's `scoreRef P pw pb` over the same products `P`, which are real numbers (the new state is
  `Z·H + (1 − Z)·tanh(·)` with `Z` a logistic value and `H` a finite input), as are the projection and its bias by the
  precondition: distributivity over real factors joins the two.
-/
import proofs.«138199_j35132832481406_2_alg».proof.Proof.Bridge1
import proofs.«138199_j35132832481406_2_alg».proof.Proof.Region2
import proofs.«138199_j35132832481406_2_alg».proof.Proof.ScoreOperands
import proofs.«138199_j35132832481406_2_alg».proof.Proof.ScoreLaw
import proofs.«138199_j35132832481406_2_alg».proof.Proof.RefReal
import proofs.«138199_j35132832481406_2_alg».proof.Proof.FiniteInputs

set_option maxRecDepth 16384

noncomputable section

namespace Cert.KernelIdeal.Bridge

open Idealize.ShloMosaic Idealize.ShloMosaic.TcCoe Idealize.ShloMosaic.ValueIdx Idealize.SL.Sem Idealize.ShloMosaic.StableHlo
open Cert.KernelIdeal Cert.KernelIdeal.Gen Cert.Spec
open Cert.KernelIdeal.RegionValue Cert.KernelIdeal.HostRead Cert.KernelIdeal.Layout Cert.KernelIdeal.ScoreOperands
open Cert.ReferenceIdeal.ReadP Cert.ReferenceIdeal.RefValue

variable (m : (ℓ : Loc nD τ sig) → Buf (Elt Ideal) ℓ) (ρ : Dev nD → PrngReg) (c : Dev nD)

/-- The first endpoints' rows the score kernel finds: the reference's new state gathered at the reference's indices. -/
theorem rows_src : W7 m ρ c (Proc.devRef .tc main_v97)
    = Host.gather gather_S50000x128_S200000x1_S200000x128_1_0_n_n_0_1_1128
        (val_main_v162 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v171 (F := Ideal) (m ((c.tc : Thread nD τ).loc main_arg2))) := by
  show StableHlo.after (hostOps2 (F := Ideal)) (W6 m ρ c) (Proc.devRef .tc main_v97) = _
  after_results_simp
  rw [h_eq m ρ c, W6_arg2 m ρ c]
  rfl

/-- The second endpoints' rows likewise. -/
theorem rows_dst : W7 m ρ c (Proc.devRef .tc main_v106)
    = Host.gather gather_S50000x128_S200000x1_S200000x128_1_0_n_n_0_1_1128
        (val_main_v162 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v180 (F := Ideal) (m ((c.tc : Thread nD τ).loc main_arg2))) := by
  show StableHlo.after (hostOps2 (F := Ideal)) (W6 m ρ c) (Proc.devRef .tc main_v106) = _
  after_results_simp
  rw [h_eq m ρ c, W6_arg2 m ρ c]
  rfl

/-- Rectifying after the gather (the kernel) or before it (the reference) is the same entry. -/
theorem prod_eq (e : Fin 200000) (k : Fin 128) :
    relu (rd2 (V7 m ρ c main_v97 : S200000x128.Idx → EReal) e k) * relu (rd2 (V7 m ρ c main_v106 : S200000x128.Idx → EReal) e k)
      = rd2 (val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) e k * rd2 (val_main_v181 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) e k := by
  show relu (rd2 (W7 m ρ c (Proc.devRef .tc main_v97)) e k) * relu (rd2 (W7 m ρ c (Proc.devRef .tc main_v106)) e k) = _
  rw [rows_src, rows_dst]
  rfl

/-- The kernel's scores are the reference's. -/
theorem score_eq [Cert.Pre_finite_inputs.Facts] (hpre : Cert.Pre_KernelIdeal m) (e : Fin 200000) :
    (W9 m ρ c (Proc.devRef .tc main_v112) : S200000.Idx → EReal) (ix1 e)
      = val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix1 e) := by
  rw [W9_v112]
  refine (scores_flat _ e).trans ?_
  refine (congrFun (W8_arr m ρ c 4) (ix2 e (0 : Fin 1))).trans ?_
  refine (region2_score (V7 m ρ) c e).trans ?_
  rw [score_weights m ρ c, score_bias m ρ c, ref_score]
  rw [show (fun (e : Fin 200000) (k : Fin 128) =>
        relu (rd2 (V7 m ρ c main_v97 : S200000x128.Idx → EReal) e k) * relu (rd2 (V7 m ρ c main_v106 : S200000x128.Idx → EReal) e k))
      = fun e k => rd2 (val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) e k * rd2 (val_main_v181 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) e k
    from funext fun e => funext fun k => prod_eq m ρ c e k]
  obtain ⟨hH, hw, hb⟩ := Cert.KernelIdeal.Finite.real_inputs m hpre c
  exact score_eq_scoreRef _ _ _ e (fun k => real_prod _ _ _ _ _ _ _ _ _ _ hH e k) (fun k j => hw (ix2 k j)) (fun j => hb (ix1 j))

end Cert.KernelIdeal.Bridge

end
-- ==== Proof.lean ====
/-
  The certificate of a gated graph recurrent cell with a link decoder against its jnp reference.

  Both programs compute, on a graph of 50000 nodes and 800000 edges, the symmetric-normalized propagation
  `p(v) = −D^(-1/2) A D^(-1/2) v` of the input `x` and of the state `H` (gather the source rows, scale by the edge weight,
  scatter-add to the destination rows), three gates of order-two Chebyshev convolutions
  `pre_g = (x·Wx0[g] + p(x)·Wx1[g] + bx[g]) + (h·Wh0[g] + p(h)·Wh1[g] + bh[g])`, the update gate `Z = logistic pre₀`, the
  reset product `HR = H·logistic pre₁`, the new state `h = Z·H + (1 − Z)·tanh pre₂` with `pre₂` at `HR` and `p(HR)`, and for
  200000 node pairs the score `∑ₖ relu(h[a,k])·relu(h[b,k])` projected by a 128×2 matrix, biased, and summed.

  The kernel does the dense work in three tiled kernels (two for the gates over blocks of 2000 nodes, one for the scores
  over blocks of 5000 pairs) and the propagations and row gathers by the reference's own host operations. Read over the
  extended reals the two agree entry by entry: every sum and product up to the new state is taken in the same order on
  both sides (tiling a matrix product by rows does not change an entry's sum; a change of float format is the identity),
  and the one rearrangement — the kernel sums the projection's two columns first — is distributivity over factors
  that are real numbers: the projection and its bias by the precondition, and the rectified state because a logistic
  value and a hyperbolic tangent are real for every extended-real argument and the old state is a finite input.

  The frames: both printed kernels' are the generated ones; the reference's is its run with the results dropped.
  The idealization rewrote nothing, so there is nothing to preserve.
-/
import proofs.«138199_j35132832481406_2_alg».proof.Defs
import proofs.«138199_j35132832481406_2_alg».proof.Proof.Gen.Kernel
import proofs.«138199_j35132832481406_2_alg».proof.Proof.Gen.Kernel.Skeleton
import proofs.«138199_j35132832481406_2_alg».proof.Proof.Gen.Kernel.Launch
import proofs.«138199_j35132832481406_2_alg».proof.Proof.Gen.Kernel.Points
import proofs.«138199_j35132832481406_2_alg».proof.Proof.Gen.Kernel.Frame
import proofs.«138199_j35132832481406_2_alg».proof.Proof.Gen.KernelIdeal
import proofs.«138199_j35132832481406_2_alg».proof.Proof.Gen.KernelIdeal.Skeleton
import proofs.«138199_j35132832481406_2_alg».proof.Proof.Gen.KernelIdeal.Launch
import proofs.«138199_j35132832481406_2_alg».proof.Proof.Gen.KernelIdeal.Points
import proofs.«138199_j35132832481406_2_alg».proof.Proof.Gen.KernelIdeal.Frame
import proofs.«138199_j35132832481406_2_alg».proof.Proof.Gen.ReferenceIdeal
import proofs.«138199_j35132832481406_2_alg».proof.Proof.Gen.Pre_finite_inputs
import proofs.«138199_j35132832481406_2_alg».proof.Proof.KernelRun
import proofs.«138199_j35132832481406_2_alg».proof.Proof.Bridge2
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- At the ideal values both programs end with the same scores and the same new state: the kernel's run names its two
    results at the last boundary's contents, the reference's at its stages, and the two are equal arrays. -/
theorem algebraic : Cert.algebraic_KernelIdeal_ReferenceIdeal := by
  intro m ρ m' ρ' hpre hagree
  refine ⟨fun c => Cert.KernelIdeal.Gen.W9 m ρ c (Proc.devRef .tc Cert.KernelIdeal.main_v112),
    fun c => Cert.KernelIdeal.Gen.W9 m ρ c (Proc.devRef .tc Cert.KernelIdeal.main_v88),
    Cert.KernelIdeal.RunValue.run m ρ, ?_⟩
  refine (θ_run Cert.ReferenceIdeal.defs _ _).mono (fun r h c => ⟨?_, ?_, (h c).2.2⟩)
    (Cert.ReferenceIdeal.ValueP.run (F := Ideal) m' ρ')
  · obtain ⟨e0, e1, e2, e3, e4, e5, e6, e7, e8, e9, e10, e11⟩ := hagree c
    rw [(h c).1, Cert.ReferenceIdeal.ReadP.val_main_v187_eq, e0, e1, e2, e3, e4, e5, e6, e7, e8, e9, e10, e11]
    funext i
    obtain ⟨e, rfl⟩ : ∃ e : Fin 200000, i = ix1 e := ⟨i 0, eq_ix1 i⟩
    exact (Cert.KernelIdeal.Bridge.score_eq m ρ c hpre e).symm
  · obtain ⟨e0, e1, e2, e3, e4, e5, e6, e7, e8, e9, e10, e11⟩ := hagree c
    rw [(h c).2.1, Cert.ReferenceIdeal.ReadP.val_main_v162_eq, e0, e1, e3, e4, e5, e6, e7, e8, e9]
    exact ((Cert.KernelIdeal.HostRead.W9_v88 m ρ c).trans (Cert.KernelIdeal.Bridge.h_eq m ρ c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
